-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000 : Shape := ⟨1, ![1600000]⟩
abbrev S100000 : Shape := ⟨1, ![100000]⟩
abbrev S4x32x32 : Shape := ⟨3, ![4, 32, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100000 : S_.BroadcastsInDim S100000 (![] : Fin 0 → Fin S100000.rank)
  reducesTo_S100000_S_d0 : S100000.ReducesTo [0] S_
  bcast_S_S4x32x32 : S_.BroadcastsInDim S4x32x32 (![] : Fin 0 → Fin S4x32x32.rank)
  reducesTo_S4x32x32_S_d0_1_2 : S4x32x32.ReducesTo [0, 1, 2] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S100000 .f32) (main_arg9 : FVec F S100000 .f32) (main_v33 : IVec S_ 1) : IVec S_ 1 :=
  let main_v34 : FVec F S100000 .f32 := Host.absf main_arg8
  let main_cst_12 : FVec F S_ .f32 := constant S_ .f32 0x7F800000#32
  let main_v35 : FVec F S100000 .f32 := broadcastInDim S100000 ![] bcast_S_S100000 main_cst_12
  let main_v36 : IVec S100000 1 := cmpf .olt main_v34 main_v35
  let main_c_13 : IVec S_ 1 := constantI S_ 1 1#1
  let main_v37 : IVec S_ 1 := (fun x v => Host.reduce IntOp.andi x v reducesTo_S100000_S_d0 h_S_) main_v36 main_c_13
  let main_v38 : IVec S_ 1 := andi main_v33 main_v37
  let main_v39 : FVec F S100000 .f32 := Host.absf main_arg9
  let main_cst_14 : FVec F S_ .f32 := constant S_ .f32 0x7F800000#32
  let main_v40 : FVec F S100000 .f32 := broadcastInDim S100000 ![] bcast_S_S100000 main_cst_14
  let main_v41 : IVec S100000 1 := cmpf .olt main_v39 main_v40
  let main_c_15 : IVec S_ 1 := constantI S_ 1 1#1
  let main_v42 : IVec S_ 1 := (fun x v => Host.reduce IntOp.andi x v reducesTo_S100000_S_d0 h_S_) main_v41 main_c_15
  let main_v43 : IVec S_ 1 := andi main_v38 main_v42
  main_v43

def fn_part1 {F : FTy → Type} [FloatOps F] (main_arg5 : FVec F S32 .f32) (main_arg6 : FVec F S4x32x32 .f32) (main_arg7 : FVec F S32 .f32) (main_arg8 : FVec F S100000 .f32) (main_arg9 : FVec F S100000 .f32) (main_v13 : IVec S_ 1) (main_v16 : IVec S4x32x32 1) : IVec S_ 1 :=
  let main_c_5 : IVec S_ 1 := constantI S_ 1 1#1
  let main_v17 : IVec S_ 1 := (fun x v => Host.reduce IntOp.andi x v reducesTo_S4x32x32_S_d0_1_2 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S4x32x32 .f32 := Host.absf main_arg6
  let main_cst_8 : FVec F S_ .f32 := constant S_ .f32 0x7F800000#32
  let main_v25 : FVec F S4x32x32 .f32 := broadcastInDim S4x32x32 ![] bcast_S_S4x32x32 main_cst_8
  let main_v26 : IVec S4x32x32 1 := cmpf .olt main_v24 main_v25
  let main_c_9 : IVec S_ 1 := constantI S_ 1 1#1
  let main_v27 : IVec S_ 1 := (fun x v => Host.reduce IntOp.andi x v reducesTo_S4x32x32_S_d0_1_2 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x1600000 32) (main_arg2 : FVec F S1600000 .f32) (main_arg3 : FVec F S100000 .f32) (main_arg4 : FVec F S4x32x32 .f32) (main_arg5 : FVec F S32 .f32) (main_arg6 : FVec F S4x32x32 .f32) (main_arg7 : FVec F S32 .f32) (main_arg8 : FVec F S100000 .f32) (main_arg9 : FVec F S100000 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S4x32x32 .f32 := Host.absf main_arg4
  let main_cst_4 : FVec F S_ .f32 := constant S_ .f32 0x7F800000#32
  let main_v15 : FVec F S4x32x32 .f32 := broadcastInDim S4x32x32 ![] bcast_S_S4x32x32 main_cst_4
  let main_v16 : IVec S4x32x32 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x1600000 : Shape := ⟨2, ![2, 1600000]⟩
abbrev S1600000 : Shape := ⟨1, ![1600000]⟩
abbrev S100000 : Shape := ⟨1, ![100000]⟩
abbrev S4x32x32 : Shape := ⟨3, ![4, 32, 32]⟩
abbrev S32 : Shape := ⟨1, ![32]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩
abbrev S100000x128 : Shape := ⟨2, ![100000, 128]⟩
abbrev S128x32 : Shape := ⟨2, ![128, 32]⟩
abbrev S1x32 : Shape := ⟨2, ![1, 32]⟩
abbrev S5000x128 : Shape := ⟨2, ![5000, 128]⟩
abbrev S5000x32 : Shape := ⟨2, ![5000, 32]⟩
abbrev S100000x1 : Shape := ⟨2, ![100000, 1]⟩
abbrev S5000x1 : Shape := ⟨2, ![5000, 1]⟩
abbrev S5000 : Shape := ⟨1, ![5000]⟩

abbrev nBuf : Space → Nat
  | .hbm => 154
  | .vmem => 22
  | .smem => 0
  | _ => 0

abbrev hbmTy0_0 (i : Nat) : BufTy := match i % 128 with
  | 0 => ⟨S100000x32, .f32⟩
  | 1 => ⟨S2x1600000, .i32⟩
  | 2 => ⟨S1600000, .f32⟩
  | 3 => ⟨S100000, .f32⟩
  | 4 => ⟨S4x32x32, .f32⟩
  | 5 => ⟨S32, .f32⟩
  | 6 => ⟨S4x32x32, .f32⟩
  | 7 => ⟨S32, .f32⟩
  | 8 => ⟨S100000, .f32⟩
  | 9 => ⟨S100000, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .i1⟩
  | 21 => ⟨S100000, .f32⟩
  | 22 => ⟨S_, .f32⟩
  | 23 => ⟨S_, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S1600000x1, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x32, .f32⟩
  | 56 => ⟨S1600000x32, .f32⟩
  | 57 => ⟨S1600000x32, .f32⟩
  | 58 => ⟨S_, .f32⟩
  | 59 => ⟨S100000x32, .f32⟩
  | 60 => ⟨S1600000x1, .i32⟩
  | 61 => ⟨S100000x32, .f32⟩
  | 62 => ⟨S1600000x1, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x32, .f32⟩
  | 72 => ⟨S1600000x32, .f32⟩
  | 73 => ⟨S1600000x32, .f32⟩
  | 74 => ⟨S_, .f32⟩
  | 75 => ⟨S100000x32, .f32⟩
  | 76 => ⟨S1600000x1, .i32⟩
  | 77 => ⟨S100000x32, .f32⟩
  | 78 => ⟨S1600000x1, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x32, .f32⟩
  | 88 => ⟨S1600000x32, .f32⟩
  | 89 => ⟨S1600000x32, .f32⟩
  | 90 => ⟨S_, .f32⟩
  | 91 => ⟨S100000x32, .f32⟩
  | 92 => ⟨S1600000x1, .i32⟩
  | 93 => ⟨S100000x32, .f32⟩
  | 94 => ⟨S100000x128, .f32⟩
  | 95 => ⟨S128x32, .f32⟩
  | 96 => ⟨S1x32, .f32⟩
  | 97 => ⟨S100000x32, .f32⟩
  | 98 => ⟨S100000x1, .f32⟩
  | 99 => ⟨S100000x1, .f32⟩
  | 100 => ⟨S100000x32, .f32⟩
  | 101 => ⟨S1600000x1, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x32, .f32⟩
  | 111 => ⟨S1600000x32, .f32⟩
  | 112 => ⟨S1600000x32, .f32⟩
  | 113 => ⟨S_, .f32⟩
  | 114 => ⟨S100000x32, .f32⟩
  | 115 => ⟨S1600000x1, .i32⟩
  | 116 => ⟨S100000x32, .f32⟩
  | 117 => ⟨S1600000x1, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x32, .f32⟩
  | 127 => ⟨S1600000x32, .f32⟩
  | _ => ⟨S100000x32, .f32⟩

abbrev hbmTy0_1 (i : Nat) : BufTy := match i % 128 with
  | 0 => ⟨S1600000x32, .f32⟩
  | 1 => ⟨S_, .f32⟩
  | 2 => ⟨S100000x32, .f32⟩
  | 3 => ⟨S1600000x1, .i32⟩
  | 4 => ⟨S100000x32, .f32⟩
  | 5 => ⟨S1600000x1, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x32, .f32⟩
  | 15 => ⟨S1600000x32, .f32⟩
  | 16 => ⟨S1600000x32, .f32⟩
  | 17 => ⟨S_, .f32⟩
  | 18 => ⟨S100000x32, .f32⟩
  | 19 => ⟨S1600000x1, .i32⟩
  | 20 => ⟨S100000x32, .f32⟩
  | 21 => ⟨S100000x128, .f32⟩
  | 22 => ⟨S128x32, .f32⟩
  | 23 => ⟨S1x32, .f32⟩
  | 24 => ⟨S100000x1, .f32⟩
  | 25 => ⟨S100000x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S1x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x32, .f32⟩
  | .local _ .vmem, ⟨13, _⟩ => ⟨S5000x32, .f32⟩
  | .local _ .vmem, ⟨14, _⟩ => ⟨S5000x128, .f32⟩
  | .local _ .vmem, ⟨15, _⟩ => ⟨S5000x128, .f32⟩
  | .local _ .vmem, ⟨16, _⟩ => ⟨S128x32, .f32⟩
  | .local _ .vmem, ⟨17, _⟩ => ⟨S1x32, .f32⟩
  | .local _ .vmem, ⟨18, _⟩ => ⟨S5000x1, .f32⟩
  | .local _ .vmem, ⟨19, _⟩ => ⟨S5000x1, .f32⟩
  | .local _ .vmem, ⟨20, _⟩ => ⟨S5000x32, .f32⟩
  | .local _ .vmem, ⟨21, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_14 : Ref sig .tc := ⟨.hbm, 102, rfl⟩
abbrev main_v74 : Ref sig .tc := ⟨.hbm, 103, rfl⟩
abbrev main_v75 : Ref sig .tc := ⟨.hbm, 104, rfl⟩
abbrev main_c_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_16 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_17 : Ref sig .tc := ⟨.hbm, 118, rfl⟩
abbrev main_v87 : Ref sig .tc := ⟨.hbm, 119, rfl⟩
abbrev main_v88 : Ref sig .tc := ⟨.hbm, 120, rfl⟩
abbrev main_c_18 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_19 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_20 : Ref sig .tc := ⟨.hbm, 134, rfl⟩
abbrev main_v100 : Ref sig .tc := ⟨.hbm, 135, rfl⟩
abbrev main_v101 : Ref sig .tc := ⟨.hbm, 136, rfl⟩
abbrev main_c_21 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_22 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  concatenates_S100000x32_S100000x32_S100000x32_S100000x32_S100000x128_d1 : Shape.Concatenates [S100000x32, S100000x32, S100000x32, S100000x32] S100000x128 1
  shapeCasts_S4x32x32_S128x32 : S4x32x32.ShapeCasts S128x32
  shapeCasts_S32_S1x32 : S32.ShapeCasts S1x32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  shapeCasts_S100000_S100000x1 : S100000.ShapeCasts S100000x1
  shapeCasts_S5000x32_S5000x32 : S5000x32.ShapeCasts S5000x32
  reduces_S5000x32_S5000 : S5000x32.Reduces [1] S5000
  shapeCasts_S5000_S5000x1 : S5000.ShapeCasts S5000x1
  broadcasts_S5000x1_S5000x32 : S5000x1.Broadcasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x128_S128x32_S5000x32_1_0_0_1_n_n_wf : DotDims.WF S5000x128 S128x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x32.size a ≤ S128x32.size a
  hwx2_1 : ∀ i : grid2.Coords, EltTy.bits .f32 = 32 ∨ (Rect.block (s := S128x32) S128x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x32.size a ≤ S100000x32.size a
  hwx2_4 : ∀ i : grid2.Coords, EltTy.bits .f32 = 32 ∨ (Rect.block (s := S100000x32) S5000x32.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf

abbrev win0_0 : Pipeline.Window sig grid0 :=
  Pipeline.Window.ofSpec (Memref.whole main_v66) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v67) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v68) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v69) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v69) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v70) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v71) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v72) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v112) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v113) S128x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v114) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v115) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v116) S5000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000 : Shape := ⟨1, ![1600000]⟩
abbrev S100000 : Shape := ⟨1, ![100000]⟩
abbrev S4x32x32 : Shape := ⟨3, ![4, 32, 32]⟩
abbrev S32 : Shape := ⟨1, ![32]⟩
abbrev S1x1600000 : Shape := ⟨2, ![1, 1600000]⟩
abbrev S_ : Shape := ⟨0, ![]⟩
abbrev S1600000x1 : Shape := ⟨2, ![1600000, 1]⟩
abbrev S1x32x32 : Shape := ⟨3, ![1, 32, 32]⟩
abbrev S32x32 : Shape := ⟨2, ![32, 32]⟩
abbrev S1600000x32 : Shape := ⟨2, ![1600000, 32]⟩
abbrev S1x32 : Shape := ⟨2, ![1, 32]⟩
abbrev S100000x1 : Shape := ⟨2, ![100000, 1]⟩

abbrev nBuf : Space → Nat
  | .hbm => 217
  | .vmem => 0
  | .smem => 0
  | _ => 0

abbrev hbmTy0_0 (i : Nat) : BufTy := match i % 128 with
  | 0 => ⟨S100000x32, .f32⟩
  | 1 => ⟨S2x1600000, .i32⟩
  | 2 => ⟨S1600000, .f32⟩
  | 3 => ⟨S100000, .f32⟩
  | 4 => ⟨S4x32x32, .f32⟩
  | 5 => ⟨S32, .f32⟩
  | 6 => ⟨S4x32x32, .f32⟩
  | 7 => ⟨S32, .f32⟩
  | 8 => ⟨S100000, .f32⟩
  | 9 => ⟨S100000, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .i1⟩
  | 21 => ⟨S100000, .f32⟩
  | 22 => ⟨S_, .f32⟩
  | 23 => ⟨S_, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S1x32x32, .f32⟩
  | 47 => ⟨S32x32, .f32⟩
  | 48 => ⟨S100000x32, .f32⟩
  | 49 => ⟨S1600000x1, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x32, .f32⟩
  | 59 => ⟨S1600000x32, .f32⟩
  | 60 => ⟨S1600000x32, .f32⟩
  | 61 => ⟨S_, .f32⟩
  | 62 => ⟨S100000x32, .f32⟩
  | 63 => ⟨S1600000x1, .i32⟩
  | 64 => ⟨S100000x32, .f32⟩
  | 65 => ⟨S1x32x32, .f32⟩
  | 66 => ⟨S32x32, .f32⟩
  | 67 => ⟨S100000x32, .f32⟩
  | 68 => ⟨S100000x32, .f32⟩
  | 69 => ⟨S1600000x1, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x32, .f32⟩
  | 79 => ⟨S1600000x32, .f32⟩
  | 80 => ⟨S1600000x32, .f32⟩
  | 81 => ⟨S_, .f32⟩
  | 82 => ⟨S100000x32, .f32⟩
  | 83 => ⟨S1600000x1, .i32⟩
  | 84 => ⟨S100000x32, .f32⟩
  | 85 => ⟨S1x32x32, .f32⟩
  | 86 => ⟨S32x32, .f32⟩
  | 87 => ⟨S100000x32, .f32⟩
  | 88 => ⟨S100000x32, .f32⟩
  | 89 => ⟨S1600000x1, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x32, .f32⟩
  | 99 => ⟨S1600000x32, .f32⟩
  | 100 => ⟨S1600000x32, .f32⟩
  | 101 => ⟨S_, .f32⟩
  | 102 => ⟨S100000x32, .f32⟩
  | 103 => ⟨S1600000x1, .i32⟩
  | 104 => ⟨S100000x32, .f32⟩
  | 105 => ⟨S1x32x32, .f32⟩
  | 106 => ⟨S32x32, .f32⟩
  | 107 => ⟨S100000x32, .f32⟩
  | 108 => ⟨S100000x32, .f32⟩
  | 109 => ⟨S1x32, .f32⟩
  | 110 => ⟨S100000x32, .f32⟩
  | 111 => ⟨S100000x32, .f32⟩
  | 112 => ⟨S_, .f32⟩
  | 113 => ⟨S100000, .f32⟩
  | 114 => ⟨S100000x1, .f32⟩
  | 115 => ⟨S_, .f32⟩
  | 116 => ⟨S100000x1, .f32⟩
  | 117 => ⟨S100000x1, .f32⟩
  | 118 => ⟨S100000x32, .f32⟩
  | 119 => ⟨S100000x32, .f32⟩
  | 120 => ⟨S100000x32, .f32⟩
  | 121 => ⟨S_, .f32⟩
  | 122 => ⟨S100000, .f32⟩
  | 123 => ⟨S100000x1, .f32⟩
  | 124 => ⟨S_, .f32⟩
  | 125 => ⟨S100000x1, .f32⟩
  | 126 => ⟨S100000x1, .f32⟩
  | 127 => ⟨S100000x32, .f32⟩
  | _ => ⟨S100000x32, .f32⟩

abbrev hbmTy0_1 (i : Nat) : BufTy := match i % 128 with
  | 0 => ⟨S100000x32, .f32⟩
  | 1 => ⟨S_, .f32⟩
  | 2 => ⟨S100000x1, .f32⟩
  | 3 => ⟨S100000x1, .f32⟩
  | 4 => ⟨S100000x1, .f32⟩
  | 5 => ⟨S100000x32, .f32⟩
  | 6 => ⟨S100000x32, .f32⟩
  | 7 => ⟨S100000x1, .f32⟩
  | 8 => ⟨S100000x32, .f32⟩
  | 9 => ⟨S100000x32, .f32⟩
  | 10 => ⟨S100000x1, .f32⟩
  | 11 => ⟨S100000x32, .f32⟩
  | 12 => ⟨S100000x32, .f32⟩
  | 13 => ⟨S_, .f32⟩
  | 14 => ⟨S100000x32, .f32⟩
  | 15 => ⟨S100000x32, .i1⟩
  | 16 => ⟨S_, .f32⟩
  | 17 => ⟨S100000x32, .f32⟩
  | 18 => ⟨S100000x32, .f32⟩
  | 19 => ⟨S100000x32, .f32⟩
  | 20 => ⟨S1x32x32, .f32⟩
  | 21 => ⟨S32x32, .f32⟩
  | 22 => ⟨S100000x32, .f32⟩
  | 23 => ⟨S1600000x1, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x32, .f32⟩
  | 33 => ⟨S1600000x32, .f32⟩
  | 34 => ⟨S1600000x32, .f32⟩
  | 35 => ⟨S_, .f32⟩
  | 36 => ⟨S100000x32, .f32⟩
  | 37 => ⟨S1600000x1, .i32⟩
  | 38 => ⟨S100000x32, .f32⟩
  | 39 => ⟨S1x32x32, .f32⟩
  | 40 => ⟨S32x32, .f32⟩
  | 41 => ⟨S100000x32, .f32⟩
  | 42 => ⟨S100000x32, .f32⟩
  | 43 => ⟨S1600000x1, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x32, .f32⟩
  | 53 => ⟨S1600000x32, .f32⟩
  | 54 => ⟨S1600000x32, .f32⟩
  | 55 => ⟨S_, .f32⟩
  | 56 => ⟨S100000x32, .f32⟩
  | 57 => ⟨S1600000x1, .i32⟩
  | 58 => ⟨S100000x32, .f32⟩
  | 59 => ⟨S1x32x32, .f32⟩
  | 60 => ⟨S32x32, .f32⟩
  | 61 => ⟨S100000x32, .f32⟩
  | 62 => ⟨S100000x32, .f32⟩
  | 63 => ⟨S1600000x1, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x32, .f32⟩
  | 73 => ⟨S1600000x32, .f32⟩
  | 74 => ⟨S1600000x32, .f32⟩
  | 75 => ⟨S_, .f32⟩
  | 76 => ⟨S100000x32, .f32⟩
  | 77 => ⟨S1600000x1, .i32⟩
  | 78 => ⟨S100000x32, .f32⟩
  | 79 => ⟨S1x32x32, .f32⟩
  | 80 => ⟨S32x32, .f32⟩
  | 81 => ⟨S100000x32, .f32⟩
  | 82 => ⟨S100000x32, .f32⟩
  | 83 => ⟨S1x32, .f32⟩
  | 84 => ⟨S100000x32, .f32⟩
  | 85 => ⟨S100000x32, .f32⟩
  | 86 => ⟨S100000x1, .f32⟩
  | 87 => ⟨S100000x32, .f32⟩
  | 88 => ⟨S100000x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_11 : Ref sig .tc := ⟨.hbm, 90, rfl⟩
abbrev main_v65 : Ref sig .tc := ⟨.hbm, 91, rfl⟩
abbrev main_v66 : Ref sig .tc := ⟨.hbm, 92, rfl⟩
abbrev main_c_12 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_14 : Ref sig .tc := ⟨.hbm, 112, rfl⟩
abbrev main_v84 : Ref sig .tc := ⟨.hbm, 113, rfl⟩
abbrev main_v85 : Ref sig .tc := ⟨.hbm, 114, rfl⟩
abbrev main_cst_15 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_16 : Ref sig .tc := ⟨.hbm, 121, rfl⟩
abbrev main_v91 : Ref sig .tc := ⟨.hbm, 122, rfl⟩
abbrev main_v92 : Ref sig .tc := ⟨.hbm, 123, rfl⟩
abbrev main_cst_17 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_19 : Ref sig .tc := ⟨.hbm, 141, rfl⟩
abbrev main_v108 : Ref sig .tc := ⟨.hbm, 142, rfl⟩
abbrev main_v109 : Ref sig .tc := ⟨.hbm, 143, rfl⟩
abbrev main_cst_20 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_c_21 : Ref sig .tc := ⟨.hbm, 152, rfl⟩
abbrev main_v117 : Ref sig .tc := ⟨.hbm, 153, rfl⟩
abbrev main_v118 : Ref sig .tc := ⟨.hbm, 154, rfl⟩
abbrev main_c_22 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_23 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_c_24 : Ref sig .tc := ⟨.hbm, 172, rfl⟩
abbrev main_v134 : Ref sig .tc := ⟨.hbm, 173, rfl⟩
abbrev main_v135 : Ref sig .tc := ⟨.hbm, 174, rfl⟩
abbrev main_c_25 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_26 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_c_27 : Ref sig .tc := ⟨.hbm, 192, rfl⟩
abbrev main_v151 : Ref sig .tc := ⟨.hbm, 193, rfl⟩
abbrev main_v152 : Ref sig .tc := ⟨.hbm, 194, rfl⟩
abbrev main_c_28 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_cst_29 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S4x32x32_S1x32x32_0_0_0 : S4x32x32.Slices ![0, 0, 0] S1x32x32
  shapeCasts_S1x32x32_S32x32 : S1x32x32.ShapeCasts S32x32
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  slices_S4x32x32_S1x32x32_1_0_0 : S4x32x32.Slices ![1, 0, 0] S1x32x32
  slices_S4x32x32_S1x32x32_2_0_0 : S4x32x32.Slices ![2, 0, 0] S1x32x32
  slices_S4x32x32_S1x32x32_3_0_0 : S4x32x32.Slices ![3, 0, 0] S1x32x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.FrameK.Body0.lean ====
import proofs.«151591_j33251636806000_1_alg».proof.Proof.Gen.Kernel.Launch
import proofs.«151591_j33251636806000_1_alg».proof.Proof.Gen.Kernel.Skeleton
import proofs.«151591_j33251636806000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 0 is entered
variable (V : (c : Dev nD) → (b : Ref sig .tc) → Buf (Elt F) ((c : Thread nD τ).loc b))

/-! # Region 0 at the entry contents `V` -/

/-- Window `w`'s block at point `t`, read off its array at `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether fetched there or not: when it is not
    fetched its block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether fetched there or not: when it is not
    fetched its block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether fetched there or not: when it is not
    fetched its block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x128 := Rect.unit (s := S5000x128) ![0, 0] S5000x128.size inb_S5000x128_S5000x128_0_0
abbrev r0_1 : Rect S128x32 := Rect.unit (s := S128x32) ![0, 0] S128x32.size inb_S128x32_S128x32_0_0
abbrev r0_2 : Rect S1x32 := Rect.unit (s := S1x32) ![0, 0] S1x32.size inb_S1x32_S1x32_0_0
abbrev r0_3 : Rect S5000x32 := Rect.unit (s := S5000x32) ![0, 0] S5000x32.size inb_S5000x32_S5000x32_0_0

/-- The output window's staging buffer after the body, from the input blocks: one store over the whole buffer. -/
def out0_3 (x0 : Vec F S5000x128 .f32) (x1 : Vec F S128x32 .f32) (x2 : Vec F S1x32 .f32) : Vec F S5000x32 .f32 :=
  View.canon [⟨r0_3, k0_pay1 (View.ld x0 r0_0) (View.ld x1 r0_1) (View.ld x2 r0_2)⟩]

/-- The one store covers the buffer. -/
theorem cover0_3 (p0 : Vec F S5000x32 .f32) (y : S5000x32.Idx) :
    ∃ pc ∈ ([⟨r0_3, p0⟩] : List (View.Piece (Elt F) S5000x32 .f32)), y ∈ pc.1.set :=
  View.cover_of_tiled [⟨r0_3, p0⟩] S5000x32.size (by rfl) y

/-! ## The body's triple -/

set_option maxHeartbeats 1000000 in
/-- The body on whole staging memrefs, the inputs' at contents `xW` and the output's at anything, runs to the continuation
    holding the inputs' as they were and the output's at `out0_3` of them. The body also reads the output's buffer,
    at whatever it holds; the value read is not used. -/
theorem sound_kernel0 (c : Dev nD) (E : Set ℕ) (i : grid0.Coords) (arg0 : Memref sig .tc .vmem S5000x128 .f32) (harg0 : arg0.IsWhole) (arg1 : Memref sig .tc .vmem S128x32 .f32) (harg1 : arg1.IsWhole) (arg2 : Memref sig .tc .vmem S1x32 .f32) (harg2 : arg2.IsWhole) (arg3 : Memref sig .tc .vmem S5000x32 .f32) (harg3 : arg3.IsWhole)
    (x0 : Vec F S5000x128 .f32) (x1 : Vec F S128x32 .f32) (x2 : Vec F S1x32 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__combine_kernel i arg0 harg0 arg1 harg1 arg2 harg2 arg3 harg3) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays at `V`; after the body at point `t` each input's buffer at its
    block and the output's at `out0_3` of the input blocks; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrameK.Body1.lean ====
import proofs.«151591_j33251636806000_1_alg».proof.Proof.Gen.Kernel.Launch
import proofs.«151591_j33251636806000_1_alg».proof.Proof.Gen.Kernel.Skeleton
import proofs.«151591_j33251636806000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-! # Region 1 at the entry contents `V` -/

/-- Window `w`'s block at point `t`, read off its array at `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether fetched there or not: when it is not
    fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether fetched there or not: when it is not
    fetched its block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether fetched there or not: when it is not
    fetched its block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S5000x32 := Rect.unit (s := S5000x32) ![0, 0] S5000x32.size inb_S5000x32_S5000x32_0_0
abbrev r1_1 : Rect S5000x1 := Rect.unit (s := S5000x1) ![0, 0] S5000x1.size inb_S5000x1_S5000x1_0_0
abbrev r1_2 : Rect S5000x1 := Rect.unit (s := S5000x1) ![0, 0] S5000x1.size inb_S5000x1_S5000x1_0_0
abbrev r1_3 : Rect S5000x32 := Rect.unit (s := S5000x32) ![0, 0] S5000x32.size inb_S5000x32_S5000x32_0_0

/-- The output window's staging buffer after the body, from the input blocks: one store over the whole buffer. -/
def out1_3 (x0 : Vec F S5000x32 .f32) (x1 : Vec F S5000x1 .f32) (x2 : Vec F S5000x1 .f32) : Vec F S5000x32 .f32 :=
  View.canon [⟨r1_3, k1_pay1 (View.ld x0 r1_0) (View.ld x1 r1_1) (View.ld x2 r1_2)⟩]

/-- The one store covers the buffer. -/
theorem cover1_3 (p0 : Vec F S5000x32 .f32) (y : S5000x32.Idx) :
    ∃ pc ∈ ([⟨r1_3, p0⟩] : List (View.Piece (Elt F) S5000x32 .f32)), y ∈ pc.1.set :=
  View.cover_of_tiled [⟨r1_3, p0⟩] S5000x32.size (by rfl) y

/-! ## The body's triple -/

set_option maxHeartbeats 1000000 in
/-- The body on whole staging memrefs, the inputs' at contents `xW` and the output's at anything, runs to the continuation
    holding the inputs' as they were and the output's at `out1_3` of them. The body also reads the output's buffer,
    at whatever it holds; the value read is not used. -/
theorem sound_kernel1 (c : Dev nD) (E : Set ℕ) (i : grid1.Coords) (arg0 : Memref sig .tc .vmem S5000x32 .f32) (harg0 : arg0.IsWhole) (arg1 : Memref sig .tc .vmem S5000x1 .f32) (harg1 : arg1.IsWhole) (arg2 : Memref sig .tc .vmem S5000x1 .f32) (harg2 : arg2.IsWhole) (arg3 : Memref sig .tc .vmem S5000x32 .f32) (harg3 : arg3.IsWhole)
    (x0 : Vec F S5000x32 .f32) (x1 : Vec F S5000x1 .f32) (x2 : Vec F S5000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__bn_lrelu_kernel i arg0 harg0 arg1 harg1 arg2 harg2 arg3 harg3) K := by
  simp only [cc1__bn_lrelu_kernel_eq_skeleton]; unfold cc1__bn_lrelu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays at `V`; after the body at point `t` each input's buffer at its
    block and the output's at `out1_3` of the input blocks; the invariant the scoped rest and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.FrameK.Body2.lean ====
import proofs.«151591_j33251636806000_1_alg».proof.Proof.Gen.Kernel.Launch
import proofs.«151591_j33251636806000_1_alg».proof.Proof.Gen.Kernel.Skeleton
import proofs.«151591_j33251636806000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 2 is entered
variable (V : (c : Dev nD) → (b : Ref sig .tc) → Buf (Elt F) ((c : Thread nD τ).loc b))

/-! # Region 2 at the entry contents `V` -/

/-- Window `w`'s block at point `t`, read off its array at `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether fetched there or not: when it is not
    fetched its block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether fetched there or not: when it is not
    fetched its block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether fetched there or not: when it is not
    fetched its block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether fetched there or not: when it is not
    fetched its block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S5000x128 := Rect.unit (s := S5000x128) ![0, 0] S5000x128.size inb_S5000x128_S5000x128_0_0
abbrev r2_1 : Rect S128x32 := Rect.unit (s := S128x32) ![0, 0] S128x32.size inb_S128x32_S128x32_0_0
abbrev r2_2 : Rect S1x32 := Rect.unit (s := S1x32) ![0, 0] S1x32.size inb_S1x32_S1x32_0_0
abbrev r2_3 : Rect S5000x1 := Rect.unit (s := S5000x1) ![0, 0] S5000x1.size inb_S5000x1_S5000x1_0_0
abbrev r2_4 : Rect S5000x32 := Rect.unit (s := S5000x32) ![0, 0] S5000x32.size inb_S5000x32_S5000x32_0_0

/-- The output window's staging buffer after the body, from the input blocks: one store over the whole buffer. -/
def out2_4 (x0 : Vec F S5000x128 .f32) (x1 : Vec F S128x32 .f32) (x2 : Vec F S1x32 .f32) (x3 : Vec F S5000x1 .f32) : Vec F S5000x32 .f32 :=
  View.canon [⟨r2_4, k2_pay1 (View.ld x0 r2_0) (View.ld x1 r2_1) (View.ld x2 r2_2) (View.ld x3 r2_3)⟩]

/-- The one store covers the buffer. -/
theorem cover2_4 (p0 : Vec F S5000x32 .f32) (y : S5000x32.Idx) :
    ∃ pc ∈ ([⟨r2_4, p0⟩] : List (View.Piece (Elt F) S5000x32 .f32)), y ∈ pc.1.set :=
  View.cover_of_tiled [⟨r2_4, p0⟩] S5000x32.size (by rfl) y

/-! ## The body's triple -/

set_option maxHeartbeats 1000000 in
/-- The body on whole staging memrefs, the inputs' at contents `xW` and the output's at anything, runs to the continuation
    holding the inputs' as they were and the output's at `out2_4` of them. The body also reads the output's buffer,
    at whatever it holds; the value read is not used. -/
theorem sound_kernel2 (c : Dev nD) (E : Set ℕ) (i : grid2.Coords) (arg0 : Memref sig .tc .vmem S5000x128 .f32) (harg0 : arg0.IsWhole) (arg1 : Memref sig .tc .vmem S128x32 .f32) (harg1 : arg1.IsWhole) (arg2 : Memref sig .tc .vmem S1x32 .f32) (harg2 : arg2.IsWhole) (arg3 : Memref sig .tc .vmem S5000x1 .f32) (harg3 : arg3.IsWhole) (arg4 : Memref sig .tc .vmem S5000x32 .f32) (harg4 : arg4.IsWhole)
    (x0 : Vec F S5000x128 .f32) (x1 : Vec F S128x32 .f32) (x2 : Vec F S1x32 .f32) (x3 : Vec F S5000x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__combine_mask_kernel i arg0 harg0 arg1 harg1 arg2 harg2 arg3 harg3 arg4 harg4) K := by
  simp only [cc2__combine_mask_kernel_eq_skeleton]; unfold cc2__combine_mask_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays at `V`; after the body at point `t` each input's buffer at its
    block and the output's at `out2_4` of the input blocks; the invariant the scoped rest and the generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.FrameK.Fold.lean ====
import proofs.«151591_j33251636806000_1_alg».proof.Proof.Gen.Kernel.Launch
import proofs.«151591_j33251636806000_1_alg».proof.Proof.Gen.Kernel.Skeleton
import proofs.«151591_j33251636806000_1_alg».proof.Proof.Gen.Kernel.Points
import proofs.«151591_j33251636806000_1_alg».proof.Proof.FrameK.Body0
import proofs.«151591_j33251636806000_1_alg».proof.Proof.FrameK.Body1
import proofs.«151591_j33251636806000_1_alg».proof.Proof.FrameK.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After the first 13 host operations. -/
abbrev W1 : Dev nD → Valuation τ sig (Elt F) := fun c => StableHlo.after main_part0_ops0 (W0 m ρ c)
/-- After the 3 operations of the called function. -/
abbrev W2 : Dev nD → Valuation τ sig (Elt F) := fun c => StableHlo.after main_part0_ops1 (W1 m ρ c)
/-- After the next 46 host operations. -/
abbrev W3 : Dev nD → Valuation τ sig (Elt F) := fun c => StableHlo.after main_part0_ops2 (W2 m ρ c)
/-- After the next 25 host operations: region 0's entry. -/
abbrev W4 : Dev nD → Valuation τ sig (Elt F) := fun c => StableHlo.after main_part1_ops0 (W3 m ρ c)
/-- The same read at the TensorCore's references. -/
abbrev V4 : (c : Dev nD) → (b : Ref sig .tc) → Buf (Elt F) ((c : Thread nD τ).loc b) := fun c b => W4 m ρ c b
/-- At region 0's exit: its arrays at what the pipeline leaves, every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- After the 2 host operations between regions 0 and 1: region 1's entry. -/
abbrev W6 : Dev nD → Valuation τ sig (Elt F) := fun c => StableHlo.after main_part1_ops1 (W5 m ρ c)
abbrev V6 : (c : Dev nD) → (b : Ref sig .tc) → Buf (Elt F) ((c : Thread nD τ).loc b) := fun c b => W6 m ρ c b
/-- At region 1's exit. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After the next 31 host operations. -/
abbrev W8 : Dev nD → Valuation τ sig (Elt F) := fun c => StableHlo.after main_part1_ops2 (W7 m ρ c)
/-- After the last 21 host operations: region 2's entry. -/
abbrev W9 : Dev nD → Valuation τ sig (Elt F) := fun c => StableHlo.after main_part2_ops0 (W8 m ρ c)
abbrev V9 : (c : Dev nD) → (b : Ref sig .tc) → Buf (Elt F) ((c : Thread nD τ).loc b) := fun c b => W9 m ρ c b
/-- At region 2's exit: the contents @main returns with. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-! ## The arguments end as launched: no host operation writes one and no region has one among its arrays -/

/-- A stretch of host operations leaves a buffer none of them writes as it was. -/
local macro "keeps" : tactic => `(tactic| (
  refine StableHlo.after_of_forall_not_mem _ _ (List.forall_iff_forall_mem.mp ?_)
  simp only [main_part0_ops0, main_part0_ops1, main_part0_ops2, main_part1_ops0, main_part1_ops1, main_part1_ops2, main_part2_ops0,
    List.Forall, StableHlo.nullary_writes, StableHlo.unary_writes, StableHlo.binary_writes, StableHlo.ternary_writes,
    StableHlo.quaternary_writes, StableHlo.reshape_writes, StableHlo.nary_writes, Finset.mem_singleton]
  repeat' apply And.intro
  all_goals exact StableHlo.devRef_ne_of_ne (by decide)))

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := by keeps
    _ = W7 m ρ c (Proc.devRef .tc main_arg0) := by keeps
    _ = W6 m ρ c (Proc.devRef .tc main_arg0) := W7_of_ne m ρ c main_arg0 (by decide)
    _ = W5 m ρ c (Proc.devRef .tc main_arg0) := by keeps
    _ = W4 m ρ c (Proc.devRef .tc main_arg0) := W5_of_ne m ρ c main_arg0 (by decide)
    _ = W3 m ρ c (Proc.devRef .tc main_arg0) := by keeps
    _ = W2 m ρ c (Proc.devRef .tc main_arg0) := by keeps
    _ = W1 m ρ c (Proc.devRef .tc main_arg0) := by keeps
    _ = W0 m ρ c (Proc.devRef .tc main_arg0) := by keeps
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := by keeps
    _ = W7 m ρ c (Proc.devRef .tc main_arg1) := by keeps
    _ = W6 m ρ c (Proc.devRef .tc main_arg1) := W7_of_ne m ρ c main_arg1 (by decide)
    _ = W5 m ρ c (Proc.devRef .tc main_arg1) := by keeps
    _ = W4 m ρ c (Proc.devRef .tc main_arg1) := W5_of_ne m ρ c main_arg1 (by decide)
    _ = W3 m ρ c (Proc.devRef .tc main_arg1) := by keeps
    _ = W2 m ρ c (Proc.devRef .tc main_arg1) := by keeps
    _ = W1 m ρ c (Proc.devRef .tc main_arg1) := by keeps
    _ = W0 m ρ c (Proc.devRef .tc main_arg1) := by keeps
    _ = m ((c : Thread nD τ).loc main_arg1) := rfl

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := by keeps
    _ = W7 m ρ c (Proc.devRef .tc main_arg2) := by keeps
    _ = W6 m ρ c (Proc.devRef .tc main_arg2) := W7_of_ne m ρ c main_arg2 (by decide)
    _ = W5 m ρ c (Proc.devRef .tc main_arg2) := by keeps
    _ = W4 m ρ c (Proc.devRef .tc main_arg2) := W5_of_ne m ρ c main_arg2 (by decide)
    _ = W3 m ρ c (Proc.devRef .tc main_arg2) := by keeps
    _ = W2 m ρ c (Proc.devRef .tc main_arg2) := by keeps
    _ = W1 m ρ c (Proc.devRef .tc main_arg2) := by keeps
    _ = W0 m ρ c (Proc.devRef .tc main_arg2) := by keeps
    _ = m ((c : Thread nD τ).loc main_arg2) := rfl

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := by keeps
    _ = W7 m ρ c (Proc.devRef .tc main_arg3) := by keeps
    _ = W6 m ρ c (Proc.devRef .tc main_arg3) := W7_of_ne m ρ c main_arg3 (by decide)
    _ = W5 m ρ c (Proc.devRef .tc main_arg3) := by keeps
    _ = W4 m ρ c (Proc.devRef .tc main_arg3) := W5_of_ne m ρ c main_arg3 (by decide)
    _ = W3 m ρ c (Proc.devRef .tc main_arg3) := by keeps
    _ = W2 m ρ c (Proc.devRef .tc main_arg3) := by keeps
    _ = W1 m ρ c (Proc.devRef .tc main_arg3) := by keeps
    _ = W0 m ρ c (Proc.devRef .tc main_arg3) := by keeps
    _ = m ((c : Thread nD τ).loc main_arg3) := rfl

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := by keeps
    _ = W7 m ρ c (Proc.devRef .tc main_arg4) := by keeps
    _ = W6 m ρ c (Proc.devRef .tc main_arg4) := W7_of_ne m ρ c main_arg4 (by decide)
    _ = W5 m ρ c (Proc.devRef .tc main_arg4) := by keeps
    _ = W4 m ρ c (Proc.devRef .tc main_arg4) := W5_of_ne m ρ c main_arg4 (by decide)
    _ = W3 m ρ c (Proc.devRef .tc main_arg4) := by keeps
    _ = W2 m ρ c (Proc.devRef .tc main_arg4) := by keeps
    _ = W1 m ρ c (Proc.devRef .tc main_arg4) := by keeps
    _ = W0 m ρ c (Proc.devRef .tc main_arg4) := by keeps
    _ = m ((c : Thread nD τ).loc main_arg4) := rfl

theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := by keeps
    _ = W7 m ρ c (Proc.devRef .tc main_arg5) := by keeps
    _ = W6 m ρ c (Proc.devRef .tc main_arg5) := W7_of_ne m ρ c main_arg5 (by decide)
    _ = W5 m ρ c (Proc.devRef .tc main_arg5) := by keeps
    _ = W4 m ρ c (Proc.devRef .tc main_arg5) := W5_of_ne m ρ c main_arg5 (by decide)
    _ = W3 m ρ c (Proc.devRef .tc main_arg5) := by keeps
    _ = W2 m ρ c (Proc.devRef .tc main_arg5) := by keeps
    _ = W1 m ρ c (Proc.devRef .tc main_arg5) := by keeps
    _ = W0 m ρ c (Proc.devRef .tc main_arg5) := by keeps
    _ = m ((c : Thread nD τ).loc main_arg5) := rfl

theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := by keeps
    _ = W7 m ρ c (Proc.devRef .tc main_arg6) := by keeps
    _ = W6 m ρ c (Proc.devRef .tc main_arg6) := W7_of_ne m ρ c main_arg6 (by decide)
    _ = W5 m ρ c (Proc.devRef .tc main_arg6) := by keeps
    _ = W4 m ρ c (Proc.devRef .tc main_arg6) := W5_of_ne m ρ c main_arg6 (by decide)
    _ = W3 m ρ c (Proc.devRef .tc main_arg6) := by keeps
    _ = W2 m ρ c (Proc.devRef .tc main_arg6) := by keeps
    _ = W1 m ρ c (Proc.devRef .tc main_arg6) := by keeps
    _ = W0 m ρ c (Proc.devRef .tc main_arg6) := by keeps
    _ = m ((c : Thread nD τ).loc main_arg6) := rfl

theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := by keeps
    _ = W7 m ρ c (Proc.devRef .tc main_arg7) := by keeps
    _ = W6 m ρ c (Proc.devRef .tc main_arg7) := W7_of_ne m ρ c main_arg7 (by decide)
    _ = W5 m ρ c (Proc.devRef .tc main_arg7) := by keeps
    _ = W4 m ρ c (Proc.devRef .tc main_arg7) := W5_of_ne m ρ c main_arg7 (by decide)
    _ = W3 m ρ c (Proc.devRef .tc main_arg7) := by keeps
    _ = W2 m ρ c (Proc.devRef .tc main_arg7) := by keeps
    _ = W1 m ρ c (Proc.devRef .tc main_arg7) := by keeps
    _ = W0 m ρ c (Proc.devRef .tc main_arg7) := by keeps
    _ = m ((c : Thread nD τ).loc main_arg7) := rfl

theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := by keeps
    _ = W7 m ρ c (Proc.devRef .tc main_arg8) := by keeps
    _ = W6 m ρ c (Proc.devRef .tc main_arg8) := W7_of_ne m ρ c main_arg8 (by decide)
    _ = W5 m ρ c (Proc.devRef .tc main_arg8) := by keeps
    _ = W4 m ρ c (Proc.devRef .tc main_arg8) := W5_of_ne m ρ c main_arg8 (by decide)
    _ = W3 m ρ c (Proc.devRef .tc main_arg8) := by keeps
    _ = W2 m ρ c (Proc.devRef .tc main_arg8) := by keeps
    _ = W1 m ρ c (Proc.devRef .tc main_arg8) := by keeps
    _ = W0 m ρ c (Proc.devRef .tc main_arg8) := by keeps
    _ = m ((c : Thread nD τ).loc main_arg8) := rfl

theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := by keeps
    _ = W7 m ρ c (Proc.devRef .tc main_arg9) := by keeps
    _ = W6 m ρ c (Proc.devRef .tc main_arg9) := W7_of_ne m ρ c main_arg9 (by decide)
    _ = W5 m ρ c (Proc.devRef .tc main_arg9) := by keeps
    _ = W4 m ρ c (Proc.devRef .tc main_arg9) := W5_of_ne m ρ c main_arg9 (by decide)
    _ = W3 m ρ c (Proc.devRef .tc main_arg9) := by keeps
    _ = W2 m ρ c (Proc.devRef .tc main_arg9) := by keeps
    _ = W1 m ρ c (Proc.devRef .tc main_arg9) := by keeps
    _ = W0 m ρ c (Proc.devRef .tc main_arg9) := by keeps
    _ = m ((c : Thread nD τ).loc main_arg9) := rfl

end Cert.Kernel.Hand

end
-- ==== Proof.FrameK.MainRun.lean ====
import proofs.«151591_j33251636806000_1_alg».proof.Proof.Gen.Kernel.Launch
import proofs.«151591_j33251636806000_1_alg».proof.Proof.Gen.Kernel.Skeleton
import proofs.«151591_j33251636806000_1_alg».proof.Proof.Gen.Kernel.Points
import proofs.«151591_j33251636806000_1_alg».proof.Proof.FrameK.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V6 m ρ) c
  | ⟨2, _⟩ => fun c => dat2 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of this stretch allocates a buffer. -/
theorem main_part0_ops0_fresh : (main_part0_ops0 : List (HloOp τ sig (Elt F))).Forall fun op => op.fresh = ∅ := by
  simp only [List.Forall]; repeat' constructor
/-- No operation of this stretch allocates a buffer. -/
theorem main_part0_ops1_fresh : (main_part0_ops1 : List (HloOp τ sig (Elt F))).Forall fun op => op.fresh = ∅ := by
  simp only [List.Forall]; repeat' constructor
/-- No operation of this stretch allocates a buffer. -/
theorem main_part0_ops2_fresh : (main_part0_ops2 : List (HloOp τ sig (Elt F))).Forall fun op => op.fresh = ∅ := by
  simp only [List.Forall]; repeat' constructor
/-- No operation of this stretch allocates a buffer. -/
theorem main_part1_ops0_fresh : (main_part1_ops0 : List (HloOp τ sig (Elt F))).Forall fun op => op.fresh = ∅ := by
  simp only [List.Forall]; repeat' constructor
/-- No operation of this stretch allocates a buffer. -/
theorem main_part1_ops1_fresh : (main_part1_ops1 : List (HloOp τ sig (Elt F))).Forall fun op => op.fresh = ∅ := by
  simp only [List.Forall]; repeat' constructor
/-- No operation of this stretch allocates a buffer. -/
theorem main_part1_ops2_fresh : (main_part1_ops2 : List (HloOp τ sig (Elt F))).Forall fun op => op.fresh = ∅ := by
  simp only [List.Forall]; repeat' constructor
/-- No operation of this stretch allocates a buffer. -/
theorem main_part2_ops0_fresh : (main_part2_ops0 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W10 m ρ c) ∗ ∃ r, prngReg c r)

/-! # The regions as segments -/

set_option backward.isDefEq.respectTransparency.types false in
/-- Region 0 over the thread state: entered from every unscoped buffer at `W4`, left at `W5`. Its arrays are split
    out of the unscoped buffers at entry and put back at the exit contents; the generator register goes into the class
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W6`, left at `W7`. Its arrays are split
    out of the unscoped buffers at entry and put back at the exit contents; the generator register goes into the class
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W9`, left at `W10`. Its arrays are split
    out of the unscoped buffers at entry and put back at the exit contents; the generator register goes into the class
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's 10 segments in order: a host segment per stretch from its boundary's contents, a region per kernel call. -/
abbrev segs : List (Pipeline.Seg (pcfgs (F := F)) adm (pdats m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part1_ops0 main_part1_ops0_sub main_part1_ops0_fresh (W3 m ρ)),
    .region (reg0 m ρ),
    .host (hseg main_part1_ops1 main_part1_ops1_sub main_part1_ops1_fresh (W5 m ρ)),
    .region (reg1 m ρ),
    .host (hseg main_part1_ops2 main_part1_ops2_sub main_part1_ops2_fresh (W7 m ρ)),
    .host (hseg main_part2_ops0 main_part2_ops0_sub main_part2_ops0_fresh (W8 m ρ)),
    .region (reg2 m ρ) ]
/-- @main is the run of the segments. -/
theorem main_run (c : Dev nD) : main (F := F) c = Pipeline.Seg.run (segs m ρ) := (main_chain_windows c).trans (by chain_rfl)

set_option backward.isDefEq.respectTransparency.types false in
/-- From any memory with zero counters, every weakly fair execution of @main on the TensorCores terminates, nothing
    faulting, and every final state satisfies any `Q` that follows from every unscoped buffer being at `W10`. -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = W10 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := hQ)

/-- Every unscoped buffer ends at `W10`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m ρ c b) :=
  run_of m ρ fun _ h => h

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_of m ρ fun s h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c)⟩

/-- info: 'Cert.Kernel.Hand.frame' depends on axioms: [propext, Classical.choice, Quot.sound] -/
#guard_msgs in #print axioms frame

end Cert.Kernel.Hand

end
-- ==== Proof.FrameKI.Body0.lean ====
import proofs.«151591_j33251636806000_1_alg».proof.Proof.Gen.KernelIdeal.Launch
import proofs.«151591_j33251636806000_1_alg».proof.Proof.Gen.KernelIdeal.Skeleton
import proofs.«151591_j33251636806000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 0 is entered
variable (V : (c : Dev nD) → (b : Ref sig .tc) → Buf (Elt F) ((c : Thread nD τ).loc b))

/-! # Region 0 at the entry contents `V` -/

/-- Window `w`'s block at point `t`, read off its array at `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether fetched there or not: when it is not
    fetched its block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether fetched there or not: when it is not
    fetched its block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether fetched there or not: when it is not
    fetched its block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x128 := Rect.unit (s := S5000x128) ![0, 0] S5000x128.size inb_S5000x128_S5000x128_0_0
abbrev r0_1 : Rect S128x32 := Rect.unit (s := S128x32) ![0, 0] S128x32.size inb_S128x32_S128x32_0_0
abbrev r0_2 : Rect S1x32 := Rect.unit (s := S1x32) ![0, 0] S1x32.size inb_S1x32_S1x32_0_0
abbrev r0_3 : Rect S5000x32 := Rect.unit (s := S5000x32) ![0, 0] S5000x32.size inb_S5000x32_S5000x32_0_0

/-- The output window's staging buffer after the body, from the input blocks: one store over the whole buffer. -/
def out0_3 (x0 : Vec F S5000x128 .f32) (x1 : Vec F S128x32 .f32) (x2 : Vec F S1x32 .f32) : Vec F S5000x32 .f32 :=
  View.canon [⟨r0_3, k0_pay1 (View.ld x0 r0_0) (View.ld x1 r0_1) (View.ld x2 r0_2)⟩]

/-- The one store covers the buffer. -/
theorem cover0_3 (p0 : Vec F S5000x32 .f32) (y : S5000x32.Idx) :
    ∃ pc ∈ ([⟨r0_3, p0⟩] : List (View.Piece (Elt F) S5000x32 .f32)), y ∈ pc.1.set :=
  View.cover_of_tiled [⟨r0_3, p0⟩] S5000x32.size (by rfl) y

/-! ## The body's triple -/

set_option maxHeartbeats 1000000 in
/-- The body on whole staging memrefs, the inputs' at contents `xW` and the output's at anything, runs to the continuation
    holding the inputs' as they were and the output's at `out0_3` of them. The body also reads the output's buffer,
    at whatever it holds; the value read is not used. -/
theorem sound_kernel0 (c : Dev nD) (E : Set ℕ) (i : grid0.Coords) (arg0 : Memref sig .tc .vmem S5000x128 .f32) (harg0 : arg0.IsWhole) (arg1 : Memref sig .tc .vmem S128x32 .f32) (harg1 : arg1.IsWhole) (arg2 : Memref sig .tc .vmem S1x32 .f32) (harg2 : arg2.IsWhole) (arg3 : Memref sig .tc .vmem S5000x32 .f32) (harg3 : arg3.IsWhole)
    (x0 : Vec F S5000x128 .f32) (x1 : Vec F S128x32 .f32) (x2 : Vec F S1x32 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__combine_kernel i arg0 harg0 arg1 harg1 arg2 harg2 arg3 harg3) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays at `V`; after the body at point `t` each input's buffer at its
    block and the output's at `out0_3` of the input blocks; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameKI.Body1.lean ====
import proofs.«151591_j33251636806000_1_alg».proof.Proof.Gen.KernelIdeal.Launch
import proofs.«151591_j33251636806000_1_alg».proof.Proof.Gen.KernelIdeal.Skeleton
import proofs.«151591_j33251636806000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-! # Region 1 at the entry contents `V` -/

/-- Window `w`'s block at point `t`, read off its array at `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether fetched there or not: when it is not
    fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether fetched there or not: when it is not
    fetched its block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether fetched there or not: when it is not
    fetched its block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S5000x32 := Rect.unit (s := S5000x32) ![0, 0] S5000x32.size inb_S5000x32_S5000x32_0_0
abbrev r1_1 : Rect S5000x1 := Rect.unit (s := S5000x1) ![0, 0] S5000x1.size inb_S5000x1_S5000x1_0_0
abbrev r1_2 : Rect S5000x1 := Rect.unit (s := S5000x1) ![0, 0] S5000x1.size inb_S5000x1_S5000x1_0_0
abbrev r1_3 : Rect S5000x32 := Rect.unit (s := S5000x32) ![0, 0] S5000x32.size inb_S5000x32_S5000x32_0_0

/-- The output window's staging buffer after the body, from the input blocks: one store over the whole buffer. -/
def out1_3 (x0 : Vec F S5000x32 .f32) (x1 : Vec F S5000x1 .f32) (x2 : Vec F S5000x1 .f32) : Vec F S5000x32 .f32 :=
  View.canon [⟨r1_3, k1_pay1 (View.ld x0 r1_0) (View.ld x1 r1_1) (View.ld x2 r1_2)⟩]

/-- The one store covers the buffer. -/
theorem cover1_3 (p0 : Vec F S5000x32 .f32) (y : S5000x32.Idx) :
    ∃ pc ∈ ([⟨r1_3, p0⟩] : List (View.Piece (Elt F) S5000x32 .f32)), y ∈ pc.1.set :=
  View.cover_of_tiled [⟨r1_3, p0⟩] S5000x32.size (by rfl) y

/-! ## The body's triple -/

set_option maxHeartbeats 1000000 in
/-- The body on whole staging memrefs, the inputs' at contents `xW` and the output's at anything, runs to the continuation
    holding the inputs' as they were and the output's at `out1_3` of them. The body also reads the output's buffer,
    at whatever it holds; the value read is not used. -/
theorem sound_kernel1 (c : Dev nD) (E : Set ℕ) (i : grid1.Coords) (arg0 : Memref sig .tc .vmem S5000x32 .f32) (harg0 : arg0.IsWhole) (arg1 : Memref sig .tc .vmem S5000x1 .f32) (harg1 : arg1.IsWhole) (arg2 : Memref sig .tc .vmem S5000x1 .f32) (harg2 : arg2.IsWhole) (arg3 : Memref sig .tc .vmem S5000x32 .f32) (harg3 : arg3.IsWhole)
    (x0 : Vec F S5000x32 .f32) (x1 : Vec F S5000x1 .f32) (x2 : Vec F S5000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__bn_lrelu_kernel i arg0 harg0 arg1 harg1 arg2 harg2 arg3 harg3) K := by
  simp only [cc1__bn_lrelu_kernel_eq_skeleton]; unfold cc1__bn_lrelu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays at `V`; after the body at point `t` each input's buffer at its
    block and the output's at `out1_3` of the input blocks; the invariant the scoped rest and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameKI.Body2.lean ====
import proofs.«151591_j33251636806000_1_alg».proof.Proof.Gen.KernelIdeal.Launch
import proofs.«151591_j33251636806000_1_alg».proof.Proof.Gen.KernelIdeal.Skeleton
import proofs.«151591_j33251636806000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 2 is entered
variable (V : (c : Dev nD) → (b : Ref sig .tc) → Buf (Elt F) ((c : Thread nD τ).loc b))

/-! # Region 2 at the entry contents `V` -/

/-- Window `w`'s block at point `t`, read off its array at `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether fetched there or not: when it is not
    fetched its block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether fetched there or not: when it is not
    fetched its block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether fetched there or not: when it is not
    fetched its block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether fetched there or not: when it is not
    fetched its block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S5000x128 := Rect.unit (s := S5000x128) ![0, 0] S5000x128.size inb_S5000x128_S5000x128_0_0
abbrev r2_1 : Rect S128x32 := Rect.unit (s := S128x32) ![0, 0] S128x32.size inb_S128x32_S128x32_0_0
abbrev r2_2 : Rect S1x32 := Rect.unit (s := S1x32) ![0, 0] S1x32.size inb_S1x32_S1x32_0_0
abbrev r2_3 : Rect S5000x1 := Rect.unit (s := S5000x1) ![0, 0] S5000x1.size inb_S5000x1_S5000x1_0_0
abbrev r2_4 : Rect S5000x32 := Rect.unit (s := S5000x32) ![0, 0] S5000x32.size inb_S5000x32_S5000x32_0_0

/-- The output window's staging buffer after the body, from the input blocks: one store over the whole buffer. -/
def out2_4 (x0 : Vec F S5000x128 .f32) (x1 : Vec F S128x32 .f32) (x2 : Vec F S1x32 .f32) (x3 : Vec F S5000x1 .f32) : Vec F S5000x32 .f32 :=
  View.canon [⟨r2_4, k2_pay1 (View.ld x0 r2_0) (View.ld x1 r2_1) (View.ld x2 r2_2) (View.ld x3 r2_3)⟩]

/-- The one store covers the buffer. -/
theorem cover2_4 (p0 : Vec F S5000x32 .f32) (y : S5000x32.Idx) :
    ∃ pc ∈ ([⟨r2_4, p0⟩] : List (View.Piece (Elt F) S5000x32 .f32)), y ∈ pc.1.set :=
  View.cover_of_tiled [⟨r2_4, p0⟩] S5000x32.size (by rfl) y

/-! ## The body's triple -/

set_option maxHeartbeats 1000000 in
/-- The body on whole staging memrefs, the inputs' at contents `xW` and the output's at anything, runs to the continuation
    holding the inputs' as they were and the output's at `out2_4` of them. The body also reads the output's buffer,
    at whatever it holds; the value read is not used. -/
theorem sound_kernel2 (c : Dev nD) (E : Set ℕ) (i : grid2.Coords) (arg0 : Memref sig .tc .vmem S5000x128 .f32) (harg0 : arg0.IsWhole) (arg1 : Memref sig .tc .vmem S128x32 .f32) (harg1 : arg1.IsWhole) (arg2 : Memref sig .tc .vmem S1x32 .f32) (harg2 : arg2.IsWhole) (arg3 : Memref sig .tc .vmem S5000x1 .f32) (harg3 : arg3.IsWhole) (arg4 : Memref sig .tc .vmem S5000x32 .f32) (harg4 : arg4.IsWhole)
    (x0 : Vec F S5000x128 .f32) (x1 : Vec F S128x32 .f32) (x2 : Vec F S1x32 .f32) (x3 : Vec F S5000x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__combine_mask_kernel i arg0 harg0 arg1 harg1 arg2 harg2 arg3 harg3 arg4 harg4) K := by
  simp only [cc2__combine_mask_kernel_eq_skeleton]; unfold cc2__combine_mask_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays at `V`; after the body at point `t` each input's buffer at its
    block and the output's at `out2_4` of the input blocks; the invariant the scoped rest and the generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrameKI.Fold.lean ====
import proofs.«151591_j33251636806000_1_alg».proof.Proof.Gen.KernelIdeal.Launch
import proofs.«151591_j33251636806000_1_alg».proof.Proof.Gen.KernelIdeal.Skeleton
import proofs.«151591_j33251636806000_1_alg».proof.Proof.Gen.KernelIdeal.Points
import proofs.«151591_j33251636806000_1_alg».proof.Proof.FrameKI.Body0
import proofs.«151591_j33251636806000_1_alg».proof.Proof.FrameKI.Body1
import proofs.«151591_j33251636806000_1_alg».proof.Proof.FrameKI.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After the first 13 host operations. -/
abbrev W1 : Dev nD → Valuation τ sig (Elt F) := fun c => StableHlo.after main_part0_ops0 (W0 m ρ c)
/-- After the 3 operations of the called function. -/
abbrev W2 : Dev nD → Valuation τ sig (Elt F) := fun c => StableHlo.after main_part0_ops1 (W1 m ρ c)
/-- After the next 46 host operations. -/
abbrev W3 : Dev nD → Valuation τ sig (Elt F) := fun c => StableHlo.after main_part0_ops2 (W2 m ρ c)
/-- After the next 25 host operations: region 0's entry. -/
abbrev W4 : Dev nD → Valuation τ sig (Elt F) := fun c => StableHlo.after main_part1_ops0 (W3 m ρ c)
/-- The same read at the TensorCore's references. -/
abbrev V4 : (c : Dev nD) → (b : Ref sig .tc) → Buf (Elt F) ((c : Thread nD τ).loc b) := fun c b => W4 m ρ c b
/-- At region 0's exit: its arrays at what the pipeline leaves, every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- After the 2 host operations between regions 0 and 1: region 1's entry. -/
abbrev W6 : Dev nD → Valuation τ sig (Elt F) := fun c => StableHlo.after main_part1_ops1 (W5 m ρ c)
abbrev V6 : (c : Dev nD) → (b : Ref sig .tc) → Buf (Elt F) ((c : Thread nD τ).loc b) := fun c b => W6 m ρ c b
/-- At region 1's exit. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After the next 31 host operations. -/
abbrev W8 : Dev nD → Valuation τ sig (Elt F) := fun c => StableHlo.after main_part1_ops2 (W7 m ρ c)
/-- After the last 21 host operations: region 2's entry. -/
abbrev W9 : Dev nD → Valuation τ sig (Elt F) := fun c => StableHlo.after main_part2_ops0 (W8 m ρ c)
abbrev V9 : (c : Dev nD) → (b : Ref sig .tc) → Buf (Elt F) ((c : Thread nD τ).loc b) := fun c b => W9 m ρ c b
/-- At region 2's exit: the contents @main returns with. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-! ## The arguments end as launched: no host operation writes one and no region has one among its arrays -/

/-- A stretch of host operations leaves a buffer none of them writes as it was. -/
local macro "keeps" : tactic => `(tactic| (
  refine StableHlo.after_of_forall_not_mem _ _ (List.forall_iff_forall_mem.mp ?_)
  simp only [main_part0_ops0, main_part0_ops1, main_part0_ops2, main_part1_ops0, main_part1_ops1, main_part1_ops2, main_part2_ops0,
    List.Forall, StableHlo.nullary_writes, StableHlo.unary_writes, StableHlo.binary_writes, StableHlo.ternary_writes,
    StableHlo.quaternary_writes, StableHlo.reshape_writes, StableHlo.nary_writes, Finset.mem_singleton]
  repeat' apply And.intro
  all_goals exact StableHlo.devRef_ne_of_ne (by decide)))

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := by keeps
    _ = W7 m ρ c (Proc.devRef .tc main_arg0) := by keeps
    _ = W6 m ρ c (Proc.devRef .tc main_arg0) := W7_of_ne m ρ c main_arg0 (by decide)
    _ = W5 m ρ c (Proc.devRef .tc main_arg0) := by keeps
    _ = W4 m ρ c (Proc.devRef .tc main_arg0) := W5_of_ne m ρ c main_arg0 (by decide)
    _ = W3 m ρ c (Proc.devRef .tc main_arg0) := by keeps
    _ = W2 m ρ c (Proc.devRef .tc main_arg0) := by keeps
    _ = W1 m ρ c (Proc.devRef .tc main_arg0) := by keeps
    _ = W0 m ρ c (Proc.devRef .tc main_arg0) := by keeps
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := by keeps
    _ = W7 m ρ c (Proc.devRef .tc main_arg1) := by keeps
    _ = W6 m ρ c (Proc.devRef .tc main_arg1) := W7_of_ne m ρ c main_arg1 (by decide)
    _ = W5 m ρ c (Proc.devRef .tc main_arg1) := by keeps
    _ = W4 m ρ c (Proc.devRef .tc main_arg1) := W5_of_ne m ρ c main_arg1 (by decide)
    _ = W3 m ρ c (Proc.devRef .tc main_arg1) := by keeps
    _ = W2 m ρ c (Proc.devRef .tc main_arg1) := by keeps
    _ = W1 m ρ c (Proc.devRef .tc main_arg1) := by keeps
    _ = W0 m ρ c (Proc.devRef .tc main_arg1) := by keeps
    _ = m ((c : Thread nD τ).loc main_arg1) := rfl

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := by keeps
    _ = W7 m ρ c (Proc.devRef .tc main_arg2) := by keeps
    _ = W6 m ρ c (Proc.devRef .tc main_arg2) := W7_of_ne m ρ c main_arg2 (by decide)
    _ = W5 m ρ c (Proc.devRef .tc main_arg2) := by keeps
    _ = W4 m ρ c (Proc.devRef .tc main_arg2) := W5_of_ne m ρ c main_arg2 (by decide)
    _ = W3 m ρ c (Proc.devRef .tc main_arg2) := by keeps
    _ = W2 m ρ c (Proc.devRef .tc main_arg2) := by keeps
    _ = W1 m ρ c (Proc.devRef .tc main_arg2) := by keeps
    _ = W0 m ρ c (Proc.devRef .tc main_arg2) := by keeps
    _ = m ((c : Thread nD τ).loc main_arg2) := rfl

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := by keeps
    _ = W7 m ρ c (Proc.devRef .tc main_arg3) := by keeps
    _ = W6 m ρ c (Proc.devRef .tc main_arg3) := W7_of_ne m ρ c main_arg3 (by decide)
    _ = W5 m ρ c (Proc.devRef .tc main_arg3) := by keeps
    _ = W4 m ρ c (Proc.devRef .tc main_arg3) := W5_of_ne m ρ c main_arg3 (by decide)
    _ = W3 m ρ c (Proc.devRef .tc main_arg3) := by keeps
    _ = W2 m ρ c (Proc.devRef .tc main_arg3) := by keeps
    _ = W1 m ρ c (Proc.devRef .tc main_arg3) := by keeps
    _ = W0 m ρ c (Proc.devRef .tc main_arg3) := by keeps
    _ = m ((c : Thread nD τ).loc main_arg3) := rfl

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := by keeps
    _ = W7 m ρ c (Proc.devRef .tc main_arg4) := by keeps
    _ = W6 m ρ c (Proc.devRef .tc main_arg4) := W7_of_ne m ρ c main_arg4 (by decide)
    _ = W5 m ρ c (Proc.devRef .tc main_arg4) := by keeps
    _ = W4 m ρ c (Proc.devRef .tc main_arg4) := W5_of_ne m ρ c main_arg4 (by decide)
    _ = W3 m ρ c (Proc.devRef .tc main_arg4) := by keeps
    _ = W2 m ρ c (Proc.devRef .tc main_arg4) := by keeps
    _ = W1 m ρ c (Proc.devRef .tc main_arg4) := by keeps
    _ = W0 m ρ c (Proc.devRef .tc main_arg4) := by keeps
    _ = m ((c : Thread nD τ).loc main_arg4) := rfl

theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := by keeps
    _ = W7 m ρ c (Proc.devRef .tc main_arg5) := by keeps
    _ = W6 m ρ c (Proc.devRef .tc main_arg5) := W7_of_ne m ρ c main_arg5 (by decide)
    _ = W5 m ρ c (Proc.devRef .tc main_arg5) := by keeps
    _ = W4 m ρ c (Proc.devRef .tc main_arg5) := W5_of_ne m ρ c main_arg5 (by decide)
    _ = W3 m ρ c (Proc.devRef .tc main_arg5) := by keeps
    _ = W2 m ρ c (Proc.devRef .tc main_arg5) := by keeps
    _ = W1 m ρ c (Proc.devRef .tc main_arg5) := by keeps
    _ = W0 m ρ c (Proc.devRef .tc main_arg5) := by keeps
    _ = m ((c : Thread nD τ).loc main_arg5) := rfl

theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := by keeps
    _ = W7 m ρ c (Proc.devRef .tc main_arg6) := by keeps
    _ = W6 m ρ c (Proc.devRef .tc main_arg6) := W7_of_ne m ρ c main_arg6 (by decide)
    _ = W5 m ρ c (Proc.devRef .tc main_arg6) := by keeps
    _ = W4 m ρ c (Proc.devRef .tc main_arg6) := W5_of_ne m ρ c main_arg6 (by decide)
    _ = W3 m ρ c (Proc.devRef .tc main_arg6) := by keeps
    _ = W2 m ρ c (Proc.devRef .tc main_arg6) := by keeps
    _ = W1 m ρ c (Proc.devRef .tc main_arg6) := by keeps
    _ = W0 m ρ c (Proc.devRef .tc main_arg6) := by keeps
    _ = m ((c : Thread nD τ).loc main_arg6) := rfl

theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := by keeps
    _ = W7 m ρ c (Proc.devRef .tc main_arg7) := by keeps
    _ = W6 m ρ c (Proc.devRef .tc main_arg7) := W7_of_ne m ρ c main_arg7 (by decide)
    _ = W5 m ρ c (Proc.devRef .tc main_arg7) := by keeps
    _ = W4 m ρ c (Proc.devRef .tc main_arg7) := W5_of_ne m ρ c main_arg7 (by decide)
    _ = W3 m ρ c (Proc.devRef .tc main_arg7) := by keeps
    _ = W2 m ρ c (Proc.devRef .tc main_arg7) := by keeps
    _ = W1 m ρ c (Proc.devRef .tc main_arg7) := by keeps
    _ = W0 m ρ c (Proc.devRef .tc main_arg7) := by keeps
    _ = m ((c : Thread nD τ).loc main_arg7) := rfl

theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := by keeps
    _ = W7 m ρ c (Proc.devRef .tc main_arg8) := by keeps
    _ = W6 m ρ c (Proc.devRef .tc main_arg8) := W7_of_ne m ρ c main_arg8 (by decide)
    _ = W5 m ρ c (Proc.devRef .tc main_arg8) := by keeps
    _ = W4 m ρ c (Proc.devRef .tc main_arg8) := W5_of_ne m ρ c main_arg8 (by decide)
    _ = W3 m ρ c (Proc.devRef .tc main_arg8) := by keeps
    _ = W2 m ρ c (Proc.devRef .tc main_arg8) := by keeps
    _ = W1 m ρ c (Proc.devRef .tc main_arg8) := by keeps
    _ = W0 m ρ c (Proc.devRef .tc main_arg8) := by keeps
    _ = m ((c : Thread nD τ).loc main_arg8) := rfl

theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := by keeps
    _ = W7 m ρ c (Proc.devRef .tc main_arg9) := by keeps
    _ = W6 m ρ c (Proc.devRef .tc main_arg9) := W7_of_ne m ρ c main_arg9 (by decide)
    _ = W5 m ρ c (Proc.devRef .tc main_arg9) := by keeps
    _ = W4 m ρ c (Proc.devRef .tc main_arg9) := W5_of_ne m ρ c main_arg9 (by decide)
    _ = W3 m ρ c (Proc.devRef .tc main_arg9) := by keeps
    _ = W2 m ρ c (Proc.devRef .tc main_arg9) := by keeps
    _ = W1 m ρ c (Proc.devRef .tc main_arg9) := by keeps
    _ = W0 m ρ c (Proc.devRef .tc main_arg9) := by keeps
    _ = m ((c : Thread nD τ).loc main_arg9) := rfl

end Cert.KernelIdeal.Hand

end
-- ==== Proof.FrameKI.MainRun.lean ====
import proofs.«151591_j33251636806000_1_alg».proof.Proof.Gen.KernelIdeal.Launch
import proofs.«151591_j33251636806000_1_alg».proof.Proof.Gen.KernelIdeal.Skeleton
import proofs.«151591_j33251636806000_1_alg».proof.Proof.Gen.KernelIdeal.Points
import proofs.«151591_j33251636806000_1_alg».proof.Proof.FrameKI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V6 m ρ) c
  | ⟨2, _⟩ => fun c => dat2 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of this stretch allocates a buffer. -/
theorem main_part0_ops0_fresh : (main_part0_ops0 : List (HloOp τ sig (Elt F))).Forall fun op => op.fresh = ∅ := by
  simp only [List.Forall]; repeat' constructor
/-- No operation of this stretch allocates a buffer. -/
theorem main_part0_ops1_fresh : (main_part0_ops1 : List (HloOp τ sig (Elt F))).Forall fun op => op.fresh = ∅ := by
  simp only [List.Forall]; repeat' constructor
/-- No operation of this stretch allocates a buffer. -/
theorem main_part0_ops2_fresh : (main_part0_ops2 : List (HloOp τ sig (Elt F))).Forall fun op => op.fresh = ∅ := by
  simp only [List.Forall]; repeat' constructor
/-- No operation of this stretch allocates a buffer. -/
theorem main_part1_ops0_fresh : (main_part1_ops0 : List (HloOp τ sig (Elt F))).Forall fun op => op.fresh = ∅ := by
  simp only [List.Forall]; repeat' constructor
/-- No operation of this stretch allocates a buffer. -/
theorem main_part1_ops1_fresh : (main_part1_ops1 : List (HloOp τ sig (Elt F))).Forall fun op => op.fresh = ∅ := by
  simp only [List.Forall]; repeat' constructor
/-- No operation of this stretch allocates a buffer. -/
theorem main_part1_ops2_fresh : (main_part1_ops2 : List (HloOp τ sig (Elt F))).Forall fun op => op.fresh = ∅ := by
  simp only [List.Forall]; repeat' constructor
/-- No operation of this stretch allocates a buffer. -/
theorem main_part2_ops0_fresh : (main_part2_ops0 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W10 m ρ c) ∗ ∃ r, prngReg c r)

/-! # The regions as segments -/

set_option backward.isDefEq.respectTransparency.types false in
/-- Region 0 over the thread state: entered from every unscoped buffer at `W4`, left at `W5`. Its arrays are split
    out of the unscoped buffers at entry and put back at the exit contents; the generator register goes into the class
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W6`, left at `W7`. Its arrays are split
    out of the unscoped buffers at entry and put back at the exit contents; the generator register goes into the class
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W9`, left at `W10`. Its arrays are split
    out of the unscoped buffers at entry and put back at the exit contents; the generator register goes into the class
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's 10 segments in order: a host segment per stretch from its boundary's contents, a region per kernel call. -/
abbrev segs : List (Pipeline.Seg (pcfgs (F := F)) adm (pdats m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part1_ops0 main_part1_ops0_sub main_part1_ops0_fresh (W3 m ρ)),
    .region (reg0 m ρ),
    .host (hseg main_part1_ops1 main_part1_ops1_sub main_part1_ops1_fresh (W5 m ρ)),
    .region (reg1 m ρ),
    .host (hseg main_part1_ops2 main_part1_ops2_sub main_part1_ops2_fresh (W7 m ρ)),
    .host (hseg main_part2_ops0 main_part2_ops0_sub main_part2_ops0_fresh (W8 m ρ)),
    .region (reg2 m ρ) ]
/-- @main is the run of the segments. -/
theorem main_run (c : Dev nD) : main (F := F) c = Pipeline.Seg.run (segs m ρ) := (main_chain_windows c).trans (by chain_rfl)

set_option backward.isDefEq.respectTransparency.types false in
/-- From any memory with zero counters, every weakly fair execution of @main on the TensorCores terminates, nothing
    faulting, and every final state satisfies any `Q` that follows from every unscoped buffer being at `W10`. -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = W10 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := hQ)

/-- Every unscoped buffer ends at `W10`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m ρ c b) :=
  run_of m ρ fun _ h => h

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_of m ρ fun s h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c)⟩

/-- info: 'Cert.KernelIdeal.Hand.frame' depends on axioms: [propext, Classical.choice, Quot.sound] -/
#guard_msgs in #print axioms frame

end Cert.KernelIdeal.Hand

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.LibHostRowOps.lean ====
/-
  Two operations a host program makes on a `[B, n]` array, each read at an entry.

  * A column `[B, 1]` laid along both axes of `[B, n]` by the host's broadcast: every lane of row `p` holds the
    column's entry of row `p`. This is how a host program spells a per-row factor kept as a column.
  * The host's product of an `M x K` matrix by a `K x N` matrix at the exact extended reals: entry `(p, c)` is the sum
    over `k` of left `(p, k)` times right `(k, c)`. Nothing is rounded and no order of accumulation is left. The
    product's dimension record enters only through how it places the coordinates: the left operand is read at
    (row of the result, k), the right operand at (k, column of the result); these placement facts are hypotheses, so
    the lemma serves any record of that pattern.

  Nothing here mentions a program.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.HostRowOps

open Idealize.ShloMosaic Idealize.ShloMosaic.ValueIdx

variable {α : Type}

/-- A column laid along both axes of `[B, n]` holds the column's entry of row `p` in every lane of row `p`. -/
theorem bcastColHost_apply {B n : Nat} (y : (⟨2, ![B, 1]⟩ : Shape).Idx → α)
    (h : (⟨2, ![B, 1]⟩ : Shape).BroadcastsInDim (⟨2, ![B, n]⟩ : Shape) ![0, 1]) (p : Fin B) (q : Fin n) :
    broadcastInDim (⟨2, ![B, n]⟩ : Shape) ![0, 1] h y (ix2 p q) = y (ix2 p (0 : Fin 1)) :=
  broadcastInDim_apply _ h y (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-- Entry (p, c) of the host's M x K by K x N product is the sum over k of left (p, k) * right (k, c). -/
theorem hostDot_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    Host.dotGeneral (F := Ideal) D prec l r (ix2 p c) = ∑ k : Fin K, l (ix2 p k) * r (ix2 k c) := by
  refine (Ideal.dotGeneral_apply D prec .single l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.HostRowOps

end
-- ==== Proof.LibRowBias.lean ====
/-
  A bias row added to every row of a `[B, n]` array, read at an index.

  * a flat vector `[n]` cast to a single row `[1, n]`: the same entry, lane by lane;
  * a single row `[1, n]` broadcast down `B` rows: every row holds the row's entries.

  Statements about indices only; the element type is arbitrary. Nothing here mentions a program.
-/
import Idealize.ShloMosaic.PureOps.Ideal
import Idealize.ShloMosaic.Lib.ValueIdx
import Idealize.ShloMosaic.Lib.Pipeline.Value

noncomputable section

namespace Cert.RowBias

open Idealize.ShloMosaic Idealize.ShloMosaic.ValueIdx

variable {α : Type}

/-- A flat vector cast to a single row holds, in lane `j`, the vector's entry `j`. -/
theorem castRow_apply {n : Nat} (v : (⟨1, ![n]⟩ : Shape).Idx → α)
    (h : Shape.ShapeCasts (⟨1, ![n]⟩ : Shape) (⟨2, ![1, n]⟩ : Shape)) (j : Fin n) :
    shapeCast (⟨2, ![1, n]⟩ : Shape) v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- A single row broadcast down `B` rows holds the row's entry of lane `j` in lane `j` of every row. -/
theorem bcastRow_apply {B n : Nat} (y : (⟨2, ![1, n]⟩ : Shape).Idx → α)
    (h : Shape.Broadcasts (⟨2, ![1, n]⟩ : Shape) (⟨2, ![B, n]⟩ : Shape)) (p : Fin B) (j : Fin n) :
    broadcastTo (⟨2, ![B, n]⟩ : Shape) y h (ix2 p j) = y (ix2 (0 : Fin 1) j) :=
  broadcastTo_apply y h (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

end Cert.RowBias

end
-- ==== Proof.LibDenseRow.lean ====
/-
  A dense layer on one row of features, and its two spellings read at an entry.

  `denseRow x w b` is the affine image of a row `x` of `K` features under a `K x N` weight matrix `w` and a bias
  `b` of `N` entries: lane `c` holds the sum over `k` of `x k * w k c`, plus `b c`, on the extended reals.

  Two programs spell it differently.
  * A kernel multiplies a block `[B, K]` by the weights `[K, N]` in the matrix unit, into the zero accumulator, and
    adds a bias kept as one row `[1, N]` broadcast down the `B` rows.
  * A host program contracts `[B, K]` with `[K, N]` and adds a flat bias `[N]` laid first as a row `[1, N]` and
    then down the `B` rows.
  Row `p` of either result is `denseRow` of row `p` of the left operand: no entry of another row enters it. The
  products' dimension records enter only through how they place coordinates (the left operand read at (row, k), the
  right one at (k, column)); those placement facts are hypotheses, so the lemmas serve any record of that pattern.
  Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«151591_j33251636806000_1_alg».proof.Proof.LibPlainMatmul
import proofs.«151591_j33251636806000_1_alg».proof.Proof.LibHostRowOps
import proofs.«151591_j33251636806000_1_alg».proof.Proof.LibRowBias

noncomputable section

open scoped BigOperators

namespace Cert.DenseRow

open Idealize.ShloMosaic Idealize.ShloMosaic.ValueIdx

/-- The affine image of a row: lane `c` is the sum over `k` of `x k * w k c`, plus `b c`. -/
def denseRow {K N : Nat} (x : Fin K → EReal) (w : Fin K → Fin N → EReal) (b : Fin N → EReal) : Fin N → EReal :=
  fun c => (∑ k : Fin K, x k * w k c) + b c

variable {α : Type}

/-- A flat vector laid as a single row by the host's broadcast holds, in lane `j`, the vector's entry `j`. -/
theorem hostFlatRow_apply {n : Nat} (v : (⟨1, ![n]⟩ : Shape).Idx → α)
    (h : (⟨1, ![n]⟩ : Shape).BroadcastsInDim (⟨2, ![1, n]⟩ : Shape) ![1]) (j : Fin n) :
    broadcastInDim (⟨2, ![1, n]⟩ : Shape) ![1] h v (ix2 (0 : Fin 1) j) = v (ix1 j) :=
  broadcastInDim_apply _ h v (ix2 (0 : Fin 1) j) (ix1 j) (fun a => match a with
    | ⟨0, _⟩ => by
        show j.val = if n = 1 then 0 else j.val
        split
        · have := j.isLt; omega
        · rfl)

/-- A single row laid down `B` rows by the host's broadcast holds the row's lane `j` in lane `j` of every row. -/
theorem hostRowDown_apply {B n : Nat} (y : (⟨2, ![1, n]⟩ : Shape).Idx → α)
    (h : (⟨2, ![1, n]⟩ : Shape).BroadcastsInDim (⟨2, ![B, n]⟩ : Shape) ![0, 1]) (p : Fin B) (j : Fin n) :
    broadcastInDim (⟨2, ![B, n]⟩ : Shape) ![0, 1] h y (ix2 p j) = y (ix2 (0 : Fin 1) j) :=
  broadcastInDim_apply _ h y (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

/-- The kernel's spelling: a matrix-unit product into the zero accumulator plus a bias row broadcast down the rows, read
    at entry `(p, c)`, is lane `c` of `denseRow` of row `p` of the left operand. -/
theorem kernelDense_apply {B K N : Nat} {φ₁ φ₂ : FTy}
    (D : DotDims (⟨2, ![B, K]⟩ : Shape) (⟨2, ![K, N]⟩ : Shape) (⟨2, ![B, N]⟩ : Shape))
    (hr : D.contr.rank = 1) (hs : D.contr.size ⟨0, by omega⟩ = K)
    (hl0 : ∀ (j : (⟨2, ![B, N]⟩ : Shape).Idx) (q : D.contr.Idx), (D.lhsIdx j q 0).val = (j 0).val)
    (hl1 : ∀ (j : (⟨2, ![B, N]⟩ : Shape).Idx) (q : D.contr.Idx), (D.lhsIdx j q 1).val = (q ⟨0, by omega⟩).val)
    (hr0 : ∀ (j : (⟨2, ![B, N]⟩ : Shape).Idx) (q : D.contr.Idx), (D.rhsIdx j q 0).val = (q ⟨0, by omega⟩).val)
    (hr1 : ∀ (j : (⟨2, ![B, N]⟩ : Shape).Idx) (q : D.contr.Idx), (D.rhsIdx j q 1).val = (j 1).val)
    (prec : Option ContractPrecision)
    (l : FVec Ideal (⟨2, ![B, K]⟩ : Shape) φ₁) (r : FVec Ideal (⟨2, ![K, N]⟩ : Shape) φ₂)
    (bias : FVec Ideal (⟨2, ![1, N]⟩ : Shape) .f32)
    (hb : Shape.Broadcasts (⟨2, ![1, N]⟩ : Shape) (⟨2, ![B, N]⟩ : Shape)) (p : Fin B) (c : Fin N) :
    addf (matmul D prec l r (constant (F := Ideal) (⟨2, ![B, N]⟩ : Shape) .f32 0x00000000#32))
        (broadcastTo (⟨2, ![B, N]⟩ : Shape) bias hb) (ix2 p c)
      = denseRow (fun k => l (ix2 p k)) (fun k c => r (ix2 k c)) (fun c => bias (ix2 (0 : Fin 1) c)) c := by
  show matmul D prec l r (constant (F := Ideal) (⟨2, ![B, N]⟩ : Shape) .f32 0x00000000#32) (ix2 p c)
      + broadcastTo (⟨2, ![B, N]⟩ : Shape) bias hb (ix2 p c) = _
  rw [Cert.PlainMatmul.matmul_zero_apply D hr hs hl0 hl1 hr0 hr1 prec l r p c, Cert.RowBias.bcastRow_apply bias hb p c]
  rfl

/-- The host's spelling: a contraction plus a flat bias laid as a row and then down the rows, read at entry `(p, c)`,
    is lane `c` of `denseRow` of row `p` of the left operand. -/
theorem hostDense_apply {B K N : Nat} {φ₁ φ₂ : FTy}
    (D : DotDims (⟨2, ![B, K]⟩ : Shape) (⟨2, ![K, N]⟩ : Shape) (⟨2, ![B, N]⟩ : Shape))
    (hr : D.contr.rank = 1) (hs : D.contr.size ⟨0, by omega⟩ = K)
    (hl0 : ∀ (j : (⟨2, ![B, N]⟩ : Shape).Idx) (q : D.contr.Idx), (D.lhsIdx j q 0).val = (j 0).val)
    (hl1 : ∀ (j : (⟨2, ![B, N]⟩ : Shape).Idx) (q : D.contr.Idx), (D.lhsIdx j q 1).val = (q ⟨0, by omega⟩).val)
    (hr0 : ∀ (j : (⟨2, ![B, N]⟩ : Shape).Idx) (q : D.contr.Idx), (D.rhsIdx j q 0).val = (q ⟨0, by omega⟩).val)
    (hr1 : ∀ (j : (⟨2, ![B, N]⟩ : Shape).Idx) (q : D.contr.Idx), (D.rhsIdx j q 1).val = (j 1).val)
    (prec : Option ContractPrecision)
    (l : FVec Ideal (⟨2, ![B, K]⟩ : Shape) φ₁) (r : FVec Ideal (⟨2, ![K, N]⟩ : Shape) φ₂)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) D prec l r)
        (broadcastInDim (⟨2, ![B, N]⟩ : Shape) ![0, 1] h2 (broadcastInDim (⟨2, ![1, N]⟩ : Shape) ![1] h1 bias)) (ix2 p c)
      = denseRow (fun k => l (ix2 p k)) (fun k c => r (ix2 k c)) (fun c => bias (ix1 c)) c := by
  show Host.dotGeneral (F := Ideal) D prec l r (ix2 p c)
      + broadcastInDim (⟨2, ![B, N]⟩ : Shape) ![0, 1] h2 (broadcastInDim (⟨2, ![1, N]⟩ : Shape) ![1] h1 bias) (ix2 p c) = _
  rw [Cert.HostRowOps.hostDot_apply D hr hs hl0 hl1 hr0 hr1 prec l r p c, hostRowDown_apply _ h2 p c,
    hostFlatRow_apply bias h1 c]
  rfl

/-! ## The plain product `M x K` by `K x N`

  The library's record `DotDims.plain M K N` contracts the left operand's axis 1 with the right operand's axis 0 and has no
  batch axes. Its placement facts hold whatever the extents are, so the two spellings above need no hypotheses for it. A
  printed record with the same six lists is this record. -/

section Plain

variable (M K N : Nat)

theorem plain_rank : (DotDims.plain M K N).contr.rank = 1 := rfl

theorem plain_size : (DotDims.plain M K N).contr.size ⟨0, by rw [plain_rank]; exact Nat.one_pos⟩ = K := rfl

theorem plain_lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

theorem plain_rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

end Plain

/-- The kernel's spelling of a dense layer over the plain product. -/
theorem kernelDensePlain_apply {B K N : Nat} {φ₁ φ₂ : FTy} (prec : Option ContractPrecision)
    (l : FVec Ideal (⟨2, ![B, K]⟩ : Shape) φ₁) (r : FVec Ideal (⟨2, ![K, N]⟩ : Shape) φ₂)
    (bias : FVec Ideal (⟨2, ![1, N]⟩ : Shape) .f32)
    (hb : Shape.Broadcasts (⟨2, ![1, N]⟩ : Shape) (⟨2, ![B, N]⟩ : Shape)) (p : Fin B) (c : Fin N) :
    addf (matmul (DotDims.plain B K N) prec l r (constant (F := Ideal) (⟨2, ![B, N]⟩ : Shape) .f32 0x00000000#32))
        (broadcastTo (⟨2, ![B, N]⟩ : Shape) bias hb) (ix2 p c)
      = denseRow (fun k => l (ix2 p k)) (fun k c => r (ix2 k c)) (fun c => bias (ix2 (0 : Fin 1) c)) c :=
  kernelDense_apply (DotDims.plain B K N) (plain_rank B K N) (plain_size B K N) (plain_lhs0 B K N) (plain_lhs1 B K N)
    (plain_rhs0 B K N) (plain_rhs1 B K N) prec l r bias hb p c

/-- The host's spelling of a dense layer over the plain product. -/
theorem hostDensePlain_apply {B K N : Nat} {φ₁ φ₂ : FTy} (prec : Option ContractPrecision)
    (l : FVec Ideal (⟨2, ![B, K]⟩ : Shape) φ₁) (r : FVec Ideal (⟨2, ![K, N]⟩ : Shape) φ₂)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) (DotDims.plain B K N) prec l r)
        (broadcastInDim (⟨2, ![B, N]⟩ : Shape) ![0, 1] h2 (broadcastInDim (⟨2, ![1, N]⟩ : Shape) ![1] h1 bias)) (ix2 p c)
      = denseRow (fun k => l (ix2 p k)) (fun k c => r (ix2 k c)) (fun c => bias (ix1 c)) c :=
  hostDense_apply (DotDims.plain B K N) (plain_rank B K N) (plain_size B K N) (plain_lhs0 B K N) (plain_lhs1 B K N)
    (plain_rhs0 B K N) (plain_rhs1 B K N) prec l r bias h1 h2 p c

end Cert.DenseRow

end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.CombinePay.lean ====
/-
  The two matrix-product kernels' stored values, read at an entry.

  Each grid point of the first and the third kernel holds a block of 5000 rows of the joined feature array (128 lanes),
  the whole 128 x 32 weight matrix and the bias row, and stores, at row p and lane c, the sum over the 128 joined lanes k
  of  features (p, k) * weights (k, c)  plus  bias c  — the third kernel then multiplies the row by its mask entry.
  On the exact extended reals the roundings to the narrow format on the way into the matrix unit are the identity and
  the zero accumulator adds nothing.
-/
import proofs.«151591_j33251636806000_1_alg».proof.Proof.Gen.KernelIdeal.Skeleton
import proofs.«151591_j33251636806000_1_alg».proof.Proof.LibDenseRow
import proofs.«151591_j33251636806000_1_alg».proof.Proof.LibRowLayout
import Idealize.ShloMosaic.Lib.Pipeline.Value
import Idealize.ShloMosaic.Lib.ValueIdx

noncomputable section

open scoped BigOperators

namespace Cert.KernelIdeal.Pay

open Idealize.ShloMosaic Idealize.ShloMosaic.ValueIdx Cert.KernelIdeal Cert.KernelIdeal.Gen

/-! ## Where the printed product reads its operands -/

theorem dot_lhs0 (j : S5000x32.Idx) (q : dot_S5000x128_S128x32_S5000x32_1_0_0_1_n_n.contr.Idx) :
    (dot_S5000x128_S128x32_S5000x32_1_0_0_1_n_n.lhsIdx j q 0).val = (j 0).val := by
  unfold DotDims.lhsIdx
  rw [dif_neg (show ¬(0 : Fin S5000x128.rank) ∈ dot_S5000x128_S128x32_S5000x32_1_0_0_1_n_n.lhsBatch by decide),
    dif_pos (show (0 : Fin S5000x128.rank) ∈ dot_S5000x128_S128x32_S5000x32_1_0_0_1_n_n.lhsNonContracting by decide)]
  rfl

theorem dot_lhs1 (j : S5000x32.Idx) (q : dot_S5000x128_S128x32_S5000x32_1_0_0_1_n_n.contr.Idx) :
    (dot_S5000x128_S128x32_S5000x32_1_0_0_1_n_n.lhsIdx j q 1).val = (q ⟨0, by decide⟩).val :=
  dot_S5000x128_S128x32_S5000x32_1_0_0_1_n_n.lhsIdx_val_of_single rfl j q

theorem dot_rhs0 (j : S5000x32.Idx) (q : dot_S5000x128_S128x32_S5000x32_1_0_0_1_n_n.contr.Idx) :
    (dot_S5000x128_S128x32_S5000x32_1_0_0_1_n_n.rhsIdx j q 0).val = (q ⟨0, by decide⟩).val :=
  dot_S5000x128_S128x32_S5000x32_1_0_0_1_n_n.rhsIdx_val_of_single rfl j q

theorem dot_rhs1 (j : S5000x32.Idx) (q : dot_S5000x128_S128x32_S5000x32_1_0_0_1_n_n.contr.Idx) :
    (dot_S5000x128_S128x32_S5000x32_1_0_0_1_n_n.rhsIdx j q 1).val = (j 1).val := by
  unfold DotDims.rhsIdx
  rw [dif_neg (show ¬(1 : Fin S128x32.rank) ∈ dot_S5000x128_S128x32_S5000x32_1_0_0_1_n_n.rhsBatch by decide),
    dif_pos (show (1 : Fin S128x32.rank) ∈ dot_S5000x128_S128x32_S5000x32_1_0_0_1_n_n.rhsNonContracting by decide)]
  rfl

/-! ## The stored values at an entry -/

/-- Row `p`, lane `c` of the first kernel's stored block: the 128 joined lanes of row `p` against column `c` of the
    weights, plus the bias of lane `c`. -/
theorem combine_apply (x0 : Vec Ideal S5000x128 .f32) (x1 : Vec Ideal S128x32 .f32) (x2 : Vec Ideal S1x32 .f32)
    (p : Fin 5000) (c : Fin 32) :
    k0_pay1 (F := Ideal) x0 x1 x2 (ix2 p c)
      = (∑ k : Fin 128, x0 (ix2 p k) * x1 (ix2 k c)) + x2 (ix2 (0 : Fin 1) c) := by
  unfold k0_pay1
  rw [shapeCast_self, shapeCast_self, shapeCast_self]
  exact Cert.DenseRow.kernelDense_apply dot_S5000x128_S128x32_S5000x32_1_0_0_1_n_n rfl rfl dot_lhs0 dot_lhs1 dot_rhs0 dot_rhs1
    none (truncf .bf16 x0 bitsLt_bf16_f32) (truncf .bf16 x1 bitsLt_bf16_f32) x2 broadcasts_S1x32_S5000x32 p c

/-- Row `p`, lane `c` of the third kernel's stored block: the same sum plus bias, times the mask entry of row `p`. -/
theorem combineMask_apply (x0 : Vec Ideal S5000x128 .f32) (x1 : Vec Ideal S128x32 .f32) (x2 : Vec Ideal S1x32 .f32)
    (x3 : Vec Ideal S5000x1 .f32) (p : Fin 5000) (c : Fin 32) :
    k2_pay1 (F := Ideal) x0 x1 x2 x3 (ix2 p c)
      = ((∑ k : Fin 128, x0 (ix2 p k) * x1 (ix2 k c)) + x2 (ix2 (0 : Fin 1) c)) * x3 (ix2 p (0 : Fin 1)) := by
  unfold k2_pay1
  rw [shapeCast_self, shapeCast_self, shapeCast_self, shapeCast_self]
  refine (ValueIdx.mulf_apply _ _ _).trans ?_
  rw [Cert.RowLayout.bcastCol_apply x3 broadcasts_S5000x1_S5000x32 p c]
  exact congrArg (· * x3 (ix2 p (0 : Fin 1)))
    (Cert.DenseRow.kernelDense_apply dot_S5000x128_S128x32_S5000x32_1_0_0_1_n_n rfl rfl dot_lhs0 dot_lhs1 dot_rhs0 dot_rhs1
      none (truncf .bf16 x0 bitsLt_bf16_f32) (truncf .bf16 x1 bitsLt_bf16_f32) x2 broadcasts_S1x32_S5000x32 p c)

end Cert.KernelIdeal.Pay

end
-- ==== Proof.Closed0.lean ====
/-
  The first kernel's output array as one function of the arrays it reads.

  Grid point t handles rows 5000 t … 5000 t + 4999: its block of the joined features, the whole weight matrix, the bias row.
  What it writes back is, at row r of the block and lane c, the 128-lane sum of (features of row 5000 t + r) times
  (weights' column c) plus the bias of lane c — the same function of the WHOLE arrays at row 5000 t + r. The twenty
  blocks tile the 100000 rows, so the array ends holding that function everywhere.
-/
import proofs.«151591_j33251636806000_1_alg».proof.Proof.FrameKI.Body0
import proofs.«151591_j33251636806000_1_alg».proof.Proof.CombinePay
import Idealize.ShloMosaic.Lib.Pipeline.Value

set_option maxRecDepth 16384

noncomputable section

open scoped BigOperators

namespace Cert.KernelIdeal.Closed

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `n`, lane `c` of the combine: the 128 joined lanes of row `n` against column `c` of the weights, plus the bias. -/
def G0 (H : S100000x128.Idx → EReal) (Wr : S128x32.Idx → EReal) (bR : S1x32.Idx → EReal) : S100000x32.Idx → EReal :=
  fun i => (∑ k : Fin 128, H (ix2 (⟨(i 0).val, (i 0).isLt⟩ : Fin 100000) k) * Wr (ix2 k (⟨(i 1).val, (i 1).isLt⟩ : Fin 32)))
    + bR (ix2 (0 : Fin 1) (⟨(i 1).val, (i 1).isLt⟩ : Fin 32))

/-- The three arrays the region reads, as it finds them. -/
abbrev aH (c : Dev nD) : S100000x128.Idx → EReal := V c main_v66
abbrev aW (c : Dev nD) : S128x32.Idx → EReal := V c main_v67
abbrev aB (c : Dev nD) : S1x32.Idx → EReal := V c main_v68

/-- The stored block at an index of the block, over any loaded blocks. -/
theorem pay0_pt (x0 : Vec Ideal S5000x128 .f32) (x1 : Vec Ideal S128x32 .f32) (x2 : Vec Ideal S1x32 .f32) (y : S5000x32.Idx) :
    k0_pay1 (F := Ideal) x0 x1 x2 y
      = (∑ k : Fin 128, x0 (ix2 (⟨(y 0).val, (y 0).isLt⟩ : Fin 5000) k) * x1 (ix2 k (⟨(y 1).val, (y 1).isLt⟩ : Fin 32)))
        + x2 (ix2 (0 : Fin 1) (⟨(y 1).val, (y 1).isLt⟩ : Fin 32)) := by
  obtain ⟨p, q, rfl⟩ : ∃ (p : Fin 5000) (q : Fin 32), y = ix2 p q := ⟨y 0, y 1, eq_ix2 y⟩
  exact Cert.KernelIdeal.Pay.combine_apply x0 x1 x2 p q

/-- The printed index maps over the grid: the feature and output blocks move with the point along the rows; the weight
    and bias blocks stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `G0` of the arrays as the region finds them. -/
theorem flushed0_eq (c : Dev nD) (t : Fin cfg0.N) :
    (dat0 V c).flushed 3 t = ((cfg0.win 3).blk t).view.read (Elt Ideal) (G0 (aH V c) (aW V c) (aB V c)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x32) hz, View.ld_unit_zero (S := S1x32) hz]
  obtain ⟨e00, e01, e10, e11, e20, e21, e30, e31⟩ := idx_facts0 t
  funext j
  refine (pay0_pt (iblk0 V c 0 t) (iblk0 V c 1 t) (iblk0 V c 2 t) j).trans ?_
  have hj0 : (j 0).val < 5000 := (j 0).isLt
  have hj1 : (j 1).val < 32 := (j 1).isLt
  show (∑ k : Fin 128, aH V c (((cfg0.win 0).blk t).view.emb (ix2 (⟨(j 0).val, hj0⟩ : Fin 5000) k))
        * aW V c (((cfg0.win 1).blk t).view.emb (ix2 k (⟨(j 1).val, hj1⟩ : Fin 32))))
      + aB V c (((cfg0.win 2).blk t).view.emb (ix2 (0 : Fin 1) (⟨(j 1).val, hj1⟩ : Fin 32)))
    = G0 (aH V c) (aW V c) (aB V c) (((cfg0.win 3).blk t).view.emb j)
  unfold G0
  have h0 : ∀ k : Fin 128, ((cfg0.win 0).blk t).view.emb (ix2 (⟨(j 0).val, hj0⟩ : Fin 5000) k)
      = ix2 (⟨((((cfg0.win 3).blk t).view.emb j) 0).val, ((((cfg0.win 3).blk t).view.emb j) 0).isLt⟩ : Fin 100000) k := fun k => by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have h1 : ∀ k : Fin 128, ((cfg0.win 1).blk t).view.emb (ix2 k (⟨(j 1).val, hj1⟩ : Fin 32))
      = ix2 k (⟨((((cfg0.win 3).blk t).view.emb j) 1).val, ((((cfg0.win 3).blk t).view.emb j) 1).isLt⟩ : Fin 32) := fun k => by
    funext a; apply Fin.ext
    match a with
    | ⟨0, _⟩ => show win0_1.index t (0 : Fin 2) * 128 + 1 * k.val = k.val; omega
    | ⟨1, _⟩ => show win0_1.index t (1 : Fin 2) * 32 + 1 * (j 1).val = win0_3.index t (1 : Fin 2) * 32 + 1 * (j 1).val; omega
  have h2 : ((cfg0.win 2).blk t).view.emb (ix2 (0 : Fin 1) (⟨(j 1).val, hj1⟩ : Fin 32))
      = ix2 (0 : Fin 1) (⟨((((cfg0.win 3).blk t).view.emb j) 1).val, ((((cfg0.win 3).blk t).view.emb j) 1).isLt⟩ : Fin 32) := by
    funext a; apply Fin.ext
    match a with
    | ⟨0, _⟩ => show win0_2.index t (0 : Fin 2) * 1 + 1 * 0 = 0; omega
    | ⟨1, _⟩ => show win0_2.index t (1 : Fin 2) * 32 + 1 * (j 1).val = win0_3.index t (1 : Fin 2) * 32 + 1 * (j 1).val; omega
  rw [h2]
  refine congrArg (· + _) (Finset.sum_congr rfl fun k _ => ?_)
  rw [h0 k, h1 k]

/-- An index of the array is in point `t`'s block iff each coordinate is in the block's range on its axis. -/
theorem mem_blk0 (t : Fin cfg0.N) (i : S100000x32.Idx) :
    i ∈ ((cfg0.win 3).blk t).view.set ↔ ∀ a : Fin 2, win0_3.index t a * S5000x32.size a ≤ (i a).val
      ∧ (i a).val < win0_3.index t a * S5000x32.size a + S5000x32.size a := by
  show i ∈ ((View.whole main_v69).slice (win0_3.rect t)).set ↔ _
  rw [View.set_slice_whole, Rect.mem_set_unit]
  exact Iff.rfl

/-- Every row is in the block of the point its row number over 5000 names. -/
theorem cover0 (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 20 := N_0
  refine ⟨⟨(i 0).val / 5000, by rw [hN]; omega⟩, flush0_3 _, ?_⟩
  rw [mem_blk0]
  obtain ⟨-, -, -, -, -, -, e30, e31⟩ := idx_facts0 ⟨(i 0).val / 5000, by rw [hN]; omega⟩
  intro a
  match a with
  | ⟨0, _⟩ =>
      show win0_3.index _ (0 : Fin 2) * 5000 ≤ (i 0).val ∧ (i 0).val < win0_3.index _ (0 : Fin 2) * 5000 + 5000
      rw [e30]; show (i 0).val / 5000 * 5000 ≤ (i 0).val ∧ (i 0).val < (i 0).val / 5000 * 5000 + 5000; omega
  | ⟨1, _⟩ =>
      show win0_3.index _ (1 : Fin 2) * 32 ≤ (i 1).val ∧ (i 1).val < win0_3.index _ (1 : Fin 2) * 32 + 32
      rw [e31]; omega

/-- The output array after the region: `G0` of the arrays as the region finds them. -/
theorem final0 (c : Dev nD) :
    (dat0 V c).arrAt 3 cfg0.N = G0 (aH V c) (aW V c) (aB V c) :=
  (dat0 V c).arrAt_eq_of_cover 3 _ (fun t _ => flushed0_eq V c t) cover0

end Cert.KernelIdeal.Closed

end
-- ==== Proof.LibNormRow.lean ====
/-
  Rows through affine layers and a layer normalisation, read at an entry.

  A row-wise network keeps each weight matrix as `[N, K]` (one row per output lane) and multiplies a row of `K` features
  by its transpose; it adds a bias lane by lane; and it normalises a row: it subtracts the row's mean, divides by the
  square root of the row's variance plus a small constant, scales lane by lane and shifts lane by lane. On the exact
  extended reals each of these is a function of ONE row: no entry of another row enters it.

  * `projT x w` — lane `c` is the sum over `k` of `x k * w c k`.
  * `lnRow d e y g b` — lane `q` is `(y q - mean) * rsqrt (var + e) * g q + b q`, the mean the row's sum divided by `d`,
    the variance the sum of the squared deviations divided by `d`.

  A kernel spells them with the matrix unit, the vector unit's lane sum, casts between `[B]` and `[B, 1]` and
  broadcasts along the lanes; a host program with `dot_general`, its own sum (which starts from an initial value),
  and `broadcast_in_dim`. Both spellings read at entry `(p, q)` are the same function of row `p`. A host program may
  also contract against the join of three arrays along the lanes where a kernel adds three products: the sum over the
  joined lanes is the three sums added. Slices of a weight array are read at the sliced coordinates.

  Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«151591_j33251636806000_1_alg».proof.Proof.LibPlainMatmul
import proofs.«151591_j33251636806000_1_alg».proof.Proof.LibHostRowOps
import proofs.«151591_j33251636806000_1_alg».proof.Proof.LibRowBias
import proofs.«151591_j33251636806000_1_alg».proof.Proof.LibRowLayout
import proofs.«151591_j33251636806000_1_alg».proof.Proof.LibDenseRow

noncomputable section

open scoped BigOperators

namespace Cert.NormRow

open Idealize.ShloMosaic Idealize.ShloMosaic.ValueIdx

variable {α : Type}

/-! ## The two row functions -/

/-- A row of `K` features against the transpose of an `[N, K]` weight matrix: lane `c` is the sum over `k` of
    `x k * w c k`. -/
def projT {K N : Nat} (x : Fin K → EReal) (w : Fin N → Fin K → EReal) : Fin N → EReal :=
  fun c => ∑ k : Fin K, x k * w c k

/-- The layer normalisation of a row `y`, with the count `d`, the stabiliser `e`, the scale `g` and the shift `b`. -/
def lnRow {n : Nat} (d e : EReal) (y g b : Fin n → EReal) : Fin n → EReal :=
  fun q => (y q - Ideal.div (∑ k : Fin n, y k) d)
      * Ideal.rsqrt (Ideal.div (∑ k : Fin n, (y k - Ideal.div (∑ j : Fin n, y j) d) * (y k - Ideal.div (∑ j : Fin n, y j) d)) d + e)
      * g q + b q

/-! ## Layouts read at an entry -/

/-- A matrix kept as `[N, K]` and used transposed: entry `(k, c)` of the transpose is entry `(c, k)`. -/
theorem transposeMat_apply {N K : Nat} (w : (⟨2, ![N, K]⟩ : Shape).Idx → α)
    (h : (⟨2, ![N, K]⟩ : Shape).Transposes [1, 0] (⟨2, ![K, N]⟩ : Shape)) (k : Fin K) (c : Fin N) :
    transpose (⟨2, ![K, N]⟩ : Shape) [1, 0] w h (ix2 k c) = w (ix2 c k) :=
  transpose_apply [1, 0] w h (ix2 k c) (ix2 c k) (fun b => match b with
    | ⟨0, _⟩ => rfl
    | ⟨1, _⟩ => rfl)

/-- Rows `off ..` of a matrix: entry `(c, k)` of the slice is entry `(c', k)`, `c'` the row `off + c`. -/
theorem sliceRows_apply {R N K : Nat} (off : Nat) (x : (⟨2, ![R, K]⟩ : Shape).Idx → α)
    (h : Shape.Slices (⟨2, ![R, K]⟩ : Shape) ![off, 0] (⟨2, ![N, K]⟩ : Shape)) (c : Fin N) (k : Fin K)
    (c' : Fin R) (hc : c'.val = off + c.val) :
    extractStridedSlice (⟨2, ![N, K]⟩ : Shape) ![off, 0] x h (ix2 c k) = x (ix2 c' k) :=
  extractStridedSlice_apply ![off, 0] x h (ix2 c k) (ix2 c' k) (fun a => match a with
    | ⟨0, _⟩ => hc
    | ⟨1, _⟩ => by show k.val = 0 + k.val; omega)

/-- Lanes `off ..` of a matrix: entry `(c, k)` of the slice is entry `(c, k')`, `k'` the lane `off + k`. -/
theorem sliceCols_apply {N K n : Nat} (off : Nat) (x : (⟨2, ![N, K]⟩ : Shape).Idx → α)
    (h : Shape.Slices (⟨2, ![N, K]⟩ : Shape) ![0, off] (⟨2, ![N, n]⟩ : Shape)) (c : Fin N) (k : Fin n)
    (k' : Fin K) (hk : k'.val = off + k.val) :
    extractStridedSlice (⟨2, ![N, n]⟩ : Shape) ![0, off] x h (ix2 c k) = x (ix2 c k') :=
  extractStridedSlice_apply ![0, off] x h (ix2 c k) (ix2 c k') (fun a => match a with
    | ⟨0, _⟩ => by show c.val = 0 + c.val; omega
    | ⟨1, _⟩ => hk)

/-- Entries `off ..` of a flat vector. -/
theorem sliceFlat_apply {R N : Nat} (off : Nat) (x : (⟨1, ![R]⟩ : Shape).Idx → α)
    (h : Shape.Slices (⟨1, ![R]⟩ : Shape) ![off] (⟨1, ![N]⟩ : Shape)) (c : Fin N) (c' : Fin R) (hc : c'.val = off + c.val) :
    extractStridedSlice (⟨1, ![N]⟩ : Shape) ![off] x h (ix1 c) = x (ix1 c') :=
  extractStridedSlice_apply ![off] x h (ix1 c) (ix1 c') (fun a => match a with
    | ⟨0, _⟩ => hc)

/-- A bias kept as one row `[1, N]` (cast to its own shape) and broadcast down the rows: lane `c` of every row. -/
theorem kernelBias_apply {B N : Nat} (b : (⟨2, ![1, N]⟩ : Shape).Idx → α)
    (hsc : Shape.ShapeCasts (⟨2, ![1, N]⟩ : Shape) (⟨2, ![1, N]⟩ : Shape))
    (hb : Shape.Broadcasts (⟨2, ![1, N]⟩ : Shape) (⟨2, ![B, N]⟩ : Shape)) (p : Fin B) (c : Fin N) :
    broadcastTo (⟨2, ![B, N]⟩ : Shape) (shapeCast (⟨2, ![1, N]⟩ : Shape) b hsc) hb (ix2 p c) = b (ix2 (0 : Fin 1) c) := by
  rw [Cert.RowBias.bcastRow_apply, shapeCast_self]

/-- A flat bias `[N]` laid as a row and then down the rows by the host: lane `c` of every row. -/
theorem hostBias_apply {B N : Nat} (b : (⟨1, ![N]⟩ : Shape).Idx → α)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    broadcastInDim (⟨2, ![B, N]⟩ : Shape) ![0, 1] h2 (broadcastInDim (⟨2, ![1, N]⟩ : Shape) ![1] h1 b) (ix2 p c) = b (ix1 c) :=
  (Cert.DenseRow.hostRowDown_apply _ h2 p c).trans (Cert.DenseRow.hostFlatRow_apply b h1 c)

/-- A flat vector `[B]` laid as a column `[B, 1]` by the host: row `p` holds entry `p`. -/
theorem hostFlatCol_apply {B : Nat} (v : (⟨1, ![B]⟩ : Shape).Idx → α)
    (h : (⟨1, ![B]⟩ : Shape).BroadcastsInDim (⟨2, ![B, 1]⟩ : Shape) ![0]) (p : Fin B) :
    broadcastInDim (⟨2, ![B, 1]⟩ : Shape) ![0] h v (ix2 p (0 : Fin 1)) = v (ix1 p) :=
  broadcastInDim_apply _ h v (ix2 p (0 : Fin 1)) (ix1 p) (fun a => match a with
    | ⟨0, _⟩ => by
        show p.val = if B = 1 then 0 else p.val
        split
        · have := p.isLt; omega
        · rfl)

/-- A scalar laid over a column `[B, 1]` by the host: every row holds it. -/
theorem hostScalarCol_apply {B : Nat} (v : (⟨0, ![]⟩ : Shape).Idx → α)
    (h : (⟨0, ![]⟩ : Shape).BroadcastsInDim (⟨2, ![B, 1]⟩ : Shape) ![]) (p : Fin B) :
    broadcastInDim (⟨2, ![B, 1]⟩ : Shape) ![] h v (ix2 p (0 : Fin 1)) = v (fun a => a.elim0) :=
  broadcastInDim_apply _ h v (ix2 p (0 : Fin 1)) (fun a => a.elim0) (fun a => a.elim0)

/-! ## A product with transposed weights -/

/-- The kernel's spelling: the matrix unit's product of a block `[B, K]` by the transpose of `[N, K]` weights into the zero
    accumulator, at entry `(p, c)`, is lane `c` of `projT` of row `p`. -/
theorem kernelProjT_apply {B K N : Nat} {φ₁ : FTy} (prec : Option ContractPrecision)
    (l : FVec Ideal (⟨2, ![B, K]⟩ : Shape) φ₁) (w : FVec Ideal (⟨2, ![N, K]⟩ : Shape) .f32)
    (htr : (⟨2, ![N, K]⟩ : Shape).Transposes [1, 0] (⟨2, ![K, N]⟩ : Shape)) (p : Fin B) (c : Fin N) :
    matmul (DotDims.plain B K N) prec l (transpose (⟨2, ![K, N]⟩ : Shape) [1, 0] w htr)
        (constant (F := Ideal) (⟨2, ![B, N]⟩ : Shape) .f32 0x00000000#32) (ix2 p c)
      = projT (fun k => l (ix2 p k)) (fun c k => w (ix2 c k)) c := by
  refine (Cert.PlainMatmul.matmul_zero_apply (DotDims.plain B K N) (Cert.DenseRow.plain_rank B K N)
    (Cert.DenseRow.plain_size B K N) (Cert.DenseRow.plain_lhs0 B K N) (Cert.DenseRow.plain_lhs1 B K N)
    (Cert.DenseRow.plain_rhs0 B K N) (Cert.DenseRow.plain_rhs1 B K N) prec l _ p c).trans ?_
  exact Finset.sum_congr rfl fun k _ => congrArg (l (ix2 p k) * ·) (transposeMat_apply w htr k c)

/-- The host's spelling: `dot_general` of `[B, K]` with the transpose of `[N, K]` weights, at entry `(p, c)`. -/
theorem hostProjT_apply {B K N : Nat} {φ₁ : FTy} (prec : Option ContractPrecision)
    (l : FVec Ideal (⟨2, ![B, K]⟩ : Shape) φ₁) (w : FVec Ideal (⟨2, ![N, K]⟩ : Shape) .f32)
    (htr : (⟨2, ![N, K]⟩ : Shape).Transposes [1, 0] (⟨2, ![K, N]⟩ : Shape)) (p : Fin B) (c : Fin N) :
    Host.dotGeneral (F := Ideal) (DotDims.plain B K N) prec l (transpose (⟨2, ![K, N]⟩ : Shape) [1, 0] w htr) (ix2 p c)
      = projT (fun k => l (ix2 p k)) (fun c k => w (ix2 c k)) c := by
  refine (Cert.HostRowOps.hostDot_apply (DotDims.plain B K N) (Cert.DenseRow.plain_rank B K N)
    (Cert.DenseRow.plain_size B K N) (Cert.DenseRow.plain_lhs0 B K N) (Cert.DenseRow.plain_lhs1 B K N)
    (Cert.DenseRow.plain_rhs0 B K N) (Cert.DenseRow.plain_rhs1 B K N) prec l _ p c).trans ?_
  exact Finset.sum_congr rfl fun k _ => congrArg (l (ix2 p k) * ·) (transposeMat_apply w htr k c)

/-! ## Three arrays joined along the lanes -/

section Join

variable {B n0 n1 n2 : Nat}

/-- A lane of the first of three joined arrays. -/
theorem join3_first (x0 : (⟨2, ![B, n0]⟩ : Shape).Idx → α) (x1 : (⟨2, ![B, n1]⟩ : Shape).Idx → α)
    (x2 : (⟨2, ![B, n2]⟩ : Shape).Idx → α)
    (hc : Shape.Concatenates [(⟨2, ![B, n0]⟩ : Shape), (⟨2, ![B, n1]⟩ : Shape), (⟨2, ![B, n2]⟩ : Shape)]
      (⟨2, ![B, n0 + n1 + n2]⟩ : Shape) (1 : Fin 2)) (p : Fin B) (k : Fin n0) :
    concatenate (⟨2, ![B, n0 + n1 + n2]⟩ : Shape) (1 : Fin 2)
        [⟨(⟨2, ![B, n0]⟩ : Shape), x0⟩, ⟨(⟨2, ![B, n1]⟩ : Shape), x1⟩, ⟨(⟨2, ![B, n2]⟩ : Shape), x2⟩] hc
        (ix2 p (Fin.castAdd n2 (Fin.castAdd n1 k))) = x0 (ix2 p k) :=
  concatenate_apply_piece (t := (⟨2, ![B, n0 + n1 + n2]⟩ : Shape)) (1 : Fin 2) [⟨(⟨2, ![B, n0]⟩ : Shape), x0⟩, ⟨(⟨2, ![B, n1]⟩ : Shape), x1⟩, ⟨(⟨2, ![B, n2]⟩ : Shape), x2⟩] hc
    (ix2 p (Fin.castAdd n2 (Fin.castAdd n1 k))) 0 (by simp) (⟨2, ![B, n0]⟩ : Shape) x0 rfl rfl 0 rfl (ix2 p k)
    (fun b => match b with
      | ⟨0, _⟩ => fun _ => rfl
      | ⟨1, _⟩ => fun hne => absurd (Fin.ext rfl) hne)
    (by show 0 + k.val = k.val; omega)

/-- A lane of the second. -/
theorem join3_second (x0 : (⟨2, ![B, n0]⟩ : Shape).Idx → α) (x1 : (⟨2, ![B, n1]⟩ : Shape).Idx → α)
    (x2 : (⟨2, ![B, n2]⟩ : Shape).Idx → α)
    (hc : Shape.Concatenates [(⟨2, ![B, n0]⟩ : Shape), (⟨2, ![B, n1]⟩ : Shape), (⟨2, ![B, n2]⟩ : Shape)]
      (⟨2, ![B, n0 + n1 + n2]⟩ : Shape) (1 : Fin 2)) (p : Fin B) (k : Fin n1) :
    concatenate (⟨2, ![B, n0 + n1 + n2]⟩ : Shape) (1 : Fin 2)
        [⟨(⟨2, ![B, n0]⟩ : Shape), x0⟩, ⟨(⟨2, ![B, n1]⟩ : Shape), x1⟩, ⟨(⟨2, ![B, n2]⟩ : Shape), x2⟩] hc
        (ix2 p (Fin.castAdd n2 (Fin.natAdd n0 k))) = x1 (ix2 p k) :=
  concatenate_apply_piece (t := (⟨2, ![B, n0 + n1 + n2]⟩ : Shape)) (1 : Fin 2) [⟨(⟨2, ![B, n0]⟩ : Shape), x0⟩, ⟨(⟨2, ![B, n1]⟩ : Shape), x1⟩, ⟨(⟨2, ![B, n2]⟩ : Shape), x2⟩] hc
    (ix2 p (Fin.castAdd n2 (Fin.natAdd n0 k))) 1 (by simp) (⟨2, ![B, n1]⟩ : Shape) x1 rfl rfl n0 (by simp) (ix2 p k)
    (fun b => match b with
      | ⟨0, _⟩ => fun _ => rfl
      | ⟨1, _⟩ => fun hne => absurd (Fin.ext rfl) hne)
    (by show n0 + k.val = n0 + k.val; rfl)

/-- A lane of the third. -/
theorem join3_third (x0 : (⟨2, ![B, n0]⟩ : Shape).Idx → α) (x1 : (⟨2, ![B, n1]⟩ : Shape).Idx → α)
    (x2 : (⟨2, ![B, n2]⟩ : Shape).Idx → α)
    (hc : Shape.Concatenates [(⟨2, ![B, n0]⟩ : Shape), (⟨2, ![B, n1]⟩ : Shape), (⟨2, ![B, n2]⟩ : Shape)]
      (⟨2, ![B, n0 + n1 + n2]⟩ : Shape) (1 : Fin 2)) (p : Fin B) (k : Fin n2) :
    concatenate (⟨2, ![B, n0 + n1 + n2]⟩ : Shape) (1 : Fin 2)
        [⟨(⟨2, ![B, n0]⟩ : Shape), x0⟩, ⟨(⟨2, ![B, n1]⟩ : Shape), x1⟩, ⟨(⟨2, ![B, n2]⟩ : Shape), x2⟩] hc
        (ix2 p (Fin.natAdd (n0 + n1) k)) = x2 (ix2 p k) :=
  concatenate_apply_piece (t := (⟨2, ![B, n0 + n1 + n2]⟩ : Shape)) (1 : Fin 2) [⟨(⟨2, ![B, n0]⟩ : Shape), x0⟩, ⟨(⟨2, ![B, n1]⟩ : Shape), x1⟩, ⟨(⟨2, ![B, n2]⟩ : Shape), x2⟩] hc
    (ix2 p (Fin.natAdd (n0 + n1) k)) 2 (by simp) (⟨2, ![B, n2]⟩ : Shape) x2 rfl rfl (n0 + n1) (by simp) (ix2 p k)
    (fun b => match b with
      | ⟨0, _⟩ => fun _ => rfl
      | ⟨1, _⟩ => fun hne => absurd (Fin.ext rfl) hne)
    (by show n0 + n1 + k.val = n0 + n1 + k.val; rfl)

/-- A row of the join against `[N, n0 + n1 + n2]` weights is the three rows against the three lane ranges of the
    weights, added: only the order and grouping of a finite sum changes. -/
theorem projT_join3 {N : Nat} (x0 : (⟨2, ![B, n0]⟩ : Shape).Idx → EReal) (x1 : (⟨2, ![B, n1]⟩ : Shape).Idx → EReal)
    (x2 : (⟨2, ![B, n2]⟩ : Shape).Idx → EReal)
    (hc : Shape.Concatenates [(⟨2, ![B, n0]⟩ : Shape), (⟨2, ![B, n1]⟩ : Shape), (⟨2, ![B, n2]⟩ : Shape)]
      (⟨2, ![B, n0 + n1 + n2]⟩ : Shape) (1 : Fin 2))
    (w : Fin N → Fin (n0 + n1 + n2) → EReal) (p : Fin B) (c : Fin N) :
    projT (fun k => concatenate (⟨2, ![B, n0 + n1 + n2]⟩ : Shape) (1 : Fin 2)
        [⟨(⟨2, ![B, n0]⟩ : Shape), x0⟩, ⟨(⟨2, ![B, n1]⟩ : Shape), x1⟩, ⟨(⟨2, ![B, n2]⟩ : Shape), x2⟩] hc (ix2 p k)) w c
      = (projT (fun k => x0 (ix2 p k)) (fun c k => w c (Fin.castAdd n2 (Fin.castAdd n1 k))) c
          + projT (fun k => x1 (ix2 p k)) (fun c k => w c (Fin.castAdd n2 (Fin.natAdd n0 k))) c)
        + projT (fun k => x2 (ix2 p k)) (fun c k => w c (Fin.natAdd (n0 + n1) k)) c := by
  unfold projT
  rw [Fin.sum_univ_add, Fin.sum_univ_add]
  simp only [join3_first, join3_second, join3_third]

end Join

/-! ## The layer normalisation of a row -/

/-- The kernel's column of row means: the lane sum cast to a column, divided by the count. -/
abbrev kernelMeanCol {B n : Nat} (y : FVec Ideal (⟨2, ![B, n]⟩ : Shape) .f32) (dw : BitVec 32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape)) : FVec Ideal (⟨2, ![B, 1]⟩ : Shape) .f32 :=
  divf (shapeCast (⟨2, ![B, 1]⟩ : Shape) (multiReduction .add [(1 : Fin 2)] (⟨1, ![B]⟩ : Shape) y 0x00000000#32 hred hφ hacc) hcast)
    (broadcast (⟨2, ![B, 1]⟩ : Shape) (Scalar.ofBits (F := Ideal) .f32 dw))

theorem kernelMeanCol_apply {B n : Nat} (y : FVec Ideal (⟨2, ![B, n]⟩ : Shape) .f32) (dw : BitVec 32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape)) (p : Fin B) :
    kernelMeanCol y dw hred hφ hacc hcast (ix2 p (0 : Fin 1))
      = Ideal.div (∑ k : Fin n, y (ix2 p k)) (Ideal.ofBits .f32 dw) := by
  show Ideal.div (shapeCast (⟨2, ![B, 1]⟩ : Shape) _ hcast (ix2 p (0 : Fin 1))) _ = _
  rw [Cert.RowLayout.castCol_apply, Cert.RowLayout.laneSum_apply]
  rfl

/-- THE KERNEL'S SPELLING of the layer normalisation, read at entry `(p, q)`: `lnRow` of row `p`. -/
theorem kernelLN_apply {B n : Nat} (y : FVec Ideal (⟨2, ![B, n]⟩ : Shape) .f32)
    (g b : FVec Ideal (⟨2, ![1, n]⟩ : Shape) .f32) (dw ew : BitVec 32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape))
    (hsc : Shape.ShapeCasts (⟨2, ![1, n]⟩ : Shape) (⟨2, ![1, n]⟩ : Shape))
    (hbr : Shape.Broadcasts (⟨2, ![1, n]⟩ : Shape) (⟨2, ![B, n]⟩ : Shape)) (p : Fin B) (q : Fin n) :
    addf (mulf (mulf
        (subf y (broadcastTo (⟨2, ![B, n]⟩ : Shape) (kernelMeanCol y dw hred hφ hacc hcast) hbc))
        (broadcastTo (⟨2, ![B, n]⟩ : Shape) (rsqrt (addf
          (divf (shapeCast (⟨2, ![B, 1]⟩ : Shape) (multiReduction .add [(1 : Fin 2)] (⟨1, ![B]⟩ : Shape)
              (mulf (subf y (broadcastTo (⟨2, ![B, n]⟩ : Shape) (kernelMeanCol y dw hred hφ hacc hcast) hbc))
                    (subf y (broadcastTo (⟨2, ![B, n]⟩ : Shape) (kernelMeanCol y dw hred hφ hacc hcast) hbc)))
              0x00000000#32 hred hφ hacc) hcast)
            (broadcast (⟨2, ![B, 1]⟩ : Shape) (Scalar.ofBits (F := Ideal) .f32 dw)))
          (broadcast (⟨2, ![B, 1]⟩ : Shape) (Scalar.ofBits (F := Ideal) .f32 ew)))) hbc))
        (broadcastTo (⟨2, ![B, n]⟩ : Shape) (shapeCast (⟨2, ![1, n]⟩ : Shape) g hsc) hbr))
      (broadcastTo (⟨2, ![B, n]⟩ : Shape) (shapeCast (⟨2, ![1, n]⟩ : Shape) b hsc) hbr) (ix2 p q)
      = lnRow (Ideal.ofBits .f32 dw) (Ideal.ofBits .f32 ew) (fun k => y (ix2 p k)) (fun k => g (ix2 (0 : Fin 1) k))
          (fun k => b (ix2 (0 : Fin 1) k)) q := by
  have hD : ∀ k : Fin n, subf y (broadcastTo (⟨2, ![B, n]⟩ : Shape) (kernelMeanCol y dw hred hφ hacc hcast) hbc) (ix2 p k)
      = y (ix2 p k) - Ideal.div (∑ j : Fin n, y (ix2 p j)) (Ideal.ofBits .f32 dw) := fun k => by
    show y (ix2 p k) - broadcastTo (⟨2, ![B, n]⟩ : Shape) (kernelMeanCol y dw hred hφ hacc hcast) hbc (ix2 p k) = _
    rw [Cert.RowLayout.bcastCol_apply, kernelMeanCol_apply]
  show (subf y (broadcastTo (⟨2, ![B, n]⟩ : Shape) (kernelMeanCol y dw hred hφ hacc hcast) hbc) (ix2 p q)
      * broadcastTo (⟨2, ![B, n]⟩ : Shape) _ hbc (ix2 p q))
      * broadcastTo (⟨2, ![B, n]⟩ : Shape) (shapeCast (⟨2, ![1, n]⟩ : Shape) g hsc) hbr (ix2 p q)
      + broadcastTo (⟨2, ![B, n]⟩ : Shape) (shapeCast (⟨2, ![1, n]⟩ : Shape) b hsc) hbr (ix2 p q) = _
  rw [hD q, Cert.RowLayout.bcastCol_apply, kernelBias_apply g hsc hbr p q, kernelBias_apply b hsc hbr p q]
  show _ * Ideal.rsqrt (Ideal.div (shapeCast (⟨2, ![B, 1]⟩ : Shape) _ hcast (ix2 p (0 : Fin 1))) (Ideal.ofBits .f32 dw)
      + Ideal.ofBits .f32 ew) * _ + _ = _
  rw [Cert.RowLayout.castCol_apply, Cert.RowLayout.laneSum_apply]
  unfold lnRow
  have hs : (∑ k : Fin n, mulf (subf y (broadcastTo (⟨2, ![B, n]⟩ : Shape) (kernelMeanCol y dw hred hφ hacc hcast) hbc))
        (subf y (broadcastTo (⟨2, ![B, n]⟩ : Shape) (kernelMeanCol y dw hred hφ hacc hcast) hbc)) (ix2 p k))
      = ∑ k : Fin n, (y (ix2 p k) - Ideal.div (∑ j : Fin n, y (ix2 p j)) (Ideal.ofBits .f32 dw))
          * (y (ix2 p k) - Ideal.div (∑ j : Fin n, y (ix2 p j)) (Ideal.ofBits .f32 dw)) :=
    Finset.sum_congr rfl fun k _ => by
      show subf y _ (ix2 p k) * subf y _ (ix2 p k) = _
      rw [hD k]
  rw [hs]

/-- The host's column of row means: its sum (from the zero word) laid as a column, divided by the count laid over the
    column. -/
abbrev hostMeanCol {B n : Nat} (y : FVec Ideal (⟨2, ![B, n]⟩ : Shape) .f32) (dw : BitVec 32)
    (hR : Shape.ReducesTo (⟨2, ![B, n]⟩ : Shape) [(1 : Fin 2)] (⟨1, ![B]⟩ : Shape)) (hu : 0 < (⟨0, ![]⟩ : Shape).numel)
    (h0 : (⟨1, ![B]⟩ : Shape).BroadcastsInDim (⟨2, ![B, 1]⟩ : Shape) ![0])
    (hS : (⟨0, ![]⟩ : Shape).BroadcastsInDim (⟨2, ![B, 1]⟩ : Shape) ![]) : FVec Ideal (⟨2, ![B, 1]⟩ : Shape) .f32 :=
  Host.divf (broadcastInDim (⟨2, ![B, 1]⟩ : Shape) ![0] h0
      (Host.reduceAdd y (constant (F := Ideal) (⟨0, ![]⟩ : Shape) .f32 0x00000000#32) hR hu))
    (broadcastInDim (⟨2, ![B, 1]⟩ : Shape) ![] hS (constant (F := Ideal) (⟨0, ![]⟩ : Shape) .f32 dw))

/-- The host's sum over the lanes from the zero word, at row `p`: the sum of the row's entries. -/
theorem hostLaneSum_apply {B n : Nat} (v : FVec Ideal (⟨2, ![B, n]⟩ : Shape) .f32)
    (hR : Shape.ReducesTo (⟨2, ![B, n]⟩ : Shape) [(1 : Fin 2)] (⟨1, ![B]⟩ : Shape)) (hu : 0 < (⟨0, ![]⟩ : Shape).numel)
    (hr : Shape.Reduces (⟨2, ![B, n]⟩ : Shape) [(1 : Fin 2)] (⟨1, ![B]⟩ : Shape)) (p : Fin B) :
    Host.reduceAdd v (constant (F := Ideal) (⟨0, ![]⟩ : Shape) .f32 0x00000000#32) hR hu (ix1 p)
      = ∑ k : Fin n, v (ix2 p k) := by
  show Ideal.hostReduceAdd hR v (Ideal.ofBits .f32 0x00000000#32) (ix1 p) = _
  rw [Ideal.hostReduceAdd_single hR hr, Ideal.ofBits_zero_f32, zero_add]
  refine Finset.sum_congr rfl fun k _ => ?_
  exact congrArg v (funext fun a => Fin.ext (by match a with | ⟨0, _⟩ => rfl | ⟨1, _⟩ => rfl))

theorem hostMeanCol_apply {B n : Nat} (y : FVec Ideal (⟨2, ![B, n]⟩ : Shape) .f32) (dw : BitVec 32)
    (hR : Shape.ReducesTo (⟨2, ![B, n]⟩ : Shape) [(1 : Fin 2)] (⟨1, ![B]⟩ : Shape)) (hu : 0 < (⟨0, ![]⟩ : Shape).numel)
    (hr : Shape.Reduces (⟨2, ![B, n]⟩ : Shape) [(1 : Fin 2)] (⟨1, ![B]⟩ : Shape))
    (h0 : (⟨1, ![B]⟩ : Shape).BroadcastsInDim (⟨2, ![B, 1]⟩ : Shape) ![0])
    (hS : (⟨0, ![]⟩ : Shape).BroadcastsInDim (⟨2, ![B, 1]⟩ : Shape) ![]) (p : Fin B) :
    hostMeanCol y dw hR hu h0 hS (ix2 p (0 : Fin 1)) = Ideal.div (∑ k : Fin n, y (ix2 p k)) (Ideal.ofBits .f32 dw) := by
  show Ideal.div (broadcastInDim (s := (⟨1, ![B]⟩ : Shape)) (⟨2, ![B, 1]⟩ : Shape) ![0] h0 _ (ix2 p (0 : Fin 1)))
      (broadcastInDim (s := (⟨0, ![]⟩ : Shape)) (⟨2, ![B, 1]⟩ : Shape) ![] hS _ (ix2 p (0 : Fin 1))) = _
  rw [hostFlatCol_apply, hostScalarCol_apply, hostLaneSum_apply y hR hu hr p]
  rfl

/-- THE HOST'S SPELLING of the layer normalisation, read at entry `(p, q)`: `lnRow` of row `p`. -/
theorem hostLN_apply {B n : Nat} (y : FVec Ideal (⟨2, ![B, n]⟩ : Shape) .f32)
    (g b : FVec Ideal (⟨1, ![n]⟩ : Shape) .f32) (dw ew : BitVec 32)
    (hR : Shape.ReducesTo (⟨2, ![B, n]⟩ : Shape) [(1 : Fin 2)] (⟨1, ![B]⟩ : Shape)) (hu : 0 < (⟨0, ![]⟩ : Shape).numel)
    (hr : Shape.Reduces (⟨2, ![B, n]⟩ : Shape) [(1 : Fin 2)] (⟨1, ![B]⟩ : Shape))
    (h0 : (⟨1, ![B]⟩ : Shape).BroadcastsInDim (⟨2, ![B, 1]⟩ : Shape) ![0])
    (hS : (⟨0, ![]⟩ : Shape).BroadcastsInDim (⟨2, ![B, 1]⟩ : Shape) ![])
    (hc : (⟨2, ![B, 1]⟩ : Shape).BroadcastsInDim (⟨2, ![B, n]⟩ : Shape) ![0, 1])
    (h1 : (⟨1, ![n]⟩ : Shape).BroadcastsInDim (⟨2, ![1, n]⟩ : Shape) ![1])
    (h2 : (⟨2, ![1, n]⟩ : Shape).BroadcastsInDim (⟨2, ![B, n]⟩ : Shape) ![0, 1]) (p : Fin B) (q : Fin n) :
    addf (mulf (mulf
        (subf y (broadcastInDim (⟨2, ![B, n]⟩ : Shape) ![0, 1] hc (hostMeanCol y dw hR hu h0 hS)))
        (broadcastInDim (⟨2, ![B, n]⟩ : Shape) ![0, 1] hc (Host.rsqrt (addf
          (Host.divf (broadcastInDim (⟨2, ![B, 1]⟩ : Shape) ![0] h0 (Host.reduceAdd
              (mulf (subf y (broadcastInDim (⟨2, ![B, n]⟩ : Shape) ![0, 1] hc (hostMeanCol y dw hR hu h0 hS)))
                    (subf y (broadcastInDim (⟨2, ![B, n]⟩ : Shape) ![0, 1] hc (hostMeanCol y dw hR hu h0 hS))))
              (constant (F := Ideal) (⟨0, ![]⟩ : Shape) .f32 0x00000000#32) hR hu))
            (broadcastInDim (⟨2, ![B, 1]⟩ : Shape) ![] hS (constant (F := Ideal) (⟨0, ![]⟩ : Shape) .f32 dw)))
          (broadcastInDim (⟨2, ![B, 1]⟩ : Shape) ![] hS (constant (F := Ideal) (⟨0, ![]⟩ : Shape) .f32 ew))))))
        (broadcastInDim (⟨2, ![B, n]⟩ : Shape) ![0, 1] h2 (broadcastInDim (⟨2, ![1, n]⟩ : Shape) ![1] h1 g)))
      (broadcastInDim (⟨2, ![B, n]⟩ : Shape) ![0, 1] h2 (broadcastInDim (⟨2, ![1, n]⟩ : Shape) ![1] h1 b)) (ix2 p q)
      = lnRow (Ideal.ofBits .f32 dw) (Ideal.ofBits .f32 ew) (fun k => y (ix2 p k)) (fun k => g (ix1 k))
          (fun k => b (ix1 k)) q := by
  have hD : ∀ k : Fin n, subf y (broadcastInDim (⟨2, ![B, n]⟩ : Shape) ![0, 1] hc (hostMeanCol y dw hR hu h0 hS)) (ix2 p k)
      = y (ix2 p k) - Ideal.div (∑ j : Fin n, y (ix2 p j)) (Ideal.ofBits .f32 dw) := fun k => by
    show y (ix2 p k) - broadcastInDim (⟨2, ![B, n]⟩ : Shape) ![0, 1] hc (hostMeanCol y dw hR hu h0 hS) (ix2 p k) = _
    rw [Cert.HostRowOps.bcastColHost_apply, hostMeanCol_apply y dw hR hu hr h0 hS p]
  show (subf y (broadcastInDim (⟨2, ![B, n]⟩ : Shape) ![0, 1] hc (hostMeanCol y dw hR hu h0 hS)) (ix2 p q)
      * broadcastInDim (s := (⟨2, ![B, 1]⟩ : Shape)) (⟨2, ![B, n]⟩ : Shape) ![0, 1] hc _ (ix2 p q))
      * broadcastInDim (⟨2, ![B, n]⟩ : Shape) ![0, 1] h2 (broadcastInDim (⟨2, ![1, n]⟩ : Shape) ![1] h1 g) (ix2 p q)
      + broadcastInDim (⟨2, ![B, n]⟩ : Shape) ![0, 1] h2 (broadcastInDim (⟨2, ![1, n]⟩ : Shape) ![1] h1 b) (ix2 p q) = _
  rw [hD q, Cert.HostRowOps.bcastColHost_apply, hostBias_apply g h1 h2 p q, hostBias_apply b h1 h2 p q]
  show _ * Ideal.rsqrt (Ideal.div (broadcastInDim (s := (⟨1, ![B]⟩ : Shape)) (⟨2, ![B, 1]⟩ : Shape) ![0] h0 _ (ix2 p (0 : Fin 1)))
        (broadcastInDim (s := (⟨0, ![]⟩ : Shape)) (⟨2, ![B, 1]⟩ : Shape) ![] hS _ (ix2 p (0 : Fin 1)))
      + broadcastInDim (s := (⟨0, ![]⟩ : Shape)) (⟨2, ![B, 1]⟩ : Shape) ![] hS _ (ix2 p (0 : Fin 1))) * _ + _ = _
  rw [hostFlatCol_apply, hostScalarCol_apply, hostScalarCol_apply, hostLaneSum_apply _ hR hu hr p]
  unfold lnRow
  have hs : (∑ k : Fin n, mulf (subf y (broadcastInDim (⟨2, ![B, n]⟩ : Shape) ![0, 1] hc (hostMeanCol y dw hR hu h0 hS)))
        (subf y (broadcastInDim (⟨2, ![B, n]⟩ : Shape) ![0, 1] hc (hostMeanCol y dw hR hu h0 hS))) (ix2 p k))
      = ∑ k : Fin n, (y (ix2 p k) - Ideal.div (∑ j : Fin n, y (ix2 p j)) (Ideal.ofBits .f32 dw))
          * (y (ix2 p k) - Ideal.div (∑ j : Fin n, y (ix2 p j)) (Ideal.ofBits .f32 dw)) :=
    Finset.sum_congr rfl fun k _ => by
      show subf y _ (ix2 p k) * subf y _ (ix2 p k) = _
      rw [hD k]
  rw [hs]
  rfl

/-! ## One branch on one row: three context rows mixed, two affine layers, the residual, the normalisation -/

/-- An affine layer with transposed weights: lane `c` is `projT x w c + b c`. -/
def affT {K N : Nat} (x : Fin K → EReal) (w : Fin N → Fin K → EReal) (b : Fin N → EReal) : Fin N → EReal :=
  fun c => projT x w c + b c

/-- Three context rows against three weight matrices, added in that grouping, plus a bias. -/
def kvRow {n0 n1 n2 E : Nat} (a0 : Fin n0 → EReal) (a1 : Fin n1 → EReal) (a2 : Fin n2 → EReal)
    (w0 : Fin E → Fin n0 → EReal) (w1 : Fin E → Fin n1 → EReal) (w2 : Fin E → Fin n2 → EReal) (kb : Fin E → EReal) :
    Fin E → EReal :=
  fun c => ((projT a0 w0 c + projT a1 w1 c) + projT a2 w2 c) + kb c

/-- One branch on one row: `x` plus two affine layers of the mixed context, normalised. -/
def branchRow {n0 n1 n2 E : Nat} (d e : EReal) (x : Fin E → EReal)
    (a0 : Fin n0 → EReal) (a1 : Fin n1 → EReal) (a2 : Fin n2 → EReal)
    (w0 : Fin E → Fin n0 → EReal) (w1 : Fin E → Fin n1 → EReal) (w2 : Fin E → Fin n2 → EReal) (kb : Fin E → EReal)
    (vw : Fin E → Fin E → EReal) (vb : Fin E → EReal) (ow : Fin E → Fin E → EReal) (ob : Fin E → EReal)
    (g b : Fin E → EReal) : Fin E → EReal :=
  lnRow d e (fun q => x q + affT (affT (kvRow a0 a1 a2 w0 w1 w2 kb) vw vb) ow ob q) g b

/-- THE WHOLE ARRAY: row `i 0` of the result is `branchRow` of row `i 0` of the data arrays. The context weights are the
    three lane ranges of `kvw`; the inner layer's weights and bias are the rows `off ..` of `inw` and the entries
    `off ..` of `inb`. -/
def mixed {B n0 n1 n2 E : Nat} (off : Nat) (dw ew : BitVec 32)
    (x : (⟨2, ![B, E]⟩ : Shape).Idx → EReal) (a0 : (⟨2, ![B, n0]⟩ : Shape).Idx → EReal)
    (a1 : (⟨2, ![B, n1]⟩ : Shape).Idx → EReal) (a2 : (⟨2, ![B, n2]⟩ : Shape).Idx → EReal)
    (inw : (⟨2, ![off + E, E]⟩ : Shape).Idx → EReal) (inb : (⟨1, ![off + E]⟩ : Shape).Idx → EReal)
    (outw : (⟨2, ![E, E]⟩ : Shape).Idx → EReal) (outb : (⟨1, ![E]⟩ : Shape).Idx → EReal)
    (kvw : (⟨2, ![E, n0 + n1 + n2]⟩ : Shape).Idx → EReal) (kvb lng lnb : (⟨1, ![E]⟩ : Shape).Idx → EReal) :
    (⟨2, ![B, E]⟩ : Shape).Idx → EReal :=
  fun i => branchRow (Ideal.ofBits .f32 dw) (Ideal.ofBits .f32 ew) (fun q => x (ix2 (i 0) q))
    (fun k => a0 (ix2 (i 0) k)) (fun k => a1 (ix2 (i 0) k)) (fun k => a2 (ix2 (i 0) k))
    (fun c k => kvw (ix2 c (Fin.castAdd n2 (Fin.castAdd n1 k))))
    (fun c k => kvw (ix2 c (Fin.castAdd n2 (Fin.natAdd n0 k))))
    (fun c k => kvw (ix2 c (Fin.natAdd (n0 + n1) k))) (fun c => kvb (ix1 c))
    (fun c k => inw (ix2 (Fin.natAdd off c) k)) (fun c => inb (ix1 (Fin.natAdd off c)))
    (fun c k => outw (ix2 c k)) (fun c => outb (ix1 c)) (fun c => lng (ix1 c)) (fun c => lnb (ix1 c)) (i 1)

/-- The kernel's affine layer: a product with transposed weights into the zero accumulator plus a bias row. -/
theorem kernelAffT_apply {B K N : Nat} {φ₁ : FTy} (prec : Option ContractPrecision)
    (l : FVec Ideal (⟨2, ![B, K]⟩ : Shape) φ₁) (w : FVec Ideal (⟨2, ![N, K]⟩ : Shape) .f32)
    (bias : FVec Ideal (⟨2, ![1, N]⟩ : Shape) .f32)
    (htr : (⟨2, ![N, K]⟩ : Shape).Transposes [1, 0] (⟨2, ![K, N]⟩ : Shape))
    (hsc : Shape.ShapeCasts (⟨2, ![1, N]⟩ : Shape) (⟨2, ![1, N]⟩ : Shape))
    (hb : Shape.Broadcasts (⟨2, ![1, N]⟩ : Shape) (⟨2, ![B, N]⟩ : Shape)) (p : Fin B) (c : Fin N) :
    addf (matmul (DotDims.plain B K N) prec l (transpose (⟨2, ![K, N]⟩ : Shape) [1, 0] w htr)
          (constant (F := Ideal) (⟨2, ![B, N]⟩ : Shape) .f32 0x00000000#32))
        (broadcastTo (⟨2, ![B, N]⟩ : Shape) (shapeCast (⟨2, ![1, N]⟩ : Shape) bias hsc) hb) (ix2 p c)
      = affT (fun k => l (ix2 p k)) (fun c k => w (ix2 c k)) (fun c => bias (ix2 (0 : Fin 1) c)) c := by
  show matmul (DotDims.plain B K N) prec l _ _ (ix2 p c) + broadcastTo (⟨2, ![B, N]⟩ : Shape) _ hb (ix2 p c) = _
  rw [kernelProjT_apply, kernelBias_apply]
  rfl

/-- The host's affine layer: `dot_general` with transposed weights plus a flat bias laid down the rows. -/
theorem hostAffT_apply {B K N : Nat} {φ₁ : FTy} (prec : Option ContractPrecision)
    (l : FVec Ideal (⟨2, ![B, K]⟩ : Shape) φ₁) (w : FVec Ideal (⟨2, ![N, K]⟩ : Shape) .f32)
    (bias : FVec Ideal (⟨1, ![N]⟩ : Shape) .f32)
    (htr : (⟨2, ![N, K]⟩ : Shape).Transposes [1, 0] (⟨2, ![K, N]⟩ : Shape))
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) (DotDims.plain B K N) prec l (transpose (⟨2, ![K, N]⟩ : Shape) [1, 0] w htr))
        (broadcastInDim (⟨2, ![B, N]⟩ : Shape) ![0, 1] h2 (broadcastInDim (⟨2, ![1, N]⟩ : Shape) ![1] h1 bias)) (ix2 p c)
      = affT (fun k => l (ix2 p k)) (fun c k => w (ix2 c k)) (fun c => bias (ix1 c)) c := by
  show Host.dotGeneral (F := Ideal) (DotDims.plain B K N) prec l _ (ix2 p c)
      + broadcastInDim (s := (⟨2, ![1, N]⟩ : Shape)) (⟨2, ![B, N]⟩ : Shape) ![0, 1] h2 _ (ix2 p c) = _
  rw [hostProjT_apply, hostBias_apply]
  rfl

/-- The kernel's context mix: three products with transposed weights added, plus a bias row. -/
theorem kernelKv_apply {B n0 n1 n2 E : Nat} (prec : Option ContractPrecision)
    (a0 : FVec Ideal (⟨2, ![B, n0]⟩ : Shape) .f32) (a1 : FVec Ideal (⟨2, ![B, n1]⟩ : Shape) .f32)
    (a2 : FVec Ideal (⟨2, ![B, n2]⟩ : Shape) .f32)
    (w0 : FVec Ideal (⟨2, ![E, n0]⟩ : Shape) .f32) (w1 : FVec Ideal (⟨2, ![E, n1]⟩ : Shape) .f32)
    (w2 : FVec Ideal (⟨2, ![E, n2]⟩ : Shape) .f32) (kb : FVec Ideal (⟨2, ![1, E]⟩ : Shape) .f32)
    (ht0 : (⟨2, ![E, n0]⟩ : Shape).Transposes [1, 0] (⟨2, ![n0, E]⟩ : Shape))
    (ht1 : (⟨2, ![E, n1]⟩ : Shape).Transposes [1, 0] (⟨2, ![n1, E]⟩ : Shape))
    (ht2 : (⟨2, ![E, n2]⟩ : Shape).Transposes [1, 0] (⟨2, ![n2, E]⟩ : Shape))
    (hsc : Shape.ShapeCasts (⟨2, ![1, E]⟩ : Shape) (⟨2, ![1, E]⟩ : Shape))
    (hb : Shape.Broadcasts (⟨2, ![1, E]⟩ : Shape) (⟨2, ![B, E]⟩ : Shape)) (p : Fin B) (c : Fin E) :
    addf (addf (addf
          (matmul (DotDims.plain B n0 E) prec a0 (transpose (⟨2, ![n0, E]⟩ : Shape) [1, 0] w0 ht0)
            (constant (F := Ideal) (⟨2, ![B, E]⟩ : Shape) .f32 0x00000000#32))
          (matmul (DotDims.plain B n1 E) prec a1 (transpose (⟨2, ![n1, E]⟩ : Shape) [1, 0] w1 ht1)
            (constant (F := Ideal) (⟨2, ![B, E]⟩ : Shape) .f32 0x00000000#32)))
          (matmul (DotDims.plain B n2 E) prec a2 (transpose (⟨2, ![n2, E]⟩ : Shape) [1, 0] w2 ht2)
            (constant (F := Ideal) (⟨2, ![B, E]⟩ : Shape) .f32 0x00000000#32)))
        (broadcastTo (⟨2, ![B, E]⟩ : Shape) (shapeCast (⟨2, ![1, E]⟩ : Shape) kb hsc) hb) (ix2 p c)
      = kvRow (fun k => a0 (ix2 p k)) (fun k => a1 (ix2 p k)) (fun k => a2 (ix2 p k))
          (fun c k => w0 (ix2 c k)) (fun c k => w1 (ix2 c k)) (fun c k => w2 (ix2 c k)) (fun c => kb (ix2 (0 : Fin 1) c)) c := by
  show ((matmul (DotDims.plain B n0 E) prec a0 _ _ (ix2 p c) + matmul (DotDims.plain B n1 E) prec a1 _ _ (ix2 p c))
      + matmul (DotDims.plain B n2 E) prec a2 _ _ (ix2 p c)) + broadcastTo (⟨2, ![B, E]⟩ : Shape) _ hb (ix2 p c) = _
  rw [kernelProjT_apply, kernelProjT_apply, kernelProjT_apply, kernelBias_apply]
  rfl

/-- The host's context mix: `dot_general` of the three arrays joined along the lanes with the transposed weights, plus
    a flat bias laid down the rows. The sum over the joined lanes is the three sums added. -/
theorem hostKv_apply {B n0 n1 n2 E : Nat} (prec : Option ContractPrecision)
    (a0 : FVec Ideal (⟨2, ![B, n0]⟩ : Shape) .f32) (a1 : FVec Ideal (⟨2, ![B, n1]⟩ : Shape) .f32)
    (a2 : FVec Ideal (⟨2, ![B, n2]⟩ : Shape) .f32)
    (kvw : FVec Ideal (⟨2, ![E, n0 + n1 + n2]⟩ : Shape) .f32) (kvb : FVec Ideal (⟨1, ![E]⟩ : Shape) .f32)
    (hc : Shape.Concatenates [(⟨2, ![B, n0]⟩ : Shape), (⟨2, ![B, n1]⟩ : Shape), (⟨2, ![B, n2]⟩ : Shape)]
      (⟨2, ![B, n0 + n1 + n2]⟩ : Shape) (1 : Fin 2))
    (htr : (⟨2, ![E, n0 + n1 + n2]⟩ : Shape).Transposes [1, 0] (⟨2, ![n0 + n1 + n2, E]⟩ : Shape))
    (h1 : (⟨1, ![E]⟩ : Shape).BroadcastsInDim (⟨2, ![1, E]⟩ : Shape) ![1])
    (h2 : (⟨2, ![1, E]⟩ : Shape).BroadcastsInDim (⟨2, ![B, E]⟩ : Shape) ![0, 1]) (p : Fin B) (c : Fin E) :
    addf (Host.dotGeneral (F := Ideal) (DotDims.plain B (n0 + n1 + n2) E) prec
          (concatenate (⟨2, ![B, n0 + n1 + n2]⟩ : Shape) (1 : Fin 2)
            [⟨(⟨2, ![B, n0]⟩ : Shape), a0⟩, ⟨(⟨2, ![B, n1]⟩ : Shape), a1⟩, ⟨(⟨2, ![B, n2]⟩ : Shape), a2⟩] hc)
          (transpose (⟨2, ![n0 + n1 + n2, E]⟩ : Shape) [1, 0] kvw htr))
        (broadcastInDim (⟨2, ![B, E]⟩ : Shape) ![0, 1] h2 (broadcastInDim (⟨2, ![1, E]⟩ : Shape) ![1] h1 kvb)) (ix2 p c)
      = kvRow (fun k => a0 (ix2 p k)) (fun k => a1 (ix2 p k)) (fun k => a2 (ix2 p k))
          (fun c k => kvw (ix2 c (Fin.castAdd n2 (Fin.castAdd n1 k))))
          (fun c k => kvw (ix2 c (Fin.castAdd n2 (Fin.natAdd n0 k))))
          (fun c k => kvw (ix2 c (Fin.natAdd (n0 + n1) k))) (fun c => kvb (ix1 c)) c := by
  show Host.dotGeneral (F := Ideal) (DotDims.plain B (n0 + n1 + n2) E) prec _ _ (ix2 p c)
      + broadcastInDim (s := (⟨2, ![1, E]⟩ : Shape)) (⟨2, ![B, E]⟩ : Shape) ![0, 1] h2 _ (ix2 p c) = _
  rw [hostProjT_apply, hostBias_apply, projT_join3]
  rfl

end Cert.NormRow

end
-- ==== Proof.LibBnRow.lean ====
/-
  A per-row normalisation with a per-row scale and shift, followed by a leaky threshold, read at an entry.

  Each row `y` of a `[B, n]` array is centred by its mean (its sum divided by the count `d`), multiplied by the reciprocal
  square root of its variance (the sum of the squared deviations divided by `d`) plus a small constant `e`, scaled by the
  row's own factor `g` and shifted by the row's own offset `b` — one factor and one offset per ROW, not per lane. The
  leaky threshold keeps a value above `z0` and multiplies any other by the slope `s`.

  * `bnRow d e y g b` — lane `q` is `(y q - mean) * rsqrt (var + e) * g + b`.
  * `leaky z0 s z` — `z` if `z > z0`, else `s * z`.

  A kernel spells the row statistics with the vector unit's lane sum, a cast from `[B]` to `[B, 1]` and broadcasts along
  the lanes, its scale and shift arriving as columns `[B, 1]`; a host program with its own sum (from an initial value),
  `broadcast_in_dim`, and flat scale and shift vectors `[B]` laid to columns. On the exact extended reals both spellings
  read at entry `(p, q)` are the same function of row `p`. Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«151591_j33251636806000_1_alg».proof.Proof.LibNormRow

noncomputable section

open scoped BigOperators

namespace Cert.BnRow

open Idealize.ShloMosaic Idealize.ShloMosaic.ValueIdx Cert.NormRow

/-! ## The two scalar functions -/

/-- The normalisation of a row `y` with the count `d`, the stabiliser `e`, the row's scale `g` and shift `b`. -/
def bnRow {n : Nat} (d e : EReal) (y : Fin n → EReal) (g b : EReal) : Fin n → EReal :=
  fun q => (y q - Ideal.div (∑ k : Fin n, y k) d)
      * Ideal.rsqrt (Ideal.div (∑ k : Fin n, (y k - Ideal.div (∑ j : Fin n, y j) d) * (y k - Ideal.div (∑ j : Fin n, y j) d)) d + e)
      * g + b

/-- The leaky threshold at `z0` with slope `s`. -/
def leaky (z0 s z : EReal) : EReal :=
  Scalar.select (FloatOps.cmpf (F := Ideal) (φ := .f32) .ogt z z0) z (s * z)

variable {α : Type}

/-- A scalar laid over a whole `[B, n]` array by the host's broadcast holds the scalar everywhere. -/
theorem hostScalarAll_apply {B n : Nat} (v : (⟨0, ![]⟩ : Shape).Idx → α)
    (h : (⟨0, ![]⟩ : Shape).BroadcastsInDim (⟨2, ![B, n]⟩ : Shape) ![]) (p : Fin B) (q : Fin n) :
    broadcastInDim (⟨2, ![B, n]⟩ : Shape) ![] h v (ix2 p q) = v ix0 :=
  broadcastInDim_apply _ h v (ix2 p q) ix0 (fun a => a.elim0)

/-! ## The kernel's spelling -/

/-- The kernel's centred rows. -/
abbrev kernelCentred {B n : Nat} (y : FVec Ideal (⟨2, ![B, n]⟩ : Shape) .f32) (dw : BitVec 32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) : FVec Ideal (⟨2, ![B, n]⟩ : Shape) .f32 :=
  subf y (broadcastTo (⟨2, ![B, n]⟩ : Shape) (kernelMeanCol y dw hred hφ hacc hcast) hbc)

theorem kernelCentred_apply {B n : Nat} (y : FVec Ideal (⟨2, ![B, n]⟩ : Shape) .f32) (dw : BitVec 32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (k : Fin n) :
    kernelCentred y dw hred hφ hacc hcast hbc (ix2 p k)
      = y (ix2 p k) - Ideal.div (∑ j : Fin n, y (ix2 p j)) (Ideal.ofBits .f32 dw) := by
  show y (ix2 p k) - broadcastTo (⟨2, ![B, n]⟩ : Shape) (kernelMeanCol y dw hred hφ hacc hcast) hbc (ix2 p k) = _
  rw [Cert.RowLayout.bcastCol_apply, kernelMeanCol_apply]

/-- THE KERNEL'S SPELLING of the normalisation and the threshold, read at entry `(p, q)`. -/
theorem kernelBnLeaky_apply {B n : Nat} (y : FVec Ideal (⟨2, ![B, n]⟩ : Shape) .f32)
    (g b : FVec Ideal (⟨2, ![B, 1]⟩ : Shape) .f32) (dw ew zw sw : BitVec 32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    select
      (cmpf .ogt
        (addf (mulf (mulf (kernelCentred y dw hred hφ hacc hcast hbc)
          (broadcastTo (⟨2, ![B, n]⟩ : Shape) (rsqrt (addf
            (divf (shapeCast (⟨2, ![B, 1]⟩ : Shape) (multiReduction .add [(1 : Fin 2)] (⟨1, ![B]⟩ : Shape)
                (mulf (kernelCentred y dw hred hφ hacc hcast hbc) (kernelCentred y dw hred hφ hacc hcast hbc))
                0x00000000#32 hred hφ hacc) hcast)
              (broadcast (⟨2, ![B, 1]⟩ : Shape) (Scalar.ofBits (F := Ideal) .f32 dw)))
            (broadcast (⟨2, ![B, 1]⟩ : Shape) (Scalar.ofBits (F := Ideal) .f32 ew)))) hbc))
          (broadcastTo (⟨2, ![B, n]⟩ : Shape) g hbc)) (broadcastTo (⟨2, ![B, n]⟩ : Shape) b hbc))
        (broadcast (⟨2, ![B, n]⟩ : Shape) (Scalar.ofBits (F := Ideal) .f32 zw)))
      (addf (mulf (mulf (kernelCentred y dw hred hφ hacc hcast hbc)
          (broadcastTo (⟨2, ![B, n]⟩ : Shape) (rsqrt (addf
            (divf (shapeCast (⟨2, ![B, 1]⟩ : Shape) (multiReduction .add [(1 : Fin 2)] (⟨1, ![B]⟩ : Shape)
                (mulf (kernelCentred y dw hred hφ hacc hcast hbc) (kernelCentred y dw hred hφ hacc hcast hbc))
                0x00000000#32 hred hφ hacc) hcast)
              (broadcast (⟨2, ![B, 1]⟩ : Shape) (Scalar.ofBits (F := Ideal) .f32 dw)))
            (broadcast (⟨2, ![B, 1]⟩ : Shape) (Scalar.ofBits (F := Ideal) .f32 ew)))) hbc))
          (broadcastTo (⟨2, ![B, n]⟩ : Shape) g hbc)) (broadcastTo (⟨2, ![B, n]⟩ : Shape) b hbc))
      (mulf (broadcast (⟨2, ![B, n]⟩ : Shape) (Scalar.ofBits (F := Ideal) .f32 sw))
        (addf (mulf (mulf (kernelCentred y dw hred hφ hacc hcast hbc)
          (broadcastTo (⟨2, ![B, n]⟩ : Shape) (rsqrt (addf
            (divf (shapeCast (⟨2, ![B, 1]⟩ : Shape) (multiReduction .add [(1 : Fin 2)] (⟨1, ![B]⟩ : Shape)
                (mulf (kernelCentred y dw hred hφ hacc hcast hbc) (kernelCentred y dw hred hφ hacc hcast hbc))
                0x00000000#32 hred hφ hacc) hcast)
              (broadcast (⟨2, ![B, 1]⟩ : Shape) (Scalar.ofBits (F := Ideal) .f32 dw)))
            (broadcast (⟨2, ![B, 1]⟩ : Shape) (Scalar.ofBits (F := Ideal) .f32 ew)))) hbc))
          (broadcastTo (⟨2, ![B, n]⟩ : Shape) g hbc)) (broadcastTo (⟨2, ![B, n]⟩ : Shape) b hbc)))
      (ix2 p q)
      = leaky (Ideal.ofBits .f32 zw) (Ideal.ofBits .f32 sw)
          (bnRow (Ideal.ofBits .f32 dw) (Ideal.ofBits .f32 ew) (fun k => y (ix2 p k)) (g (ix2 p (0 : Fin 1)))
            (b (ix2 p (0 : Fin 1))) q) := by
  have hZ : addf (mulf (mulf (kernelCentred y dw hred hφ hacc hcast hbc)
          (broadcastTo (⟨2, ![B, n]⟩ : Shape) (rsqrt (addf
            (divf (shapeCast (⟨2, ![B, 1]⟩ : Shape) (multiReduction .add [(1 : Fin 2)] (⟨1, ![B]⟩ : Shape)
                (mulf (kernelCentred y dw hred hφ hacc hcast hbc) (kernelCentred y dw hred hφ hacc hcast hbc))
                0x00000000#32 hred hφ hacc) hcast)
              (broadcast (⟨2, ![B, 1]⟩ : Shape) (Scalar.ofBits (F := Ideal) .f32 dw)))
            (broadcast (⟨2, ![B, 1]⟩ : Shape) (Scalar.ofBits (F := Ideal) .f32 ew)))) hbc))
          (broadcastTo (⟨2, ![B, n]⟩ : Shape) g hbc)) (broadcastTo (⟨2, ![B, n]⟩ : Shape) b hbc) (ix2 p q)
      = bnRow (Ideal.ofBits .f32 dw) (Ideal.ofBits .f32 ew) (fun k => y (ix2 p k)) (g (ix2 p (0 : Fin 1)))
            (b (ix2 p (0 : Fin 1))) q := by
    show (kernelCentred y dw hred hφ hacc hcast hbc (ix2 p q)
        * broadcastTo (⟨2, ![B, n]⟩ : Shape) _ hbc (ix2 p q))
        * broadcastTo (⟨2, ![B, n]⟩ : Shape) g hbc (ix2 p q)
        + broadcastTo (⟨2, ![B, n]⟩ : Shape) b hbc (ix2 p q) = _
    rw [kernelCentred_apply, Cert.RowLayout.bcastCol_apply, Cert.RowLayout.bcastCol_apply g hbc p q,
      Cert.RowLayout.bcastCol_apply b hbc p q]
    show _ * Ideal.rsqrt (Ideal.div (shapeCast (⟨2, ![B, 1]⟩ : Shape) _ hcast (ix2 p (0 : Fin 1))) (Ideal.ofBits .f32 dw)
        + Ideal.ofBits .f32 ew) * _ + _ = _
    rw [Cert.RowLayout.castCol_apply, Cert.RowLayout.laneSum_apply]
    unfold bnRow
    have hs : (∑ k : Fin n, mulf (kernelCentred y dw hred hφ hacc hcast hbc) (kernelCentred y dw hred hφ hacc hcast hbc) (ix2 p k))
        = ∑ k : Fin n, (y (ix2 p k) - Ideal.div (∑ j : Fin n, y (ix2 p j)) (Ideal.ofBits .f32 dw))
            * (y (ix2 p k) - Ideal.div (∑ j : Fin n, y (ix2 p j)) (Ideal.ofBits .f32 dw)) :=
      Finset.sum_congr rfl fun k _ => by
        show kernelCentred y dw hred hφ hacc hcast hbc (ix2 p k) * kernelCentred y dw hred hφ hacc hcast hbc (ix2 p k) = _
        rw [kernelCentred_apply]
    rw [hs]
  show Scalar.select (FloatOps.cmpf (F := Ideal) (φ := .f32) .ogt (_ : EReal) (Ideal.ofBits .f32 zw)) (_ : EReal)
      ((Ideal.ofBits .f32 sw : EReal) * _) = _
  rw [hZ]
  rfl

/-! ## The host's spelling -/

/-- The host's centred rows. -/
abbrev hostCentred {B n : Nat} (y : FVec Ideal (⟨2, ![B, n]⟩ : Shape) .f32) (dw : BitVec 32)
    (hR : Shape.ReducesTo (⟨2, ![B, n]⟩ : Shape) [(1 : Fin 2)] (⟨1, ![B]⟩ : Shape)) (hu : 0 < (⟨0, ![]⟩ : Shape).numel)
    (h0 : (⟨1, ![B]⟩ : Shape).BroadcastsInDim (⟨2, ![B, 1]⟩ : Shape) ![0])
    (hS : (⟨0, ![]⟩ : Shape).BroadcastsInDim (⟨2, ![B, 1]⟩ : Shape) ![])
    (hc : (⟨2, ![B, 1]⟩ : Shape).BroadcastsInDim (⟨2, ![B, n]⟩ : Shape) ![0, 1]) : FVec Ideal (⟨2, ![B, n]⟩ : Shape) .f32 :=
  subf y (broadcastInDim (⟨2, ![B, n]⟩ : Shape) ![0, 1] hc (hostMeanCol y dw hR hu h0 hS))

theorem hostCentred_apply {B n : Nat} (y : FVec Ideal (⟨2, ![B, n]⟩ : Shape) .f32) (dw : BitVec 32)
    (hR : Shape.ReducesTo (⟨2, ![B, n]⟩ : Shape) [(1 : Fin 2)] (⟨1, ![B]⟩ : Shape)) (hu : 0 < (⟨0, ![]⟩ : Shape).numel)
    (hr : Shape.Reduces (⟨2, ![B, n]⟩ : Shape) [(1 : Fin 2)] (⟨1, ![B]⟩ : Shape))
    (h0 : (⟨1, ![B]⟩ : Shape).BroadcastsInDim (⟨2, ![B, 1]⟩ : Shape) ![0])
    (hS : (⟨0, ![]⟩ : Shape).BroadcastsInDim (⟨2, ![B, 1]⟩ : Shape) ![])
    (hc : (⟨2, ![B, 1]⟩ : Shape).BroadcastsInDim (⟨2, ![B, n]⟩ : Shape) ![0, 1]) (p : Fin B) (k : Fin n) :
    hostCentred y dw hR hu h0 hS hc (ix2 p k)
      = y (ix2 p k) - Ideal.div (∑ j : Fin n, y (ix2 p j)) (Ideal.ofBits .f32 dw) := by
  show y (ix2 p k) - broadcastInDim (⟨2, ![B, n]⟩ : Shape) ![0, 1] hc (hostMeanCol y dw hR hu h0 hS) (ix2 p k) = _
  rw [Cert.HostRowOps.bcastColHost_apply, hostMeanCol_apply y dw hR hu hr h0 hS p]

/-- THE HOST'S SPELLING of the normalisation and the threshold, read at entry `(p, q)`. -/
theorem hostBnLeaky_apply {B n : Nat} (y : FVec Ideal (⟨2, ![B, n]⟩ : Shape) .f32)
    (g b : FVec Ideal (⟨1, ![B]⟩ : Shape) .f32) (dw ew zw sw : BitVec 32)
    (hR : Shape.ReducesTo (⟨2, ![B, n]⟩ : Shape) [(1 : Fin 2)] (⟨1, ![B]⟩ : Shape)) (hu : 0 < (⟨0, ![]⟩ : Shape).numel)
    (hr : Shape.Reduces (⟨2, ![B, n]⟩ : Shape) [(1 : Fin 2)] (⟨1, ![B]⟩ : Shape))
    (h0 : (⟨1, ![B]⟩ : Shape).BroadcastsInDim (⟨2, ![B, 1]⟩ : Shape) ![0])
    (hS : (⟨0, ![]⟩ : Shape).BroadcastsInDim (⟨2, ![B, 1]⟩ : Shape) ![])
    (hc : (⟨2, ![B, 1]⟩ : Shape).BroadcastsInDim (⟨2, ![B, n]⟩ : Shape) ![0, 1])
    (hA : (⟨0, ![]⟩ : Shape).BroadcastsInDim (⟨2, ![B, n]⟩ : Shape) ![]) (p : Fin B) (q : Fin n) :
    select
      (cmpf .ogt
        (addf (mulf (mulf (hostCentred y dw hR hu h0 hS hc)
          (broadcastInDim (⟨2, ![B, n]⟩ : Shape) ![0, 1] hc (Host.rsqrt (addf
            (Host.divf (broadcastInDim (⟨2, ![B, 1]⟩ : Shape) ![0] h0 (Host.reduceAdd
                (mulf (hostCentred y dw hR hu h0 hS hc) (hostCentred y dw hR hu h0 hS hc))
                (constant (F := Ideal) (⟨0, ![]⟩ : Shape) .f32 0x00000000#32) hR hu))
              (broadcastInDim (⟨2, ![B, 1]⟩ : Shape) ![] hS (constant (F := Ideal) (⟨0, ![]⟩ : Shape) .f32 dw)))
            (broadcastInDim (⟨2, ![B, 1]⟩ : Shape) ![] hS (constant (F := Ideal) (⟨0, ![]⟩ : Shape) .f32 ew))))))
          (broadcastInDim (⟨2, ![B, n]⟩ : Shape) ![0, 1] hc (broadcastInDim (⟨2, ![B, 1]⟩ : Shape) ![0] h0 g)))
          (broadcastInDim (⟨2, ![B, n]⟩ : Shape) ![0, 1] hc (broadcastInDim (⟨2, ![B, 1]⟩ : Shape) ![0] h0 b)))
        (broadcastInDim (⟨2, ![B, n]⟩ : Shape) ![] hA (constant (F := Ideal) (⟨0, ![]⟩ : Shape) .f32 zw)))
      (addf (mulf (mulf (hostCentred y dw hR hu h0 hS hc)
          (broadcastInDim (⟨2, ![B, n]⟩ : Shape) ![0, 1] hc (Host.rsqrt (addf
            (Host.divf (broadcastInDim (⟨2, ![B, 1]⟩ : Shape) ![0] h0 (Host.reduceAdd
                (mulf (hostCentred y dw hR hu h0 hS hc) (hostCentred y dw hR hu h0 hS hc))
                (constant (F := Ideal) (⟨0, ![]⟩ : Shape) .f32 0x00000000#32) hR hu))
              (broadcastInDim (⟨2, ![B, 1]⟩ : Shape) ![] hS (constant (F := Ideal) (⟨0, ![]⟩ : Shape) .f32 dw)))
            (broadcastInDim (⟨2, ![B, 1]⟩ : Shape) ![] hS (constant (F := Ideal) (⟨0, ![]⟩ : Shape) .f32 ew))))))
          (broadcastInDim (⟨2, ![B, n]⟩ : Shape) ![0, 1] hc (broadcastInDim (⟨2, ![B, 1]⟩ : Shape) ![0] h0 g)))
          (broadcastInDim (⟨2, ![B, n]⟩ : Shape) ![0, 1] hc (broadcastInDim (⟨2, ![B, 1]⟩ : Shape) ![0] h0 b)))
      (mulf (broadcastInDim (⟨2, ![B, n]⟩ : Shape) ![] hA (constant (F := Ideal) (⟨0, ![]⟩ : Shape) .f32 sw))
        (addf (mulf (mulf (hostCentred y dw hR hu h0 hS hc)
          (broadcastInDim (⟨2, ![B, n]⟩ : Shape) ![0, 1] hc (Host.rsqrt (addf
            (Host.divf (broadcastInDim (⟨2, ![B, 1]⟩ : Shape) ![0] h0 (Host.reduceAdd
                (mulf (hostCentred y dw hR hu h0 hS hc) (hostCentred y dw hR hu h0 hS hc))
                (constant (F := Ideal) (⟨0, ![]⟩ : Shape) .f32 0x00000000#32) hR hu))
              (broadcastInDim (⟨2, ![B, 1]⟩ : Shape) ![] hS (constant (F := Ideal) (⟨0, ![]⟩ : Shape) .f32 dw)))
            (broadcastInDim (⟨2, ![B, 1]⟩ : Shape) ![] hS (constant (F := Ideal) (⟨0, ![]⟩ : Shape) .f32 ew))))))
          (broadcastInDim (⟨2, ![B, n]⟩ : Shape) ![0, 1] hc (broadcastInDim (⟨2, ![B, 1]⟩ : Shape) ![0] h0 g)))
          (broadcastInDim (⟨2, ![B, n]⟩ : Shape) ![0, 1] hc (broadcastInDim (⟨2, ![B, 1]⟩ : Shape) ![0] h0 b))))
      (ix2 p q)
      = leaky (Ideal.ofBits .f32 zw) (Ideal.ofBits .f32 sw)
          (bnRow (Ideal.ofBits .f32 dw) (Ideal.ofBits .f32 ew) (fun k => y (ix2 p k)) (g (ix1 p)) (b (ix1 p)) q) := by
  have hZ : addf (mulf (mulf (hostCentred y dw hR hu h0 hS hc)
          (broadcastInDim (⟨2, ![B, n]⟩ : Shape) ![0, 1] hc (Host.rsqrt (addf
            (Host.divf (broadcastInDim (⟨2, ![B, 1]⟩ : Shape) ![0] h0 (Host.reduceAdd
                (mulf (hostCentred y dw hR hu h0 hS hc) (hostCentred y dw hR hu h0 hS hc))
                (constant (F := Ideal) (⟨0, ![]⟩ : Shape) .f32 0x00000000#32) hR hu))
              (broadcastInDim (⟨2, ![B, 1]⟩ : Shape) ![] hS (constant (F := Ideal) (⟨0, ![]⟩ : Shape) .f32 dw)))
            (broadcastInDim (⟨2, ![B, 1]⟩ : Shape) ![] hS (constant (F := Ideal) (⟨0, ![]⟩ : Shape) .f32 ew))))))
          (broadcastInDim (⟨2, ![B, n]⟩ : Shape) ![0, 1] hc (broadcastInDim (⟨2, ![B, 1]⟩ : Shape) ![0] h0 g)))
          (broadcastInDim (⟨2, ![B, n]⟩ : Shape) ![0, 1] hc (broadcastInDim (⟨2, ![B, 1]⟩ : Shape) ![0] h0 b)) (ix2 p q)
      = bnRow (Ideal.ofBits .f32 dw) (Ideal.ofBits .f32 ew) (fun k => y (ix2 p k)) (g (ix1 p)) (b (ix1 p)) q := by
    show (hostCentred y dw hR hu h0 hS hc (ix2 p q)
        * broadcastInDim (s := (⟨2, ![B, 1]⟩ : Shape)) (⟨2, ![B, n]⟩ : Shape) ![0, 1] hc _ (ix2 p q))
        * broadcastInDim (⟨2, ![B, n]⟩ : Shape) ![0, 1] hc (broadcastInDim (⟨2, ![B, 1]⟩ : Shape) ![0] h0 g) (ix2 p q)
        + broadcastInDim (⟨2, ![B, n]⟩ : Shape) ![0, 1] hc (broadcastInDim (⟨2, ![B, 1]⟩ : Shape) ![0] h0 b) (ix2 p q) = _
    rw [hostCentred_apply y dw hR hu hr h0 hS hc p q, Cert.HostRowOps.bcastColHost_apply,
      Cert.HostRowOps.bcastColHost_apply _ hc p q, Cert.HostRowOps.bcastColHost_apply _ hc p q,
      hostFlatCol_apply g h0 p, hostFlatCol_apply b h0 p]
    show _ * Ideal.rsqrt (Ideal.div (broadcastInDim (s := (⟨1, ![B]⟩ : Shape)) (⟨2, ![B, 1]⟩ : Shape) ![0] h0 _ (ix2 p (0 : Fin 1)))
          (broadcastInDim (s := (⟨0, ![]⟩ : Shape)) (⟨2, ![B, 1]⟩ : Shape) ![] hS _ (ix2 p (0 : Fin 1)))
        + broadcastInDim (s := (⟨0, ![]⟩ : Shape)) (⟨2, ![B, 1]⟩ : Shape) ![] hS _ (ix2 p (0 : Fin 1))) * _ + _ = _
    rw [hostFlatCol_apply, hostScalarCol_apply, hostScalarCol_apply, hostLaneSum_apply _ hR hu hr p]
    unfold bnRow
    have hs : (∑ k : Fin n, mulf (hostCentred y dw hR hu h0 hS hc) (hostCentred y dw hR hu h0 hS hc) (ix2 p k))
        = ∑ k : Fin n, (y (ix2 p k) - Ideal.div (∑ j : Fin n, y (ix2 p j)) (Ideal.ofBits .f32 dw))
            * (y (ix2 p k) - Ideal.div (∑ j : Fin n, y (ix2 p j)) (Ideal.ofBits .f32 dw)) :=
      Finset.sum_congr rfl fun k _ => by
        show hostCentred y dw hR hu h0 hS hc (ix2 p k) * hostCentred y dw hR hu h0 hS hc (ix2 p k) = _
        rw [hostCentred_apply y dw hR hu hr h0 hS hc p k]
    rw [hs]
    rfl
  show Scalar.select (FloatOps.cmpf (F := Ideal) (φ := .f32) .ogt (_ : EReal)
        (broadcastInDim (s := (⟨0, ![]⟩ : Shape)) (⟨2, ![B, n]⟩ : Shape) ![] hA _ (ix2 p q))) (_ : EReal)
      (broadcastInDim (s := (⟨0, ![]⟩ : Shape)) (⟨2, ![B, n]⟩ : Shape) ![] hA _ (ix2 p q) * _) = _
  rw [hZ, hostScalarAll_apply, hostScalarAll_apply]
  rfl

end Cert.BnRow

end
-- ==== Proof.BnPay.lean ====
/-
  The normalising kernel's stored value, read at an entry.

  Each grid point of the second kernel holds a block of 5000 rows (32 lanes) and the rows' scale and shift columns, and
  stores, at row p and lane q, the row's normalisation — centred by the row's mean over its 32 lanes, multiplied by the
  reciprocal square root of the row's variance plus the stabiliser, scaled and shifted by the row's own factor and
  offset — passed through the leaky threshold at zero.
-/
import proofs.«151591_j33251636806000_1_alg».proof.Proof.Gen.KernelIdeal.Skeleton
import proofs.«151591_j33251636806000_1_alg».proof.Proof.LibBnRow
import Idealize.ShloMosaic.Lib.Pipeline.Value
import Idealize.ShloMosaic.Lib.ValueIdx

noncomputable section

open scoped BigOperators

namespace Cert.KernelIdeal.Pay

open Idealize.ShloMosaic Idealize.ShloMosaic.ValueIdx Cert.KernelIdeal Cert.KernelIdeal.Gen

/-- Row `p`, lane `q` of the second kernel's stored block. -/
theorem bn_apply (x0 : Vec Ideal S5000x32 .f32) (x1 x2 : Vec Ideal S5000x1 .f32) (p : Fin 5000) (q : Fin 32) :
    k1_pay1 (F := Ideal) x0 x1 x2 (ix2 p q)
      = Cert.BnRow.leaky (Ideal.ofBits .f32 0x00000000#32) (Ideal.ofBits .f32 0x3C23D70A#32)
          (Cert.BnRow.bnRow (Ideal.ofBits .f32 0x42000000#32) (Ideal.ofBits .f32 0x3727C5AC#32) (fun k => x0 (ix2 p k))
            (x1 (ix2 p (0 : Fin 1))) (x2 (ix2 p (0 : Fin 1))) q) := by
  unfold k1_pay1
  rw [shapeCast_self, shapeCast_self, shapeCast_self]
  exact Cert.BnRow.kernelBnLeaky_apply x0 x1 x2 0x42000000#32 0x3727C5AC#32 0x00000000#32 0x3C23D70A#32
    reduces_S5000x32_S5000 (.inl rfl) rfl shapeCasts_S5000_S5000x1 broadcasts_S5000x1_S5000x32 p q

end Cert.KernelIdeal.Pay

end
-- ==== Proof.Closed1.lean ====
/-
  The second kernel's output array as one function of the arrays it reads.

  Grid point t handles rows 5000 t … 5000 t + 4999 of the feature array and of the scale and shift columns; what it writes
  back at a row is the normalisation and threshold of THAT row of the whole arrays. The twenty blocks tile the rows.
-/
import proofs.«151591_j33251636806000_1_alg».proof.Proof.FrameKI.Body1
import proofs.«151591_j33251636806000_1_alg».proof.Proof.BnPay
import Idealize.ShloMosaic.Lib.Pipeline.Value

set_option maxRecDepth 16384

noncomputable section

open scoped BigOperators

namespace Cert.KernelIdeal.Closed

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- Row `n`, lane `q`: the row's normalisation with the row's scale and shift, through the leaky threshold. -/
def G1 (Y : S100000x32.Idx → EReal) (g bt : S100000x1.Idx → EReal) : S100000x32.Idx → EReal :=
  fun i => Cert.BnRow.leaky (Ideal.ofBits .f32 0x00000000#32) (Ideal.ofBits .f32 0x3C23D70A#32)
    (Cert.BnRow.bnRow (Ideal.ofBits .f32 0x42000000#32) (Ideal.ofBits .f32 0x3727C5AC#32)
      (fun k : Fin 32 => Y (ix2 (⟨(i 0).val, (i 0).isLt⟩ : Fin 100000) k))
      (g (ix2 (⟨(i 0).val, (i 0).isLt⟩ : Fin 100000) (0 : Fin 1)))
      (bt (ix2 (⟨(i 0).val, (i 0).isLt⟩ : Fin 100000) (0 : Fin 1))) (⟨(i 1).val, (i 1).isLt⟩ : Fin 32))

/-- The stored block at an index of the block, over any loaded blocks. -/
theorem pay1_pt (x0 : Vec Ideal S5000x32 .f32) (x1 x2 : Vec Ideal S5000x1 .f32) (y : S5000x32.Idx) :
    k1_pay1 (F := Ideal) x0 x1 x2 y
      = Cert.BnRow.leaky (Ideal.ofBits .f32 0x00000000#32) (Ideal.ofBits .f32 0x3C23D70A#32)
          (Cert.BnRow.bnRow (Ideal.ofBits .f32 0x42000000#32) (Ideal.ofBits .f32 0x3727C5AC#32)
            (fun k : Fin 32 => x0 (ix2 (⟨(y 0).val, (y 0).isLt⟩ : Fin 5000) k))
            (x1 (ix2 (⟨(y 0).val, (y 0).isLt⟩ : Fin 5000) (0 : Fin 1)))
            (x2 (ix2 (⟨(y 0).val, (y 0).isLt⟩ : Fin 5000) (0 : Fin 1))) (⟨(y 1).val, (y 1).isLt⟩ : Fin 32)) := by
  obtain ⟨p, q, rfl⟩ : ∃ (p : Fin 5000) (q : Fin 32), y = ix2 p q := ⟨y 0, y 1, eq_ix2 y⟩
  exact Cert.KernelIdeal.Pay.bn_apply x0 x1 x2 p q

/-- The printed index maps over the grid: every block moves with the point along the rows. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `G1` of the arrays as the region finds them. -/
theorem flushed1_eq (c : Dev nD) (t : Fin cfg1.N) :
    (dat1 V c).flushed 3 t = ((cfg1.win 3).blk t).view.read (Elt Ideal) (G1 (V c main_v69) (V c main_v70) (V c main_v71)) := by
  show (cfg1.win 3).cut (grid1.coords t) ((dat1 V c).after 3 t) = _
  rw [after1_3]
  unfold out1_3
  rw [View.canon_unit_zero hz1]
  simp only [View.ld_unit_zero (S := S5000x32) hz1, View.ld_unit_zero (S := S5000x1) hz1]
  obtain ⟨e00, e01, e10, e11, e20, e21, e30, e31⟩ := idx_facts1 t
  funext j
  refine (pay1_pt (iblk1 V c 0 t) (iblk1 V c 1 t) (iblk1 V c 2 t) j).trans ?_
  have hj0 : (j 0).val < 5000 := (j 0).isLt
  have hj1 : (j 1).val < 32 := (j 1).isLt
  show Cert.BnRow.leaky _ _ (Cert.BnRow.bnRow _ _
        (fun k : Fin 32 => V c main_v69 (((cfg1.win 0).blk t).view.emb (ix2 (⟨(j 0).val, hj0⟩ : Fin 5000) k)))
        (V c main_v70 (((cfg1.win 1).blk t).view.emb (ix2 (⟨(j 0).val, hj0⟩ : Fin 5000) (0 : Fin 1))))
        (V c main_v71 (((cfg1.win 2).blk t).view.emb (ix2 (⟨(j 0).val, hj0⟩ : Fin 5000) (0 : Fin 1))))
        (⟨(j 1).val, hj1⟩ : Fin 32))
    = G1 (V c main_v69) (V c main_v70) (V c main_v71) (((cfg1.win 3).blk t).view.emb j)
  unfold G1
  have h0 : (fun k : Fin 32 => V c main_v69 (((cfg1.win 0).blk t).view.emb (ix2 (⟨(j 0).val, hj0⟩ : Fin 5000) k)))
      = fun k : Fin 32 => V c main_v69 (ix2 (⟨((((cfg1.win 3).blk t).view.emb j) 0).val, ((((cfg1.win 3).blk t).view.emb j) 0).isLt⟩ : Fin 100000) k) :=
    funext fun k => congrArg (V c main_v69) (by
      funext a; apply Fin.ext
      match a with
      | ⟨0, _⟩ => show win1_0.index t (0 : Fin 2) * 5000 + 1 * (j 0).val = win1_3.index t (0 : Fin 2) * 5000 + 1 * (j 0).val; omega
      | ⟨1, _⟩ => show win1_0.index t (1 : Fin 2) * 32 + 1 * k.val = k.val; omega)
  have h1 : ((cfg1.win 1).blk t).view.emb (ix2 (⟨(j 0).val, hj0⟩ : Fin 5000) (0 : Fin 1))
      = ix2 (⟨((((cfg1.win 3).blk t).view.emb j) 0).val, ((((cfg1.win 3).blk t).view.emb j) 0).isLt⟩ : Fin 100000) (0 : Fin 1) := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  have h2 : ((cfg1.win 2).blk t).view.emb (ix2 (⟨(j 0).val, hj0⟩ : Fin 5000) (0 : Fin 1))
      = ix2 (⟨((((cfg1.win 3).blk t).view.emb j) 0).val, ((((cfg1.win 3).blk t).view.emb j) 0).isLt⟩ : Fin 100000) (0 : Fin 1) := by
    funext a; apply Fin.ext
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 1 + 1 * 0 = 0; omega
  have h3 : (⟨(j 1).val, hj1⟩ : Fin 32)
      = (⟨((((cfg1.win 3).blk t).view.emb j) 1).val, ((((cfg1.win 3).blk t).view.emb j) 1).isLt⟩ : Fin 32) :=
    Fin.ext (by show (j 1).val = win1_3.index t (1 : Fin 2) * 32 + 1 * (j 1).val; omega)
  rw [h0, h1, h2, h3]

/-- An index of the array is in point `t`'s block iff each coordinate is in the block's range on its axis. -/
theorem mem_blk1 (t : Fin cfg1.N) (i : S100000x32.Idx) :
    i ∈ ((cfg1.win 3).blk t).view.set ↔ ∀ a : Fin 2, win1_3.index t a * S5000x32.size a ≤ (i a).val
      ∧ (i a).val < win1_3.index t a * S5000x32.size a + S5000x32.size a := by
  show i ∈ ((View.whole main_v72).slice (win1_3.rect t)).set ↔ _
  rw [View.set_slice_whole, Rect.mem_set_unit]
  exact Iff.rfl

/-- Every row is in the block of the point its row number over 5000 names. -/
theorem cover1 (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 20 := N_1
  refine ⟨⟨(i 0).val / 5000, by rw [hN]; omega⟩, flush1_3 _, ?_⟩
  rw [mem_blk1]
  obtain ⟨-, -, -, -, -, -, e30, e31⟩ := idx_facts1 ⟨(i 0).val / 5000, by rw [hN]; omega⟩
  intro a
  match a with
  | ⟨0, _⟩ =>
      show win1_3.index _ (0 : Fin 2) * 5000 ≤ (i 0).val ∧ (i 0).val < win1_3.index _ (0 : Fin 2) * 5000 + 5000
      rw [e30]; show (i 0).val / 5000 * 5000 ≤ (i 0).val ∧ (i 0).val < (i 0).val / 5000 * 5000 + 5000; omega
  | ⟨1, _⟩ =>
      show win1_3.index _ (1 : Fin 2) * 32 ≤ (i 1).val ∧ (i 1).val < win1_3.index _ (1 : Fin 2) * 32 + 32
      rw [e31]; omega

/-- The output array after the region: `G1` of the arrays as the region finds them. -/
theorem final1 (c : Dev nD) :
    (dat1 V c).arrAt 3 cfg1.N = G1 (V c main_v69) (V c main_v70) (V c main_v71) :=
  (dat1 V c).arrAt_eq_of_cover 3 _ (fun t _ => flushed1_eq V c t) cover1

end Cert.KernelIdeal.Closed

end
-- ==== Proof.Closed2.lean ====
/-
  The third kernel's output array as one function of the arrays it reads.

  Grid point t handles rows 5000 t … 5000 t + 4999: its block of the joined features, the whole weight matrix, the bias row,
  its block of the mask column. What it writes back is, at row r of the block and lane c, the 128-lane sum of (features of
  row 5000 t + r) times (weights' column c) plus the bias of lane c, times the mask entry of row 5000 t + r — the same
  function of the WHOLE arrays at that row. The twenty blocks tile the 100000 rows.
-/
import proofs.«151591_j33251636806000_1_alg».proof.Proof.FrameKI.Body2
import proofs.«151591_j33251636806000_1_alg».proof.Proof.CombinePay
import Idealize.ShloMosaic.Lib.Pipeline.Value

set_option maxRecDepth 16384

noncomputable section

open scoped BigOperators

namespace Cert.KernelIdeal.Closed

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Row `n`, lane `c` of the masked combine. -/
def G2 (H : S100000x128.Idx → EReal) (Wr : S128x32.Idx → EReal) (bR : S1x32.Idx → EReal) (mk : S100000x1.Idx → EReal) :
    S100000x32.Idx → EReal :=
  fun i => ((∑ k : Fin 128, H (ix2 (⟨(i 0).val, (i 0).isLt⟩ : Fin 100000) k) * Wr (ix2 k (⟨(i 1).val, (i 1).isLt⟩ : Fin 32)))
    + bR (ix2 (0 : Fin 1) (⟨(i 1).val, (i 1).isLt⟩ : Fin 32))) * mk (ix2 (⟨(i 0).val, (i 0).isLt⟩ : Fin 100000) (0 : Fin 1))

/-- The four arrays the region reads, as it finds them. -/
abbrev aH2 (c : Dev nD) : S100000x128.Idx → EReal := V c main_v112
abbrev aW2 (c : Dev nD) : S128x32.Idx → EReal := V c main_v113
abbrev aB2 (c : Dev nD) : S1x32.Idx → EReal := V c main_v114
abbrev aM2 (c : Dev nD) : S100000x1.Idx → EReal := V c main_v115

/-- The stored block at an index of the block, over any loaded blocks. -/
theorem pay2_pt (x0 : Vec Ideal S5000x128 .f32) (x1 : Vec Ideal S128x32 .f32) (x2 : Vec Ideal S1x32 .f32)
    (x3 : Vec Ideal S5000x1 .f32) (y : S5000x32.Idx) :
    k2_pay1 (F := Ideal) x0 x1 x2 x3 y
      = ((∑ k : Fin 128, x0 (ix2 (⟨(y 0).val, (y 0).isLt⟩ : Fin 5000) k) * x1 (ix2 k (⟨(y 1).val, (y 1).isLt⟩ : Fin 32)))
        + x2 (ix2 (0 : Fin 1) (⟨(y 1).val, (y 1).isLt⟩ : Fin 32))) * x3 (ix2 (⟨(y 0).val, (y 0).isLt⟩ : Fin 5000) (0 : Fin 1)) := by
  obtain ⟨p, q, rfl⟩ : ∃ (p : Fin 5000) (q : Fin 32), y = ix2 p q := ⟨y 0, y 1, eq_ix2 y⟩
  exact Cert.KernelIdeal.Pay.combineMask_apply x0 x1 x2 x3 p q

/-- The printed index maps over the grid: the feature, mask and output blocks move with the point along the rows; the
    weight and bias blocks stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What point `t` writes back is block `t` of `G2` of the arrays as the region finds them. -/
theorem flushed2_eq (c : Dev nD) (t : Fin cfg2.N) :
    (dat2 V c).flushed 4 t = ((cfg2.win 4).blk t).view.read (Elt Ideal) (G2 (aH2 V c) (aW2 V c) (aB2 V c) (aM2 V c)) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S128x32) hz2, View.ld_unit_zero (S := S1x32) hz2,
    View.ld_unit_zero (S := S5000x1) hz2]
  obtain ⟨e00, e01, e10, e11, e20, e21, e30, e31, e40, e41⟩ := idx_facts2 t
  funext j
  refine (pay2_pt (iblk2 V c 0 t) (iblk2 V c 1 t) (iblk2 V c 2 t) (iblk2 V c 3 t) j).trans ?_
  have hj0 : (j 0).val < 5000 := (j 0).isLt
  have hj1 : (j 1).val < 32 := (j 1).isLt
  show ((∑ k : Fin 128, aH2 V c (((cfg2.win 0).blk t).view.emb (ix2 (⟨(j 0).val, hj0⟩ : Fin 5000) k))
        * aW2 V c (((cfg2.win 1).blk t).view.emb (ix2 k (⟨(j 1).val, hj1⟩ : Fin 32))))
      + aB2 V c (((cfg2.win 2).blk t).view.emb (ix2 (0 : Fin 1) (⟨(j 1).val, hj1⟩ : Fin 32))))
      * aM2 V c (((cfg2.win 3).blk t).view.emb (ix2 (⟨(j 0).val, hj0⟩ : Fin 5000) (0 : Fin 1)))
    = G2 (aH2 V c) (aW2 V c) (aB2 V c) (aM2 V c) (((cfg2.win 4).blk t).view.emb j)
  unfold G2
  have h0 : ∀ k : Fin 128, ((cfg2.win 0).blk t).view.emb (ix2 (⟨(j 0).val, hj0⟩ : Fin 5000) k)
      = ix2 (⟨((((cfg2.win 4).blk t).view.emb j) 0).val, ((((cfg2.win 4).blk t).view.emb j) 0).isLt⟩ : Fin 100000) k := fun k => by
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * k.val = k.val; omega
  have h1 : ∀ k : Fin 128, ((cfg2.win 1).blk t).view.emb (ix2 k (⟨(j 1).val, hj1⟩ : Fin 32))
      = ix2 k (⟨((((cfg2.win 4).blk t).view.emb j) 1).val, ((((cfg2.win 4).blk t).view.emb j) 1).isLt⟩ : Fin 32) := fun k => by
    funext a; apply Fin.ext
    match a with
    | ⟨0, _⟩ => show win2_1.index t (0 : Fin 2) * 128 + 1 * k.val = k.val; omega
    | ⟨1, _⟩ => show win2_1.index t (1 : Fin 2) * 32 + 1 * (j 1).val = win2_4.index t (1 : Fin 2) * 32 + 1 * (j 1).val; omega
  have h2 : ((cfg2.win 2).blk t).view.emb (ix2 (0 : Fin 1) (⟨(j 1).val, hj1⟩ : Fin 32))
      = ix2 (0 : Fin 1) (⟨((((cfg2.win 4).blk t).view.emb j) 1).val, ((((cfg2.win 4).blk t).view.emb j) 1).isLt⟩ : Fin 32) := by
    funext a; apply Fin.ext
    match a with
    | ⟨0, _⟩ => show win2_2.index t (0 : Fin 2) * 1 + 1 * 0 = 0; omega
    | ⟨1, _⟩ => show win2_2.index t (1 : Fin 2) * 32 + 1 * (j 1).val = win2_4.index t (1 : Fin 2) * 32 + 1 * (j 1).val; omega
  have h3 : ((cfg2.win 3).blk t).view.emb (ix2 (⟨(j 0).val, hj0⟩ : Fin 5000) (0 : Fin 1))
      = ix2 (⟨((((cfg2.win 4).blk t).view.emb j) 0).val, ((((cfg2.win 4).blk t).view.emb j) 0).isLt⟩ : Fin 100000) (0 : Fin 1) := by
    funext a; apply Fin.ext
    match a with
    | ⟨0, _⟩ => show win2_3.index t (0 : Fin 2) * 5000 + 1 * (j 0).val = win2_4.index t (0 : Fin 2) * 5000 + 1 * (j 0).val; omega
    | ⟨1, _⟩ => show win2_3.index t (1 : Fin 2) * 1 + 1 * 0 = 0; omega
  rw [h2, h3]
  refine congrArg (fun s => (s + _) * _) (Finset.sum_congr rfl fun k _ => ?_)
  rw [h0 k, h1 k]

/-- An index of the array is in point `t`'s block iff each coordinate is in the block's range on its axis. -/
theorem mem_blk2 (t : Fin cfg2.N) (i : S100000x32.Idx) :
    i ∈ ((cfg2.win 4).blk t).view.set ↔ ∀ a : Fin 2, win2_4.index t a * S5000x32.size a ≤ (i a).val
      ∧ (i a).val < win2_4.index t a * S5000x32.size a + S5000x32.size a := by
  show i ∈ ((View.whole main_v116).slice (win2_4.rect t)).set ↔ _
  rw [View.set_slice_whole, Rect.mem_set_unit]
  exact Iff.rfl

/-- Every row is in the block of the point its row number over 5000 names. -/
theorem cover2 (i : S100000x32.Idx) :
    ∃ t : Fin cfg2.N, (cfg2.win 4).flush t = true ∧ i ∈ ((cfg2.win 4).blk t).view.set := by
  have hi0 : (i 0).val < 100000 := (i 0).isLt
  have hi1 : (i 1).val < 32 := (i 1).isLt
  have hN : cfg2.N = 20 := N_2
  refine ⟨⟨(i 0).val / 5000, by rw [hN]; omega⟩, flush2_4 _, ?_⟩
  rw [mem_blk2]
  obtain ⟨-, -, -, -, -, -, -, -, e40, e41⟩ := idx_facts2 ⟨(i 0).val / 5000, by rw [hN]; omega⟩
  intro a
  match a with
  | ⟨0, _⟩ =>
      show win2_4.index _ (0 : Fin 2) * 5000 ≤ (i 0).val ∧ (i 0).val < win2_4.index _ (0 : Fin 2) * 5000 + 5000
      rw [e40]; show (i 0).val / 5000 * 5000 ≤ (i 0).val ∧ (i 0).val < (i 0).val / 5000 * 5000 + 5000; omega
  | ⟨1, _⟩ =>
      show win2_4.index _ (1 : Fin 2) * 32 ≤ (i 1).val ∧ (i 1).val < win2_4.index _ (1 : Fin 2) * 32 + 32
      rw [e41]; omega

/-- The output array after the region: `G2` of the arrays as the region finds them. -/
theorem final2 (c : Dev nD) :
    (dat2 V c).arrAt 4 cfg2.N = G2 (aH2 V c) (aW2 V c) (aB2 V c) (aM2 V c) :=
  (dat2 V c).arrAt_eq_of_cover 4 _ (fun t _ => flushed2_eq V c t) cover2

end Cert.KernelIdeal.Closed

end
-- ==== Proof.LibBlockSum.lean ====
/-
  Finite sums cut into consecutive blocks, and a sum over a padded range whose padding is zero.

  A sum over `Fin (nb * bs)` is the sum, over the `nb` blocks, of the sums over each block's `bs` consecutive
  indices: block `b` holds the indices `b * bs + i`, `i < bs`. This is the re-indexing of `Fin (nb * bs)` by
  quotient and remainder, so it holds in every commutative additive monoid; no finiteness of the summands is asked
  for, which is what lets it be used on the extended reals. The instance for 8192 = 4 · 2048 is written as the left
  fold from zero that an accumulator performs — start at zero, add the block sums one after another — both as one closed
  expression and as a recurrence. Last, a sum over `Fin (a + p)` whose final `p` summands vanish is the sum over
  `Fin a`.
-/
import Mathlib.Algebra.BigOperators.Fin
import Mathlib.Logic.Equiv.Fin.Basic
import Mathlib.Data.EReal.Basic

open scoped BigOperators

namespace Cert.LibBlockSum

/-- Index `i` of block `b` lies below the total length. -/
theorem blk_lt {nb bs : ℕ} (b : Fin nb) (i : Fin bs) : b.val * bs + i.val < nb * bs :=
  calc b.val * bs + i.val < b.val * bs + bs := Nat.add_lt_add_left i.isLt _
    _ = (b.val + 1) * bs := (Nat.succ_mul _ _).symm
    _ ≤ nb * bs := Nat.mul_le_mul_right _ b.isLt

/-- A sum over `nb * bs` consecutive indices is the sum over the `nb` blocks of the sums over each block. -/
theorem sum_blocks {M : Type*} [AddCommMonoid M] (nb bs : ℕ) (f : Fin (nb * bs) → M) :
    ∑ k : Fin (nb * bs), f k = ∑ b : Fin nb, ∑ i : Fin bs, f ⟨b.val * bs + i.val, blk_lt b i⟩ := by
  rw [← Equiv.sum_comp finProdFinEquiv f, Fintype.sum_prod_type]
  refine Finset.sum_congr rfl fun b _ => Finset.sum_congr rfl fun i _ => ?_
  congr 1
  apply Fin.ext
  show i.val + bs * b.val = b.val * bs + i.val
  rw [Nat.add_comm, Nat.mul_comm]

/-- 8192 summands as four blocks of 2048, added to zero one block after another, left to right. -/
theorem sum_8192_as_4x2048 (f : Fin 8192 → EReal) :
    ∑ k : Fin 8192, f k
      = ((((0 + ∑ i : Fin 2048, f ⟨0 * 2048 + i.val, by omega⟩)
            + ∑ i : Fin 2048, f ⟨1 * 2048 + i.val, by omega⟩)
            + ∑ i : Fin 2048, f ⟨2 * 2048 + i.val, by omega⟩)
            + ∑ i : Fin 2048, f ⟨3 * 2048 + i.val, by omega⟩) := by
  have h := sum_blocks 4 2048 f
  rw [Fin.sum_univ_four] at h
  rw [zero_add]
  exact h

/-- The same as a recurrence: an accumulator that starts at zero and at step `n` (of four) adds the sum over block `n`
    ends at the whole sum. -/
theorem acc_8192_as_4x2048 (f : Fin 8192 → EReal) (acc : ℕ → EReal) (h0 : acc 0 = 0)
    (hs : ∀ (n : ℕ) (hn : n < 4), acc (n + 1) = acc n + ∑ i : Fin 2048, f ⟨n * 2048 + i.val, by omega⟩) :
    acc 4 = ∑ k : Fin 8192, f k := by
  have e1 : acc 1 = acc 0 + _ := hs 0 (by omega)
  have e2 : acc 2 = acc 1 + _ := hs 1 (by omega)
  have e3 : acc 3 = acc 2 + _ := hs 2 (by omega)
  have e4 : acc 4 = acc 3 + _ := hs 3 (by omega)
  rw [e4, e3, e2, e1, h0, sum_8192_as_4x2048 f]

/-- The same with the four block sums given as a function on `Fin 4`. -/
theorem fold_8192_as_4x2048 (f : Fin 8192 → EReal) (g : Fin 4 → EReal)
    (hg : ∀ b : Fin 4, g b = ∑ i : Fin 2048, f ⟨b.val * 2048 + i.val, by omega⟩) :
    (((0 + g 0) + g 1) + g 2) + g 3 = ∑ k : Fin 8192, f k := by
  rw [hg 0, hg 1, hg 2, hg 3, sum_8192_as_4x2048 f]
  rfl

/-- A sum whose last `p` summands are zero is the sum of the first `a`. -/
theorem sum_pad_general {M : Type*} [AddCommMonoid M] (a p : ℕ) (f : Fin (a + p) → M)
    (h : ∀ j : Fin (a + p), a ≤ j.val → f j = 0) :
    ∑ j : Fin (a + p), f j = ∑ j : Fin a, f ⟨j.val, Nat.lt_add_right p j.isLt⟩ := by
  rw [Fin.sum_univ_add, Fintype.sum_eq_zero (fun j : Fin p => f (Fin.natAdd a j)) (fun j => h _ (Nat.le_add_right a j.val)),
    add_zero]
  rfl

/-- 384 summands of which those from 345 on are zero. -/
theorem sum_pad (f : Fin 384 → EReal) (h : ∀ j : Fin 384, 345 ≤ j.val → f j = 0) :
    ∑ j : Fin 384, f j = ∑ j : Fin 345, f ⟨j.val, by omega⟩ :=
  sum_pad_general 345 39 f h

end Cert.LibBlockSum
-- ==== Proof.LibHopJoin.lean ====
/-
  Four feature blocks joined along the lanes against a stacked weight array.

  A layer that combines a node's own features with three propagated copies of them keeps four weight matrices
  `W 0 … W 3`, each `32 x 32`, stacked as one `[4, 32, 32]` array. One program joins the four `[B, 32]` feature arrays along
  the lanes into `[B, 128]`, views the weight stack as one `128 x 32` matrix and takes ONE product; another slices the stack
  into its four matrices, takes FOUR products and adds them left to right. Lane `32 b + i` of the joined array is lane `i`
  of block `b`, row `32 b + i` of the viewed matrix is row `i` of `W b`; so the one sum over 128 lanes is the four sums
  over 32 lanes added in order. Only the associativity and commutativity of the sum are used: the equality holds on
  all extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«151591_j33251636806000_1_alg».proof.Proof.LibHostRowOps
import proofs.«151591_j33251636806000_1_alg».proof.Proof.LibRowBias
import proofs.«151591_j33251636806000_1_alg».proof.Proof.LibDenseRow
import proofs.«151591_j33251636806000_1_alg».proof.Proof.LibBlockSum

noncomputable section

open scoped BigOperators

namespace Cert.HopJoin

open Idealize.ShloMosaic Idealize.ShloMosaic.ValueIdx

variable {α : Type}

/-! ## The join read at a lane -/

section Join

variable {B : Nat} (x0 x1 x2 x3 : (⟨2, ![B, 32]⟩ : Shape).Idx → α)
  (h : Shape.Concatenates [(⟨2, ![B, 32]⟩ : Shape), (⟨2, ![B, 32]⟩ : Shape), (⟨2, ![B, 32]⟩ : Shape), (⟨2, ![B, 32]⟩ : Shape)]
    (⟨2, ![B, 128]⟩ : Shape) (1 : Fin 2))

/-- The four blocks as the list a join takes. -/
abbrev pieces : List ((s : Shape) × (s.Idx → α)) :=
  [⟨(⟨2, ![B, 32]⟩ : Shape), x0⟩, ⟨(⟨2, ![B, 32]⟩ : Shape), x1⟩, ⟨(⟨2, ![B, 32]⟩ : Shape), x2⟩, ⟨(⟨2, ![B, 32]⟩ : Shape), x3⟩]

/-- Lanes 0 … 31 of the join are the first block. -/
theorem join4_0 (p : Fin B) (j : Fin 128) (i : Fin 32) (hj : j.val = i.val) :
    concatenate (⟨2, ![B, 128]⟩ : Shape) (1 : Fin 2) [⟨(⟨2, ![B, 32]⟩ : Shape), x0⟩, ⟨(⟨2, ![B, 32]⟩ : Shape), x1⟩,
      ⟨(⟨2, ![B, 32]⟩ : Shape), x2⟩, ⟨(⟨2, ![B, 32]⟩ : Shape), x3⟩] h (ix2 p j) = x0 (ix2 p i) :=
  concatenate_apply_piece (t := (⟨2, ![B, 128]⟩ : Shape)) (1 : Fin 2) (pieces x0 x1 x2 x3)
    (show Shape.Concatenates ((pieces x0 x1 x2 x3).map (·.1)) (⟨2, ![B, 128]⟩ : Shape) (1 : Fin 2) from h) (ix2 p j) 0 (show 0 < 4 by decide) (⟨2, ![B, 32]⟩ : Shape) x0 rfl rfl 0 rfl (ix2 p i)
    (fun a ha => match a, ha with
      | ⟨0, _⟩, _ => rfl
      | ⟨1, _⟩, hne => absurd (Fin.ext rfl) hne)
    (by show 0 + i.val = j.val; omega)

/-- Lanes 32 … 63 are the second block. -/
theorem join4_1 (p : Fin B) (j : Fin 128) (i : Fin 32) (hj : j.val = 32 + i.val) :
    concatenate (⟨2, ![B, 128]⟩ : Shape) (1 : Fin 2) [⟨(⟨2, ![B, 32]⟩ : Shape), x0⟩, ⟨(⟨2, ![B, 32]⟩ : Shape), x1⟩,
      ⟨(⟨2, ![B, 32]⟩ : Shape), x2⟩, ⟨(⟨2, ![B, 32]⟩ : Shape), x3⟩] h (ix2 p j) = x1 (ix2 p i) :=
  concatenate_apply_piece (t := (⟨2, ![B, 128]⟩ : Shape)) (1 : Fin 2) (pieces x0 x1 x2 x3)
    (show Shape.Concatenates ((pieces x0 x1 x2 x3).map (·.1)) (⟨2, ![B, 128]⟩ : Shape) (1 : Fin 2) from h) (ix2 p j) 1 (show 1 < 4 by decide) (⟨2, ![B, 32]⟩ : Shape) x1 rfl rfl 32 rfl (ix2 p i)
    (fun a ha => match a, ha with
      | ⟨0, _⟩, _ => rfl
      | ⟨1, _⟩, hne => absurd (Fin.ext rfl) hne)
    (by show 32 + i.val = j.val; omega)

/-- Lanes 64 … 95 are the third block. -/
theorem join4_2 (p : Fin B) (j : Fin 128) (i : Fin 32) (hj : j.val = 64 + i.val) :
    concatenate (⟨2, ![B, 128]⟩ : Shape) (1 : Fin 2) [⟨(⟨2, ![B, 32]⟩ : Shape), x0⟩, ⟨(⟨2, ![B, 32]⟩ : Shape), x1⟩,
      ⟨(⟨2, ![B, 32]⟩ : Shape), x2⟩, ⟨(⟨2, ![B, 32]⟩ : Shape), x3⟩] h (ix2 p j) = x2 (ix2 p i) :=
  concatenate_apply_piece (t := (⟨2, ![B, 128]⟩ : Shape)) (1 : Fin 2) (pieces x0 x1 x2 x3)
    (show Shape.Concatenates ((pieces x0 x1 x2 x3).map (·.1)) (⟨2, ![B, 128]⟩ : Shape) (1 : Fin 2) from h) (ix2 p j) 2 (show 2 < 4 by decide) (⟨2, ![B, 32]⟩ : Shape) x2 rfl rfl 64 rfl (ix2 p i)
    (fun a ha => match a, ha with
      | ⟨0, _⟩, _ => rfl
      | ⟨1, _⟩, hne => absurd (Fin.ext rfl) hne)
    (by show 64 + i.val = j.val; omega)

/-- Lanes 96 … 127 are the fourth block. -/
theorem join4_3 (p : Fin B) (j : Fin 128) (i : Fin 32) (hj : j.val = 96 + i.val) :
    concatenate (⟨2, ![B, 128]⟩ : Shape) (1 : Fin 2) [⟨(⟨2, ![B, 32]⟩ : Shape), x0⟩, ⟨(⟨2, ![B, 32]⟩ : Shape), x1⟩,
      ⟨(⟨2, ![B, 32]⟩ : Shape), x2⟩, ⟨(⟨2, ![B, 32]⟩ : Shape), x3⟩] h (ix2 p j) = x3 (ix2 p i) :=
  concatenate_apply_piece (t := (⟨2, ![B, 128]⟩ : Shape)) (1 : Fin 2) (pieces x0 x1 x2 x3)
    (show Shape.Concatenates ((pieces x0 x1 x2 x3).map (·.1)) (⟨2, ![B, 128]⟩ : Shape) (1 : Fin 2) from h) (ix2 p j) 3 (show 3 < 4 by decide) (⟨2, ![B, 32]⟩ : Shape) x3 rfl rfl 96 rfl (ix2 p i)
    (fun a ha => match a, ha with
      | ⟨0, _⟩, _ => rfl
      | ⟨1, _⟩, hne => absurd (Fin.ext rfl) hne)
    (by show 96 + i.val = j.val; omega)

end Join

/-! ## The weight stack viewed as one matrix, and sliced -/

/-- Row `32 b + i` of the stack viewed as `128 x 32` is row `i` of matrix `b`. -/
theorem stackRow_apply (W : (⟨3, ![4, 32, 32]⟩ : Shape).Idx → α)
    (h : Shape.ShapeCasts (⟨3, ![4, 32, 32]⟩ : Shape) (⟨2, ![128, 32]⟩ : Shape)) (j : Fin 128) (b : Fin 4) (i c : Fin 32)
    (hj : j.val = b.val * 32 + i.val) :
    shapeCast (⟨2, ![128, 32]⟩ : Shape) W h (ix2 j c) = W (ix3 b i c) :=
  shapeCast_apply W h (ix2 j c) (ix3 b i c) (by
    rw [Shape.rowMajor_val_three, Shape.rowMajor_val_two]
    show (b.val * 32 + i.val) * 32 + c.val = j.val * 32 + c.val
    rw [hj])

/-- Matrix `b` sliced out of the stack and viewed as `32 x 32`, at entry `(k, c)`. -/
theorem stackSlice_apply (W : (⟨3, ![4, 32, 32]⟩ : Shape).Idx → α) (off : Fin 3 → Nat)
    (hs : Shape.Slices (⟨3, ![4, 32, 32]⟩ : Shape) off (⟨3, ![1, 32, 32]⟩ : Shape))
    (hc : Shape.ShapeCasts (⟨3, ![1, 32, 32]⟩ : Shape) (⟨2, ![32, 32]⟩ : Shape)) (b : Fin 4)
    (h0 : off 0 = b.val) (h1 : off 1 = 0) (h2 : off 2 = 0) (k c : Fin 32) :
    shapeCast (⟨2, ![32, 32]⟩ : Shape) (extractStridedSlice (⟨3, ![1, 32, 32]⟩ : Shape) off W hs) hc (ix2 k c) = W (ix3 b k c) :=
  (shapeCast_apply _ hc (ix2 k c) (ix3 (0 : Fin 1) k c) (by
    rw [Shape.rowMajor_val_three, Shape.rowMajor_val_two]
    show (0 * 32 + k.val) * 32 + c.val = k.val * 32 + c.val
    omega)).trans
  (extractStridedSlice_apply off W hs (ix3 (0 : Fin 1) k c) (ix3 b k c) (fun a => match a with
    | ⟨0, _⟩ => by show b.val = off 0 + 0; omega
    | ⟨1, _⟩ => by show k.val = off 1 + k.val; omega
    | ⟨2, _⟩ => by show c.val = off 2 + c.val; omega))

/-! ## The one product is the four products -/

/-- The combined row: the four blocks against their matrices, added left to right, plus the bias. -/
def tagRow (x0 x1 x2 x3 : Fin 32 → EReal) (W : Fin 4 → Fin 32 → Fin 32 → EReal) (b : Fin 32 → EReal) : Fin 32 → EReal :=
  fun c => ((((∑ k : Fin 32, x0 k * W 0 k c) + ∑ k : Fin 32, x1 k * W 1 k c) + ∑ k : Fin 32, x2 k * W 2 k c)
    + ∑ k : Fin 32, x3 k * W 3 k c) + b c

/-- THE JOINED SPELLING: one sum over the 128 joined lanes against the stack viewed as `128 x 32`, plus the bias cast to a
    row, is `tagRow` of the row's four blocks. -/
theorem joined_apply {B : Nat} (x0 x1 x2 x3 : FVec Ideal (⟨2, ![B, 32]⟩ : Shape) .f32)
    (W : FVec Ideal (⟨3, ![4, 32, 32]⟩ : Shape) .f32) (b : FVec Ideal (⟨1, ![32]⟩ : Shape) .f32)
    (h : Shape.Concatenates [(⟨2, ![B, 32]⟩ : Shape), (⟨2, ![B, 32]⟩ : Shape), (⟨2, ![B, 32]⟩ : Shape), (⟨2, ![B, 32]⟩ : Shape)]
      (⟨2, ![B, 128]⟩ : Shape) (1 : Fin 2))
    (hW : Shape.ShapeCasts (⟨3, ![4, 32, 32]⟩ : Shape) (⟨2, ![128, 32]⟩ : Shape))
    (hb : Shape.ShapeCasts (⟨1, ![32]⟩ : Shape) (⟨2, ![1, 32]⟩ : Shape)) (p : Fin B) (c : Fin 32) :
    (∑ k : Fin 128,
        concatenate (⟨2, ![B, 128]⟩ : Shape) (1 : Fin 2) [⟨(⟨2, ![B, 32]⟩ : Shape), x0⟩, ⟨(⟨2, ![B, 32]⟩ : Shape), x1⟩,
          ⟨(⟨2, ![B, 32]⟩ : Shape), x2⟩, ⟨(⟨2, ![B, 32]⟩ : Shape), x3⟩] h (ix2 p k)
          * shapeCast (⟨2, ![128, 32]⟩ : Shape) W hW (ix2 k c))
        + shapeCast (⟨2, ![1, 32]⟩ : Shape) b hb (ix2 (0 : Fin 1) c)
      = tagRow (fun k => x0 (ix2 p k)) (fun k => x1 (ix2 p k)) (fun k => x2 (ix2 p k)) (fun k => x3 (ix2 p k))
          (fun a k c => W (ix3 a k c)) (fun c => b (ix1 c)) c := by
  rw [Cert.RowBias.castRow_apply b hb c]
  unfold tagRow
  refine congrArg (· + b (ix1 c)) ?_
  refine (Cert.LibBlockSum.sum_blocks 4 32 (fun k : Fin (4 * 32) =>
      concatenate (⟨2, ![B, 128]⟩ : Shape) (1 : Fin 2) [⟨(⟨2, ![B, 32]⟩ : Shape), x0⟩, ⟨(⟨2, ![B, 32]⟩ : Shape), x1⟩,
          ⟨(⟨2, ![B, 32]⟩ : Shape), x2⟩, ⟨(⟨2, ![B, 32]⟩ : Shape), x3⟩] h (ix2 p k)
        * shapeCast (⟨2, ![128, 32]⟩ : Shape) W hW (ix2 k c))).trans ?_
  rw [Fin.sum_univ_four]
  refine congrArg₂ (· + ·) (congrArg₂ (· + ·) (congrArg₂ (· + ·) ?_ ?_) ?_) ?_
  · refine Finset.sum_congr rfl fun i _ => ?_
    rw [join4_0 x0 x1 x2 x3 h p _ i (by show (0 : Fin 4).val * 32 + i.val = i.val; simp),
      stackRow_apply W hW _ 0 i c rfl]
  · refine Finset.sum_congr rfl fun i _ => ?_
    rw [join4_1 x0 x1 x2 x3 h p _ i (by show (1 : Fin 4).val * 32 + i.val = 32 + i.val; simp),
      stackRow_apply W hW _ 1 i c rfl]
  · refine Finset.sum_congr rfl fun i _ => ?_
    rw [join4_2 x0 x1 x2 x3 h p _ i (by show (2 : Fin 4).val * 32 + i.val = 64 + i.val; simp),
      stackRow_apply W hW _ 2 i c rfl]
  · refine Finset.sum_congr rfl fun i _ => ?_
    rw [join4_3 x0 x1 x2 x3 h p _ i (by show (3 : Fin 4).val * 32 + i.val = 96 + i.val; simp),
      stackRow_apply W hW _ 3 i c rfl]

/-- THE SLICED SPELLING: the host's four contractions against the four sliced matrices, added left to right, plus the flat
    bias laid as a row and down the rows, is `tagRow` of the same blocks. -/
theorem sliced_apply {B : Nat} (D : DotDims (⟨2, ![B, 32]⟩ : Shape) (⟨2, ![32, 32]⟩ : Shape) (⟨2, ![B, 32]⟩ : Shape))
    (hr : D.contr.rank = 1) (hs : D.contr.size ⟨0, by omega⟩ = 32)
    (hl0 : ∀ (j : (⟨2, ![B, 32]⟩ : Shape).Idx) (q : D.contr.Idx), (D.lhsIdx j q 0).val = (j 0).val)
    (hl1 : ∀ (j : (⟨2, ![B, 32]⟩ : Shape).Idx) (q : D.contr.Idx), (D.lhsIdx j q 1).val = (q ⟨0, by omega⟩).val)
    (hr0 : ∀ (j : (⟨2, ![B, 32]⟩ : Shape).Idx) (q : D.contr.Idx), (D.rhsIdx j q 0).val = (q ⟨0, by omega⟩).val)
    (hr1 : ∀ (j : (⟨2, ![B, 32]⟩ : Shape).Idx) (q : D.contr.Idx), (D.rhsIdx j q 1).val = (j 1).val)
    (prec : Option ContractPrecision)
    (x0 x1 x2 x3 : FVec Ideal (⟨2, ![B, 32]⟩ : Shape) .f32)
    (W : FVec Ideal (⟨3, ![4, 32, 32]⟩ : Shape) .f32) (b : FVec Ideal (⟨1, ![32]⟩ : Shape) .f32)
    (s0 : Shape.Slices (⟨3, ![4, 32, 32]⟩ : Shape) ![0, 0, 0] (⟨3, ![1, 32, 32]⟩ : Shape))
    (s1 : Shape.Slices (⟨3, ![4, 32, 32]⟩ : Shape) ![1, 0, 0] (⟨3, ![1, 32, 32]⟩ : Shape))
    (s2 : Shape.Slices (⟨3, ![4, 32, 32]⟩ : Shape) ![2, 0, 0] (⟨3, ![1, 32, 32]⟩ : Shape))
    (s3 : Shape.Slices (⟨3, ![4, 32, 32]⟩ : Shape) ![3, 0, 0] (⟨3, ![1, 32, 32]⟩ : Shape))
    (hc : Shape.ShapeCasts (⟨3, ![1, 32, 32]⟩ : Shape) (⟨2, ![32, 32]⟩ : Shape))
    (h1 : (⟨1, ![32]⟩ : Shape).BroadcastsInDim (⟨2, ![1, 32]⟩ : Shape) ![1])
    (h2 : (⟨2, ![1, 32]⟩ : Shape).BroadcastsInDim (⟨2, ![B, 32]⟩ : Shape) ![0, 1]) (p : Fin B) (c : Fin 32) :
    addf (addf (addf (addf
        (Host.dotGeneral (F := Ideal) D prec x0
          (shapeCast (⟨2, ![32, 32]⟩ : Shape) (extractStridedSlice (⟨3, ![1, 32, 32]⟩ : Shape) ![0, 0, 0] W s0) hc))
        (Host.dotGeneral (F := Ideal) D prec x1
          (shapeCast (⟨2, ![32, 32]⟩ : Shape) (extractStridedSlice (⟨3, ![1, 32, 32]⟩ : Shape) ![1, 0, 0] W s1) hc)))
        (Host.dotGeneral (F := Ideal) D prec x2
          (shapeCast (⟨2, ![32, 32]⟩ : Shape) (extractStridedSlice (⟨3, ![1, 32, 32]⟩ : Shape) ![2, 0, 0] W s2) hc)))
        (Host.dotGeneral (F := Ideal) D prec x3
          (shapeCast (⟨2, ![32, 32]⟩ : Shape) (extractStridedSlice (⟨3, ![1, 32, 32]⟩ : Shape) ![3, 0, 0] W s3) hc)))
        (broadcastInDim (⟨2, ![B, 32]⟩ : Shape) ![0, 1] h2 (broadcastInDim (⟨2, ![1, 32]⟩ : Shape) ![1] h1 b)) (ix2 p c)
      = tagRow (fun k => x0 (ix2 p k)) (fun k => x1 (ix2 p k)) (fun k => x2 (ix2 p k)) (fun k => x3 (ix2 p k))
          (fun a k c => W (ix3 a k c)) (fun c => b (ix1 c)) c := by
  show (((Host.dotGeneral (F := Ideal) D prec x0 _ (ix2 p c) + Host.dotGeneral (F := Ideal) D prec x1 _ (ix2 p c))
      + Host.dotGeneral (F := Ideal) D prec x2 _ (ix2 p c)) + Host.dotGeneral (F := Ideal) D prec x3 _ (ix2 p c))
      + broadcastInDim (⟨2, ![B, 32]⟩ : Shape) ![0, 1] h2 (broadcastInDim (⟨2, ![1, 32]⟩ : Shape) ![1] h1 b) (ix2 p c) = _
  rw [Cert.HostRowOps.hostDot_apply D hr hs hl0 hl1 hr0 hr1 prec x0 _ p c,
    Cert.HostRowOps.hostDot_apply D hr hs hl0 hl1 hr0 hr1 prec x1 _ p c,
    Cert.HostRowOps.hostDot_apply D hr hs hl0 hl1 hr0 hr1 prec x2 _ p c,
    Cert.HostRowOps.hostDot_apply D hr hs hl0 hl1 hr0 hr1 prec x3 _ p c,
    Cert.DenseRow.hostRowDown_apply _ h2 p c, Cert.DenseRow.hostFlatRow_apply b h1 c]
  unfold tagRow
  refine congrArg (· + b (ix1 c)) ?_
  refine congrArg₂ (· + ·) (congrArg₂ (· + ·) (congrArg₂ (· + ·) ?_ ?_) ?_) ?_
  · exact Finset.sum_congr rfl fun k _ => by rw [stackSlice_apply W _ s0 hc 0 rfl rfl rfl k c]
  · exact Finset.sum_congr rfl fun k _ => by rw [stackSlice_apply W _ s1 hc 1 rfl rfl rfl k c]
  · exact Finset.sum_congr rfl fun k _ => by rw [stackSlice_apply W _ s2 hc 2 rfl rfl rfl k c]
  · exact Finset.sum_congr rfl fun k _ => by rw [stackSlice_apply W _ s3 hc 3 rfl rfl rfl k c]

end Cert.HopJoin

end
-- ==== Proof.RefForms.lean ====
/-
  The reference program's stages, read at an entry.

  The reference propagates features along the weighted edges by ONE operation chain (gather the sources' rows, scale each
  edge's row by the edge's normalised weight, add the rows into their targets); it applies that step three times per
  layer, each time to the previous result. A layer's output at node n, lane c is the combined row (`HopJoin.tagRow`) of the
  node's own features and its three propagated features against the four weight matrices, plus the bias; between the
  layers each row is normalised and passed through the leaky threshold (`BnRow`); at the end each row is multiplied by the
  node's mask entry.
-/
import proofs.«151591_j33251636806000_1_alg».proof.Proof.RefReadP
import proofs.«151591_j33251636806000_1_alg».proof.Proof.LibHopJoin
import proofs.«151591_j33251636806000_1_alg».proof.Proof.LibBnRow

noncomputable section

open scoped BigOperators

namespace Cert.ReferenceIdeal.Forms

open Cert.ReferenceIdeal Cert.ReferenceIdeal.Gen Cert.ReferenceIdeal.ReadP
open Idealize.ShloMosaic Idealize.ShloMosaic.ValueIdx

abbrev Feat := (⟨S100000x32, .f32⟩ : BufTy).Contents (Elt Ideal)
abbrev Edges := (⟨S2x1600000, .i32⟩ : BufTy).Contents (Elt Ideal)
abbrev EdgeW := (⟨S1600000, .f32⟩ : BufTy).Contents (Elt Ideal)
abbrev Stack := (⟨S4x32x32, .f32⟩ : BufTy).Contents (Elt Ideal)
abbrev Lanes := (⟨S32, .f32⟩ : BufTy).Contents (Elt Ideal)
abbrev Nodes := (⟨S100000, .f32⟩ : BufTy).Contents (Elt Ideal)

/-- One propagation step along the edges `x1` with the edge weights `x2`, applied to the features `h`. -/
def hop (x1 : Edges) (x2 : EdgeW) (h : Feat) : Feat := val_main_v42 (F := Ideal) h x1 x2

variable (x0 : Feat) (x1 : Edges) (x2 : EdgeW) (x3 : Nodes) (x4 : Stack) (x5 : Lanes) (x6 : Stack) (x7 : Lanes) (x8 x9 : Nodes)

/-! ## The later steps are the first step applied again -/

theorem hop2_eq : val_main_v59 (F := Ideal) x0 x1 x2 = hop x1 x2 (hop x1 x2 x0) := rfl
theorem hop3_eq : val_main_v76 (F := Ideal) x0 x1 x2 = hop x1 x2 (hop x1 x2 (hop x1 x2 x0)) := rfl

/-- The first layer's output after the normalisation and the threshold. -/
abbrev mid : Feat := val_main_v112 (F := Ideal) x0 x1 x2 x4 x5 x8 x9

theorem hop4_eq : val_main_v128 (F := Ideal) x0 x1 x2 x4 x5 x8 x9 = hop x1 x2 (mid x0 x1 x2 x4 x5 x8 x9) := rfl
theorem hop5_eq : val_main_v145 (F := Ideal) x0 x1 x2 x4 x5 x8 x9 = hop x1 x2 (hop x1 x2 (mid x0 x1 x2 x4 x5 x8 x9)) := rfl
theorem hop6_eq : val_main_v162 (F := Ideal) x0 x1 x2 x4 x5 x8 x9
    = hop x1 x2 (hop x1 x2 (hop x1 x2 (mid x0 x1 x2 x4 x5 x8 x9))) := rfl

/-! ## The stages at an entry -/

/-- The first layer before the normalisation, at node `n`, lane `c`. -/
theorem layer1_apply (n : Fin 100000) (c : Fin 32) :
    val_main_v83 (F := Ideal) x0 x1 x2 x4 x5 (ix2 n c)
      = Cert.HopJoin.tagRow (fun k => x0 (ix2 n k)) (fun k => hop x1 x2 x0 (ix2 n k))
          (fun k => hop x1 x2 (hop x1 x2 x0) (ix2 n k)) (fun k => hop x1 x2 (hop x1 x2 (hop x1 x2 x0)) (ix2 n k))
          (fun a k c => x4 (ix3 a k c)) (fun c => x5 (ix1 c)) c :=
  Cert.HopJoin.sliced_apply dot_S100000x32_S32x32_S100000x32_1_0_0_1_n_n rfl rfl lhs_main_v29_0 lhs_main_v29_1
    rhs_main_v29_0 rhs_main_v29_1 none x0 (hop x1 x2 x0) (hop x1 x2 (hop x1 x2 x0)) (hop x1 x2 (hop x1 x2 (hop x1 x2 x0))) x4 x5
    slices_S4x32x32_S1x32x32_0_0_0 slices_S4x32x32_S1x32x32_1_0_0 slices_S4x32x32_S1x32x32_2_0_0 slices_S4x32x32_S1x32x32_3_0_0
    shapeCasts_S1x32x32_S32x32 bcast_S32_S1x32_1 bcast_S1x32_S100000x32_0_1 n c

/-- The first layer's output: the normalisation and the threshold of row `n` of the stage before. -/
theorem mid_apply (n : Fin 100000) (q : Fin 32) :
    mid x0 x1 x2 x4 x5 x8 x9 (ix2 n q)
      = Cert.BnRow.leaky (Ideal.ofBits .f32 0x00000000#32) (Ideal.ofBits .f32 0x3C23D70A#32)
          (Cert.BnRow.bnRow (Ideal.ofBits .f32 0x42000000#32) (Ideal.ofBits .f32 0x3727C5AC#32)
            (fun k => val_main_v83 (F := Ideal) x0 x1 x2 x4 x5 (ix2 n k)) (x8 (ix1 n)) (x9 (ix1 n)) q) :=
  Cert.BnRow.hostBnLeaky_apply (val_main_v83 (F := Ideal) x0 x1 x2 x4 x5) x8 x9 0x42000000#32 0x3727C5AC#32 0x00000000#32
    0x3C23D70A#32 reducesTo_S100000x32_S100000_d1 h_S_ (by decide) bcast_S100000_S100000x1_0 bcast_S_S100000x1
    bcast_S100000x1_S100000x32_0_1 bcast_S_S100000x32 n q

/-- The second layer before the mask, at node `n`, lane `c`. -/
theorem layer2_apply (n : Fin 100000) (c : Fin 32) :
    val_main_v169 (F := Ideal) x0 x1 x2 x4 x5 x6 x7 x8 x9 (ix2 n c)
      = Cert.HopJoin.tagRow (fun k => mid x0 x1 x2 x4 x5 x8 x9 (ix2 n k))
          (fun k => hop x1 x2 (mid x0 x1 x2 x4 x5 x8 x9) (ix2 n k))
          (fun k => hop x1 x2 (hop x1 x2 (mid x0 x1 x2 x4 x5 x8 x9)) (ix2 n k))
          (fun k => hop x1 x2 (hop x1 x2 (hop x1 x2 (mid x0 x1 x2 x4 x5 x8 x9))) (ix2 n k))
          (fun a k c => x6 (ix3 a k c)) (fun c => x7 (ix1 c)) c :=
  Cert.HopJoin.sliced_apply dot_S100000x32_S32x32_S100000x32_1_0_0_1_n_n rfl rfl lhs_main_v29_0 lhs_main_v29_1
    rhs_main_v29_0 rhs_main_v29_1 none (mid x0 x1 x2 x4 x5 x8 x9) (hop x1 x2 (mid x0 x1 x2 x4 x5 x8 x9))
    (hop x1 x2 (hop x1 x2 (mid x0 x1 x2 x4 x5 x8 x9))) (hop x1 x2 (hop x1 x2 (hop x1 x2 (mid x0 x1 x2 x4 x5 x8 x9)))) x6 x7
    slices_S4x32x32_S1x32x32_0_0_0 slices_S4x32x32_S1x32x32_1_0_0 slices_S4x32x32_S1x32x32_2_0_0 slices_S4x32x32_S1x32x32_3_0_0
    shapeCasts_S1x32x32_S32x32 bcast_S32_S1x32_1 bcast_S1x32_S100000x32_0_1 n c

/-- The result: the second layer's row times the node's mask entry. -/
theorem result_apply (n : Fin 100000) (c : Fin 32) :
    val_main_v172 (F := Ideal) x0 x1 x2 x3 x4 x5 x6 x7 x8 x9 (ix2 n c)
      = val_main_v169 (F := Ideal) x0 x1 x2 x4 x5 x6 x7 x8 x9 (ix2 n c) * x3 (ix1 n) := by
  show val_main_v169 (F := Ideal) x0 x1 x2 x4 x5 x6 x7 x8 x9 (ix2 n c)
      * broadcastInDim S100000x32 ![0, 1] bcast_S100000x1_S100000x32_0_1
          (broadcastInDim S100000x1 ![0] bcast_S100000_S100000x1_0 x3) (ix2 n c) = _
  rw [Cert.HostRowOps.bcastColHost_apply _ bcast_S100000x1_S100000x32_0_1 n c,
    Cert.NormRow.hostFlatCol_apply x3 bcast_S100000_S100000x1_0 n]

end Cert.ReferenceIdeal.Forms

end
-- ==== Proof.HostVals.lean ====
import proofs.«151591_j33251636806000_1_alg».proof.Proof.FrameKI.Fold
import proofs.«151591_j33251636806000_1_alg».proof.Proof.RefForms
import Idealize.ShloMosaic.Lib.StableHlo.Run

set_option maxRecDepth 16384

noncomputable section

namespace Cert.KernelIdeal.HostVals

open Cert.KernelIdeal Cert.KernelIdeal.Gen Cert.KernelIdeal.Hand
open Idealize.ShloMosaic Idealize.ShloMosaic.TcCoe Idealize.SL.Sem Idealize.ShloMosaic.StableHlo
open Cert.ReferenceIdeal (Forms.Feat Forms.Edges Forms.EdgeW Forms.Nodes Forms.Stack Forms.Lanes)

variable (m : (ℓ : Loc nD τ sig) → Buf (Elt Ideal) ℓ) (ρ : Dev nD → PrngReg) (c : Dev nD)

/-- The argument arrays, typed as the reference program types them. -/
abbrev a0 : Forms.Feat := m ((c : Thread nD τ).loc main_arg0)
abbrev a1 : Forms.Edges := m ((c : Thread nD τ).loc main_arg1)
abbrev a2 : Forms.EdgeW := m ((c : Thread nD τ).loc main_arg2)
abbrev a3 : Forms.Nodes := m ((c : Thread nD τ).loc main_arg3)
abbrev a4 : Forms.Stack := m ((c : Thread nD τ).loc main_arg4)
abbrev a5 : Forms.Lanes := m ((c : Thread nD τ).loc main_arg5)
abbrev a6 : Forms.Stack := m ((c : Thread nD τ).loc main_arg6)
abbrev a7 : Forms.Lanes := m ((c : Thread nD τ).loc main_arg7)
abbrev a8 : Forms.Nodes := m ((c : Thread nD τ).loc main_arg8)
abbrev a9 : Forms.Nodes := m ((c : Thread nD τ).loc main_arg9)
/-- One propagation step along this run's edges with this run's edge weights. -/
abbrev hopK (h : Forms.Feat) : Forms.Feat := Cert.ReferenceIdeal.Forms.hop (a1 m c) (a2 m c) h

open Cert.ReferenceIdeal.ReadP
open Cert.ReferenceIdeal.Forms (hop)

/-- A stretch of host operations leaves a buffer none of them writes as it was. -/
local macro "keeps" : tactic => `(tactic| (
  refine StableHlo.after_of_forall_not_mem _ _ (List.forall_iff_forall_mem.mp ?_)
  simp only [main_part0_ops0, main_part0_ops1, main_part0_ops2, main_part1_ops0, main_part1_ops1, main_part1_ops2, main_part2_ops0,
    List.Forall, StableHlo.nullary_writes, StableHlo.unary_writes, StableHlo.binary_writes, StableHlo.ternary_writes,
    StableHlo.quaternary_writes, StableHlo.reshape_writes, StableHlo.nary_writes, Finset.mem_singleton]
  repeat' apply And.intro
  all_goals exact StableHlo.devRef_ne_of_ne (by decide)))

/-! ## The stretches over any contents they start from

Each is the composition of its operations: the same operations, in the same order, as the reference program's. -/

/-- The called function's three operations: the guarded reciprocal square root. -/
theorem p0o1_v10 (W : Valuation τ sig (Elt Ideal)) : (StableHlo.after main_part0_ops1 W (Proc.devRef .tc main_v10) : S100000.Idx → EReal)
    = select (W (Proc.devRef .tc main_v8) : S100000.Idx → BitVec 1) (W (Proc.devRef .tc main_v9) : S100000.Idx → EReal)
        (broadcastInDim S100000 ![] bcast_S_S100000 (id (W (Proc.devRef .tc main_cst_1) : S_.Idx → EReal))) := by
  after_results
  rfl

set_option maxHeartbeats 4000000 in
/-- The normalised edge weights, from the sources, the targets, the guarded reciprocal square root and the edge weights. -/
theorem mid_v26 (W : Valuation τ sig (Elt Ideal)) (x1 : Forms.Edges) (x2 : Forms.EdgeW)
    (h1 : (W (Proc.devRef .tc main_v1) : S1600000.Idx → BitVec 32) = val_main_v1 (F := Ideal) x1)
    (h3 : (W (Proc.devRef .tc main_v3) : S1600000.Idx → BitVec 32) = val_main_v3 (F := Ideal) x1)
    (h10 : (W (Proc.devRef .tc main_v10) : S100000.Idx → EReal) = val_main_v10 (F := Ideal) x1 x2)
    (h2 : (W (Proc.devRef .tc main_arg2) : S1600000.Idx → EReal) = x2) :
    (StableHlo.after main_part0_ops2 W (Proc.devRef .tc main_v26) : S1600000.Idx → EReal) = val_main_v26 (F := Ideal) x1 x2 := by
  after_results_simp
  rw [h1, h3, h10, h2]
  rfl

/-- A stretch run in two parts. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, after_cons, ih]

/-- The joined features before region 0: the four operands side by side, each as the stretch leaves it. -/
theorem p1o0_v66 (V : Valuation τ sig (Elt Ideal)) :
    (StableHlo.after main_part1_ops0 V (Proc.devRef .tc main_v66) : S100000x128.Idx → EReal)
      = concatenate S100000x128 1 [⟨S100000x32, (StableHlo.after main_part1_ops0 V (Proc.devRef .tc main_arg0) : S100000x32.Idx → EReal)⟩,
          ⟨S100000x32, (StableHlo.after main_part1_ops0 V (Proc.devRef .tc main_v39) : S100000x32.Idx → EReal)⟩,
          ⟨S100000x32, (StableHlo.after main_part1_ops0 V (Proc.devRef .tc main_v52) : S100000x32.Idx → EReal)⟩,
          ⟨S100000x32, (StableHlo.after main_part1_ops0 V (Proc.devRef .tc main_v65) : S100000x32.Idx → EReal)⟩]
          concatenates_S100000x32_S100000x32_S100000x32_S100000x32_S100000x128_d1 := by
  have hs : StableHlo.after main_part1_ops0 V
      = StableHlo.after (List.drop 22 main_part1_ops0) (StableHlo.after (List.take 22 main_part1_ops0) V) := by
    rw [← after_append, List.take_append_drop]
  rw [hs]
  generalize StableHlo.after (List.take 22 main_part1_ops0) V = G
  simp only [main_part1_ops0, List.drop_succ_cons, List.drop_zero]
  after_results
  rfl

/-- The joined features before region 2, likewise. -/
theorem p2o0_v112 (V : Valuation τ sig (Elt Ideal)) :
    (StableHlo.after main_part2_ops0 V (Proc.devRef .tc main_v112) : S100000x128.Idx → EReal)
      = concatenate S100000x128 1 [⟨S100000x32, (StableHlo.after main_part2_ops0 V (Proc.devRef .tc main_v72) : S100000x32.Idx → EReal)⟩,
          ⟨S100000x32, (StableHlo.after main_part2_ops0 V (Proc.devRef .tc main_v85) : S100000x32.Idx → EReal)⟩,
          ⟨S100000x32, (StableHlo.after main_part2_ops0 V (Proc.devRef .tc main_v98) : S100000x32.Idx → EReal)⟩,
          ⟨S100000x32, (StableHlo.after main_part2_ops0 V (Proc.devRef .tc main_v111) : S100000x32.Idx → EReal)⟩]
          concatenates_S100000x32_S100000x32_S100000x32_S100000x32_S100000x128_d1 := by
  have hs : StableHlo.after main_part2_ops0 V
      = StableHlo.after (List.drop 17 main_part2_ops0) (StableHlo.after (List.take 17 main_part2_ops0) V) := by
    rw [← after_append, List.take_append_drop]
  rw [hs]
  generalize StableHlo.after (List.take 17 main_part2_ops0) V = G
  simp only [main_part2_ops0, List.drop_succ_cons, List.drop_zero]
  after_results
  rfl

/-! ### The first layer's stretch, from the contents after the called function -/

theorem head_arg0 (W : Valuation τ sig (Elt Ideal)) (x0 : Forms.Feat) (x1 : Forms.Edges) (x2 : Forms.EdgeW)
    (h0 : (W (Proc.devRef .tc main_arg0) : S100000x32.Idx → EReal) = x0)
    (h1 : (W (Proc.devRef .tc main_v1) : S1600000.Idx → BitVec 32) = val_main_v1 (F := Ideal) x1)
    (h3 : (W (Proc.devRef .tc main_v3) : S1600000.Idx → BitVec 32) = val_main_v3 (F := Ideal) x1)
    (h10 : (W (Proc.devRef .tc main_v10) : S100000.Idx → EReal) = val_main_v10 (F := Ideal) x1 x2)
    (h2 : (W (Proc.devRef .tc main_arg2) : S1600000.Idx → EReal) = x2) :
    (StableHlo.after main_part1_ops0 (StableHlo.after main_part0_ops2 W) (Proc.devRef .tc main_arg0) : S100000x32.Idx → EReal) = x0 :=
  calc StableHlo.after main_part1_ops0 (StableHlo.after main_part0_ops2 W) (Proc.devRef .tc main_arg0)
    _ = StableHlo.after main_part0_ops2 W (Proc.devRef .tc main_arg0) := by keeps
    _ = W (Proc.devRef .tc main_arg0) := by keeps
    _ = x0 := h0
set_option maxHeartbeats 8000000 in
/-- Propagation step 1. -/
theorem head_v39 (W : Valuation τ sig (Elt Ideal)) (x0 : Forms.Feat) (x1 : Forms.Edges) (x2 : Forms.EdgeW)
    (h0 : (W (Proc.devRef .tc main_arg0) : S100000x32.Idx → EReal) = x0)
    (h1 : (W (Proc.devRef .tc main_v1) : S1600000.Idx → BitVec 32) = val_main_v1 (F := Ideal) x1)
    (h3 : (W (Proc.devRef .tc main_v3) : S1600000.Idx → BitVec 32) = val_main_v3 (F := Ideal) x1)
    (h10 : (W (Proc.devRef .tc main_v10) : S100000.Idx → EReal) = val_main_v10 (F := Ideal) x1 x2)
    (h2 : (W (Proc.devRef .tc main_arg2) : S1600000.Idx → EReal) = x2) :
    (StableHlo.after main_part1_ops0 (StableHlo.after main_part0_ops2 W) (Proc.devRef .tc main_v39) : S100000x32.Idx → EReal)
      = hop x1 x2 x0 := by
  after_results_simp
  rw [h0, h1, h3, h10, h2]
  rfl
set_option maxHeartbeats 8000000 in
/-- Propagation step 2. -/
theorem head_v52 (W : Valuation τ sig (Elt Ideal)) (x0 : Forms.Feat) (x1 : Forms.Edges) (x2 : Forms.EdgeW)
    (h0 : (W (Proc.devRef .tc main_arg0) : S100000x32.Idx → EReal) = x0)
    (h1 : (W (Proc.devRef .tc main_v1) : S1600000.Idx → BitVec 32) = val_main_v1 (F := Ideal) x1)
    (h3 : (W (Proc.devRef .tc main_v3) : S1600000.Idx → BitVec 32) = val_main_v3 (F := Ideal) x1)
    (h10 : (W (Proc.devRef .tc main_v10) : S100000.Idx → EReal) = val_main_v10 (F := Ideal) x1 x2)
    (h2 : (W (Proc.devRef .tc main_arg2) : S1600000.Idx → EReal) = x2) :
    (StableHlo.after main_part1_ops0 (StableHlo.after main_part0_ops2 W) (Proc.devRef .tc main_v52) : S100000x32.Idx → EReal)
      = hop x1 x2 (hop x1 x2 x0) := by
  after_results_simp
  rw [h0, h1, h3, h10, h2]
  rfl
set_option maxHeartbeats 8000000 in
/-- Propagation step 3. -/
theorem head_v65 (W : Valuation τ sig (Elt Ideal)) (x0 : Forms.Feat) (x1 : Forms.Edges) (x2 : Forms.EdgeW)
    (h0 : (W (Proc.devRef .tc main_arg0) : S100000x32.Idx → EReal) = x0)
    (h1 : (W (Proc.devRef .tc main_v1) : S1600000.Idx → BitVec 32) = val_main_v1 (F := Ideal) x1)
    (h3 : (W (Proc.devRef .tc main_v3) : S1600000.Idx → BitVec 32) = val_main_v3 (F := Ideal) x1)
    (h10 : (W (Proc.devRef .tc main_v10) : S100000.Idx → EReal) = val_main_v10 (F := Ideal) x1 x2)
    (h2 : (W (Proc.devRef .tc main_arg2) : S1600000.Idx → EReal) = x2) :
    (StableHlo.after main_part1_ops0 (StableHlo.after main_part0_ops2 W) (Proc.devRef .tc main_v65) : S100000x32.Idx → EReal)
      = hop x1 x2 (hop x1 x2 (hop x1 x2 x0)) := by
  after_results_simp
  rw [h0, h1, h3, h10, h2]
  rfl

/-- The first layer's joined features: the node features and their three propagation steps. -/
theorem head_v66 (W : Valuation τ sig (Elt Ideal)) (x0 : Forms.Feat) (x1 : Forms.Edges) (x2 : Forms.EdgeW)
    (h0 : (W (Proc.devRef .tc main_arg0) : S100000x32.Idx → EReal) = x0)
    (h1 : (W (Proc.devRef .tc main_v1) : S1600000.Idx → BitVec 32) = val_main_v1 (F := Ideal) x1)
    (h3 : (W (Proc.devRef .tc main_v3) : S1600000.Idx → BitVec 32) = val_main_v3 (F := Ideal) x1)
    (h10 : (W (Proc.devRef .tc main_v10) : S100000.Idx → EReal) = val_main_v10 (F := Ideal) x1 x2)
    (h2 : (W (Proc.devRef .tc main_arg2) : S1600000.Idx → EReal) = x2) :
    (StableHlo.after main_part1_ops0 (StableHlo.after main_part0_ops2 W) (Proc.devRef .tc main_v66) : S100000x128.Idx → EReal)
      = concatenate S100000x128 1 [⟨S100000x32, x0⟩, ⟨S100000x32, hop x1 x2 x0⟩, ⟨S100000x32, hop x1 x2 (hop x1 x2 x0)⟩,
          ⟨S100000x32, hop x1 x2 (hop x1 x2 (hop x1 x2 x0))⟩] concatenates_S100000x32_S100000x32_S100000x32_S100000x32_S100000x128_d1 := by
  rw [p1o0_v66, head_arg0 W x0 x1 x2 h0 h1 h3 h10 h2, head_v39 W x0 x1 x2 h0 h1 h3 h10 h2, head_v52 W x0 x1 x2 h0 h1 h3 h10 h2,
    head_v65 W x0 x1 x2 h0 h1 h3 h10 h2]

/-! ### The second layer's stretch, from region 1's exit contents -/

theorem tail_v72 (W : Valuation τ sig (Elt Ideal)) (o : Forms.Feat) (x1 : Forms.Edges) (x2 : Forms.EdgeW)
    (h72 : (W (Proc.devRef .tc main_v72) : S100000x32.Idx → EReal) = o)
    (h1 : (W (Proc.devRef .tc main_v1) : S1600000.Idx → BitVec 32) = val_main_v1 (F := Ideal) x1)
    (h3 : (W (Proc.devRef .tc main_v3) : S1600000.Idx → BitVec 32) = val_main_v3 (F := Ideal) x1)
    (h26 : (W (Proc.devRef .tc main_v26) : S1600000.Idx → EReal) = val_main_v26 (F := Ideal) x1 x2) :
    (StableHlo.after main_part2_ops0 (StableHlo.after main_part1_ops2 W) (Proc.devRef .tc main_v72) : S100000x32.Idx → EReal) = o :=
  calc StableHlo.after main_part2_ops0 (StableHlo.after main_part1_ops2 W) (Proc.devRef .tc main_v72)
    _ = StableHlo.after main_part1_ops2 W (Proc.devRef .tc main_v72) := by keeps
    _ = W (Proc.devRef .tc main_v72) := by keeps
    _ = o := h72
set_option maxHeartbeats 8000000 in
/-- Propagation step 1. -/
theorem tail_v85 (W : Valuation τ sig (Elt Ideal)) (o : Forms.Feat) (x1 : Forms.Edges) (x2 : Forms.EdgeW)
    (h72 : (W (Proc.devRef .tc main_v72) : S100000x32.Idx → EReal) = o)
    (h1 : (W (Proc.devRef .tc main_v1) : S1600000.Idx → BitVec 32) = val_main_v1 (F := Ideal) x1)
    (h3 : (W (Proc.devRef .tc main_v3) : S1600000.Idx → BitVec 32) = val_main_v3 (F := Ideal) x1)
    (h26 : (W (Proc.devRef .tc main_v26) : S1600000.Idx → EReal) = val_main_v26 (F := Ideal) x1 x2) :
    (StableHlo.after main_part2_ops0 (StableHlo.after main_part1_ops2 W) (Proc.devRef .tc main_v85) : S100000x32.Idx → EReal)
      = hop x1 x2 o := by
  after_results_simp
  rw [h72, h1, h3, h26]
  rfl
set_option maxHeartbeats 8000000 in
/-- Propagation step 2. -/
theorem tail_v98 (W : Valuation τ sig (Elt Ideal)) (o : Forms.Feat) (x1 : Forms.Edges) (x2 : Forms.EdgeW)
    (h72 : (W (Proc.devRef .tc main_v72) : S100000x32.Idx → EReal) = o)
    (h1 : (W (Proc.devRef .tc main_v1) : S1600000.Idx → BitVec 32) = val_main_v1 (F := Ideal) x1)
    (h3 : (W (Proc.devRef .tc main_v3) : S1600000.Idx → BitVec 32) = val_main_v3 (F := Ideal) x1)
    (h26 : (W (Proc.devRef .tc main_v26) : S1600000.Idx → EReal) = val_main_v26 (F := Ideal) x1 x2) :
    (StableHlo.after main_part2_ops0 (StableHlo.after main_part1_ops2 W) (Proc.devRef .tc main_v98) : S100000x32.Idx → EReal)
      = hop x1 x2 (hop x1 x2 o) := by
  after_results_simp
  rw [h72, h1, h3, h26]
  rfl
set_option maxHeartbeats 8000000 in
/-- Propagation step 3. -/
theorem tail_v111 (W : Valuation τ sig (Elt Ideal)) (o : Forms.Feat) (x1 : Forms.Edges) (x2 : Forms.EdgeW)
    (h72 : (W (Proc.devRef .tc main_v72) : S100000x32.Idx → EReal) = o)
    (h1 : (W (Proc.devRef .tc main_v1) : S1600000.Idx → BitVec 32) = val_main_v1 (F := Ideal) x1)
    (h3 : (W (Proc.devRef .tc main_v3) : S1600000.Idx → BitVec 32) = val_main_v3 (F := Ideal) x1)
    (h26 : (W (Proc.devRef .tc main_v26) : S1600000.Idx → EReal) = val_main_v26 (F := Ideal) x1 x2) :
    (StableHlo.after main_part2_ops0 (StableHlo.after main_part1_ops2 W) (Proc.devRef .tc main_v111) : S100000x32.Idx → EReal)
      = hop x1 x2 (hop x1 x2 (hop x1 x2 o)) := by
  after_results_simp
  rw [h72, h1, h3, h26]
  rfl

/-- The second layer's joined features. -/
theorem tail_v112 (W : Valuation τ sig (Elt Ideal)) (o : Forms.Feat) (x1 : Forms.Edges) (x2 : Forms.EdgeW)
    (h72 : (W (Proc.devRef .tc main_v72) : S100000x32.Idx → EReal) = o)
    (h1 : (W (Proc.devRef .tc main_v1) : S1600000.Idx → BitVec 32) = val_main_v1 (F := Ideal) x1)
    (h3 : (W (Proc.devRef .tc main_v3) : S1600000.Idx → BitVec 32) = val_main_v3 (F := Ideal) x1)
    (h26 : (W (Proc.devRef .tc main_v26) : S1600000.Idx → EReal) = val_main_v26 (F := Ideal) x1 x2) :
    (StableHlo.after main_part2_ops0 (StableHlo.after main_part1_ops2 W) (Proc.devRef .tc main_v112) : S100000x128.Idx → EReal)
      = concatenate S100000x128 1 [⟨S100000x32, o⟩, ⟨S100000x32, hop x1 x2 o⟩, ⟨S100000x32, hop x1 x2 (hop x1 x2 o)⟩,
          ⟨S100000x32, hop x1 x2 (hop x1 x2 (hop x1 x2 o))⟩] concatenates_S100000x32_S100000x32_S100000x32_S100000x32_S100000x128_d1 := by
  rw [p2o0_v112, tail_v72 W o x1 x2 h72 h1 h3 h26, tail_v85 W o x1 x2 h72 h1 h3 h26, tail_v98 W o x1 x2 h72 h1 h3 h26,
    tail_v111 W o x1 x2 h72 h1 h3 h26]

/-! ## The launch stretch: the edges' two rows and the degree's guard -/

theorem W1_v1 : (W1 m ρ c (Proc.devRef .tc main_v1) : S1600000.Idx → BitVec 32) = val_main_v1 (F := Ideal) (a1 m c) := by
  show StableHlo.after main_part0_ops0 (W0 m ρ c) (Proc.devRef .tc main_v1) = _
  after_results; rfl
theorem W1_v3 : (W1 m ρ c (Proc.devRef .tc main_v3) : S1600000.Idx → BitVec 32) = val_main_v3 (F := Ideal) (a1 m c) := by
  show StableHlo.after main_part0_ops0 (W0 m ρ c) (Proc.devRef .tc main_v3) = _
  after_results; rfl
theorem W1_v8 : (W1 m ρ c (Proc.devRef .tc main_v8) : S100000.Idx → BitVec 1) = val_main_v8 (F := Ideal) (a1 m c) (a2 m c) := by
  show StableHlo.after main_part0_ops0 (W0 m ρ c) (Proc.devRef .tc main_v8) = _
  after_results; rfl
theorem W1_v9 : (W1 m ρ c (Proc.devRef .tc main_v9) : S100000.Idx → EReal) = val_main_v9 (F := Ideal) (a1 m c) (a2 m c) := by
  show StableHlo.after main_part0_ops0 (W0 m ρ c) (Proc.devRef .tc main_v9) = _
  after_results; rfl
theorem W1_cst_1 : (W1 m ρ c (Proc.devRef .tc main_cst_1) : S_.Idx → EReal) = val_main_cst_1 (F := Ideal) := by
  show StableHlo.after main_part0_ops0 (W0 m ρ c) (Proc.devRef .tc main_cst_1) = _
  after_results; rfl

/-! ## After the called function -/

theorem W2_v10 : (W2 m ρ c (Proc.devRef .tc main_v10) : S100000.Idx → EReal) = val_main_v10 (F := Ideal) (a1 m c) (a2 m c) := by
  refine (p0o1_v10 (W1 m ρ c)).trans ?_
  rw [W1_v8 m ρ c, W1_v9 m ρ c, W1_cst_1 m ρ c]
  rfl
theorem W2_v1 : (W2 m ρ c (Proc.devRef .tc main_v1) : S1600000.Idx → BitVec 32) = val_main_v1 (F := Ideal) (a1 m c) :=
  (show W2 m ρ c (Proc.devRef .tc main_v1) = W1 m ρ c (Proc.devRef .tc main_v1) by keeps).trans (W1_v1 m ρ c)
theorem W2_v3 : (W2 m ρ c (Proc.devRef .tc main_v3) : S1600000.Idx → BitVec 32) = val_main_v3 (F := Ideal) (a1 m c) :=
  (show W2 m ρ c (Proc.devRef .tc main_v3) = W1 m ρ c (Proc.devRef .tc main_v3) by keeps).trans (W1_v3 m ρ c)
theorem W2_arg0 : (W2 m ρ c (Proc.devRef .tc main_arg0) : S100000x32.Idx → EReal) = a0 m c :=
  calc W2 m ρ c (Proc.devRef .tc main_arg0)
    _ = W1 m ρ c (Proc.devRef .tc main_arg0) := by keeps
    _ = W0 m ρ c (Proc.devRef .tc main_arg0) := by keeps
    _ = a0 m c := rfl
theorem W2_arg2 : (W2 m ρ c (Proc.devRef .tc main_arg2) : S1600000.Idx → EReal) = a2 m c :=
  calc W2 m ρ c (Proc.devRef .tc main_arg2)
    _ = W1 m ρ c (Proc.devRef .tc main_arg2) := by keeps
    _ = W0 m ρ c (Proc.devRef .tc main_arg2) := by keeps
    _ = a2 m c := rfl

/-! ## Region 0's entry -/

theorem v66_eq : (V4 m ρ c main_v66 : S100000x128.Idx → EReal)
    = concatenate S100000x128 1 [⟨S100000x32, a0 m c⟩, ⟨S100000x32, hopK m c (a0 m c)⟩, ⟨S100000x32, hopK m c (hopK m c (a0 m c))⟩,
        ⟨S100000x32, hopK m c (hopK m c (hopK m c (a0 m c)))⟩] concatenates_S100000x32_S100000x32_S100000x32_S100000x32_S100000x128_d1 :=
  head_v66 (W2 m ρ c) (a0 m c) (a1 m c) (a2 m c) (W2_arg0 m ρ c) (W2_v1 m ρ c) (W2_v3 m ρ c) (W2_v10 m ρ c) (W2_arg2 m ρ c)

theorem v67_eq : (V4 m ρ c main_v67 : S128x32.Idx → EReal) = shapeCast S128x32 (a4 m c) shapeCasts_S4x32x32_S128x32 := by
  show StableHlo.after main_part1_ops0 (StableHlo.after main_part0_ops2 (StableHlo.after main_part0_ops1 (StableHlo.after main_part0_ops0 (W0 m ρ c)))) (Proc.devRef .tc main_v67) = _
  after_results_simp
  rfl
theorem v68_eq : (V4 m ρ c main_v68 : S1x32.Idx → EReal) = shapeCast S1x32 (a5 m c) shapeCasts_S32_S1x32 := by
  show StableHlo.after main_part1_ops0 (StableHlo.after main_part0_ops2 (StableHlo.after main_part0_ops1 (StableHlo.after main_part0_ops0 (W0 m ρ c)))) (Proc.devRef .tc main_v68) = _
  after_results_simp
  rfl

/-! ## What later stretches read of the first ones: never rewritten, so as written -/

theorem W3_v1 : (W3 m ρ c (Proc.devRef .tc main_v1) : S1600000.Idx → BitVec 32) = val_main_v1 (F := Ideal) (a1 m c) :=
  (show W3 m ρ c (Proc.devRef .tc main_v1) = W2 m ρ c (Proc.devRef .tc main_v1) by keeps).trans (W2_v1 m ρ c)
theorem W3_v3 : (W3 m ρ c (Proc.devRef .tc main_v3) : S1600000.Idx → BitVec 32) = val_main_v3 (F := Ideal) (a1 m c) :=
  (show W3 m ρ c (Proc.devRef .tc main_v3) = W2 m ρ c (Proc.devRef .tc main_v3) by keeps).trans (W2_v3 m ρ c)
theorem W3_v26 : (W3 m ρ c (Proc.devRef .tc main_v26) : S1600000.Idx → EReal) = val_main_v26 (F := Ideal) (a1 m c) (a2 m c) :=
  mid_v26 (W2 m ρ c) (a1 m c) (a2 m c) (W2_v1 m ρ c) (W2_v3 m ρ c) (W2_v10 m ρ c) (W2_arg2 m ρ c)
theorem W4_v1 : (W4 m ρ c (Proc.devRef .tc main_v1) : S1600000.Idx → BitVec 32) = val_main_v1 (F := Ideal) (a1 m c) :=
  (show W4 m ρ c (Proc.devRef .tc main_v1) = W3 m ρ c (Proc.devRef .tc main_v1) by keeps).trans (W3_v1 m ρ c)
theorem W4_v3 : (W4 m ρ c (Proc.devRef .tc main_v3) : S1600000.Idx → BitVec 32) = val_main_v3 (F := Ideal) (a1 m c) :=
  (show W4 m ρ c (Proc.devRef .tc main_v3) = W3 m ρ c (Proc.devRef .tc main_v3) by keeps).trans (W3_v3 m ρ c)
theorem W4_v26 : (W4 m ρ c (Proc.devRef .tc main_v26) : S1600000.Idx → EReal) = val_main_v26 (F := Ideal) (a1 m c) (a2 m c) :=
  (show W4 m ρ c (Proc.devRef .tc main_v26) = W3 m ρ c (Proc.devRef .tc main_v26) by keeps).trans (W3_v26 m ρ c)
theorem W4_main_arg3 : W4 m ρ c (Proc.devRef .tc main_arg3) = m ((c : Thread nD τ).loc main_arg3) :=
  calc W4 m ρ c (Proc.devRef .tc main_arg3)
    _ = W3 m ρ c (Proc.devRef .tc main_arg3) := by keeps
    _ = W2 m ρ c (Proc.devRef .tc main_arg3) := by keeps
    _ = W1 m ρ c (Proc.devRef .tc main_arg3) := by keeps
    _ = W0 m ρ c (Proc.devRef .tc main_arg3) := by keeps
    _ = m ((c : Thread nD τ).loc main_arg3) := rfl
theorem W4_main_arg6 : W4 m ρ c (Proc.devRef .tc main_arg6) = m ((c : Thread nD τ).loc main_arg6) :=
  calc W4 m ρ c (Proc.devRef .tc main_arg6)
    _ = W3 m ρ c (Proc.devRef .tc main_arg6) := by keeps
    _ = W2 m ρ c (Proc.devRef .tc main_arg6) := by keeps
    _ = W1 m ρ c (Proc.devRef .tc main_arg6) := by keeps
    _ = W0 m ρ c (Proc.devRef .tc main_arg6) := by keeps
    _ = m ((c : Thread nD τ).loc main_arg6) := rfl
theorem W4_main_arg7 : W4 m ρ c (Proc.devRef .tc main_arg7) = m ((c : Thread nD τ).loc main_arg7) :=
  calc W4 m ρ c (Proc.devRef .tc main_arg7)
    _ = W3 m ρ c (Proc.devRef .tc main_arg7) := by keeps
    _ = W2 m ρ c (Proc.devRef .tc main_arg7) := by keeps
    _ = W1 m ρ c (Proc.devRef .tc main_arg7) := by keeps
    _ = W0 m ρ c (Proc.devRef .tc main_arg7) := by keeps
    _ = m ((c : Thread nD τ).loc main_arg7) := rfl
theorem W4_main_arg8 : W4 m ρ c (Proc.devRef .tc main_arg8) = m ((c : Thread nD τ).loc main_arg8) :=
  calc W4 m ρ c (Proc.devRef .tc main_arg8)
    _ = W3 m ρ c (Proc.devRef .tc main_arg8) := by keeps
    _ = W2 m ρ c (Proc.devRef .tc main_arg8) := by keeps
    _ = W1 m ρ c (Proc.devRef .tc main_arg8) := by keeps
    _ = W0 m ρ c (Proc.devRef .tc main_arg8) := by keeps
    _ = m ((c : Thread nD τ).loc main_arg8) := rfl
theorem W4_main_arg9 : W4 m ρ c (Proc.devRef .tc main_arg9) = m ((c : Thread nD τ).loc main_arg9) :=
  calc W4 m ρ c (Proc.devRef .tc main_arg9)
    _ = W3 m ρ c (Proc.devRef .tc main_arg9) := by keeps
    _ = W2 m ρ c (Proc.devRef .tc main_arg9) := by keeps
    _ = W1 m ρ c (Proc.devRef .tc main_arg9) := by keeps
    _ = W0 m ρ c (Proc.devRef .tc main_arg9) := by keeps
    _ = m ((c : Thread nD τ).loc main_arg9) := rfl

/-! ## Region 1's entry -/

theorem v69_eq : (V6 m ρ c main_v69 : S100000x32.Idx → EReal) = (dat0 (V4 m ρ) c).arrAt 3 cfg0.N :=
  (show W6 m ρ c (Proc.devRef .tc main_v69) = W5 m ρ c (Proc.devRef .tc main_v69) by keeps).trans (W5_arr m ρ c 3)

theorem W5_main_arg8 : W5 m ρ c (Proc.devRef .tc main_arg8) = m ((c : Thread nD τ).loc main_arg8) :=
  (W5_of_ne m ρ c main_arg8 (by decide)).trans (W4_main_arg8 m ρ c)
theorem W5_main_arg9 : W5 m ρ c (Proc.devRef .tc main_arg9) = m ((c : Thread nD τ).loc main_arg9) :=
  (W5_of_ne m ρ c main_arg9 (by decide)).trans (W4_main_arg9 m ρ c)

theorem v70_eq : (V6 m ρ c main_v70 : S100000x1.Idx → EReal) = shapeCast S100000x1 (a8 m c) shapeCasts_S100000_S100000x1 := by
  show StableHlo.after main_part1_ops1 (W5 m ρ c) (Proc.devRef .tc main_v70) = _
  after_results
  rw [W5_main_arg8 m ρ c]
  rfl
theorem v71_eq : (V6 m ρ c main_v71 : S100000x1.Idx → EReal) = shapeCast S100000x1 (a9 m c) shapeCasts_S100000_S100000x1 := by
  show StableHlo.after main_part1_ops1 (W5 m ρ c) (Proc.devRef .tc main_v71) = _
  after_results
  rw [W5_main_arg9 m ρ c]
  rfl

/-! ## Region 2's entry -/

/-- Region 1's output array as the pipeline leaves it: the second layer's input features. -/
abbrev o1 : Forms.Feat := (dat1 (V6 m ρ) c).arrAt 3 cfg1.N

/-- A buffer that neither region 0, the two operations after it, nor region 1 writes is at region 1's exit what it was at
    region 0's entry. -/
theorem W7_of_W4 (b : Ref sig .tc) (h0 : ∀ w, Pipeline.arrRef spec0 w ≠ b) (h1 : ∀ w, Pipeline.arrRef spec1 w ≠ b)
    (hk : StableHlo.after main_part1_ops1 (W5 m ρ c) (Proc.devRef .tc b) = W5 m ρ c (Proc.devRef .tc b)) :
    W7 m ρ c (Proc.devRef .tc b) = W4 m ρ c (Proc.devRef .tc b) :=
  (W7_of_ne m ρ c b h1).trans (hk.trans (W5_of_ne m ρ c b h0))

theorem W7_v72 : (W7 m ρ c (Proc.devRef .tc main_v72) : S100000x32.Idx → EReal) = o1 m ρ c := W7_arr m ρ c 3
theorem W7_v1 : (W7 m ρ c (Proc.devRef .tc main_v1) : S1600000.Idx → BitVec 32) = val_main_v1 (F := Ideal) (a1 m c) :=
  (W7_of_W4 m ρ c main_v1 (by decide) (by decide) (by keeps)).trans (W4_v1 m ρ c)
theorem W7_v3 : (W7 m ρ c (Proc.devRef .tc main_v3) : S1600000.Idx → BitVec 32) = val_main_v3 (F := Ideal) (a1 m c) :=
  (W7_of_W4 m ρ c main_v3 (by decide) (by decide) (by keeps)).trans (W4_v3 m ρ c)
theorem W7_v26 : (W7 m ρ c (Proc.devRef .tc main_v26) : S1600000.Idx → EReal) = val_main_v26 (F := Ideal) (a1 m c) (a2 m c) :=
  (W7_of_W4 m ρ c main_v26 (by decide) (by decide) (by keeps)).trans (W4_v26 m ρ c)
theorem W7_main_arg3 : W7 m ρ c (Proc.devRef .tc main_arg3) = m ((c : Thread nD τ).loc main_arg3) :=
  (W7_of_W4 m ρ c main_arg3 (by decide) (by decide) (by keeps)).trans (W4_main_arg3 m ρ c)
theorem W7_main_arg6 : W7 m ρ c (Proc.devRef .tc main_arg6) = m ((c : Thread nD τ).loc main_arg6) :=
  (W7_of_W4 m ρ c main_arg6 (by decide) (by decide) (by keeps)).trans (W4_main_arg6 m ρ c)
theorem W7_main_arg7 : W7 m ρ c (Proc.devRef .tc main_arg7) = m ((c : Thread nD τ).loc main_arg7) :=
  (W7_of_W4 m ρ c main_arg7 (by decide) (by decide) (by keeps)).trans (W4_main_arg7 m ρ c)

theorem v112_eq : (V9 m ρ c main_v112 : S100000x128.Idx → EReal)
    = concatenate S100000x128 1 [⟨S100000x32, o1 m ρ c⟩, ⟨S100000x32, hopK m c (o1 m ρ c)⟩, ⟨S100000x32, hopK m c (hopK m c (o1 m ρ c))⟩,
        ⟨S100000x32, hopK m c (hopK m c (hopK m c (o1 m ρ c)))⟩] concatenates_S100000x32_S100000x32_S100000x32_S100000x32_S100000x128_d1 :=
  tail_v112 (W7 m ρ c) (o1 m ρ c) (a1 m c) (a2 m c) (W7_v72 m ρ c) (W7_v1 m ρ c) (W7_v3 m ρ c) (W7_v26 m ρ c)

theorem v113_eq : (V9 m ρ c main_v113 : S128x32.Idx → EReal) = shapeCast S128x32 (a6 m c) shapeCasts_S4x32x32_S128x32 := by
  show StableHlo.after main_part2_ops0 (StableHlo.after main_part1_ops2 (W7 m ρ c)) (Proc.devRef .tc main_v113) = _
  after_results_simp
  rw [W7_main_arg6 m ρ c]
  rfl
theorem v114_eq : (V9 m ρ c main_v114 : S1x32.Idx → EReal) = shapeCast S1x32 (a7 m c) shapeCasts_S32_S1x32 := by
  show StableHlo.after main_part2_ops0 (StableHlo.after main_part1_ops2 (W7 m ρ c)) (Proc.devRef .tc main_v114) = _
  after_results_simp
  rw [W7_main_arg7 m ρ c]
  rfl
theorem v115_eq : (V9 m ρ c main_v115 : S100000x1.Idx → EReal) = shapeCast S100000x1 (a3 m c) shapeCasts_S100000_S100000x1 := by
  show StableHlo.after main_part2_ops0 (StableHlo.after main_part1_ops2 (W7 m ρ c)) (Proc.devRef .tc main_v115) = _
  after_results_simp
  rw [W7_main_arg3 m ρ c]
  rfl

/-! ## The result -/

theorem v116_eq : (W10 m ρ c (Proc.devRef .tc main_v116) : S100000x32.Idx → EReal) = (dat2 (V9 m ρ) c).arrAt 4 cfg2.N :=
  W10_arr m ρ c 4

end Cert.KernelIdeal.HostVals

end
-- ==== Proof.Bridge.lean ====
/-
  The kernel program's result is the reference's.

  Entry by entry. The first launched kernel leaves, at node n and lane c, the sum over the 128 joined lanes of
  (joined features of n) * (stacked weights' column c) plus the bias: the joined lanes are the node's own features and its
  three propagated features, the stacked rows the four weight matrices, so this is the reference's first layer before the
  normalisation — the four 32-lane sums added in order. The second kernel normalises each row and applies the leaky
  threshold exactly as the reference does, row by row. The third is the first again, on the second's output, times the mask.
  The propagation step is one function on both sides and is never opened.
-/
import proofs.«151591_j33251636806000_1_alg».proof.Proof.FrameKI.Fold
import proofs.«151591_j33251636806000_1_alg».proof.Proof.Closed0
import proofs.«151591_j33251636806000_1_alg».proof.Proof.Closed1
import proofs.«151591_j33251636806000_1_alg».proof.Proof.Closed2
import proofs.«151591_j33251636806000_1_alg».proof.Proof.HostVals
import proofs.«151591_j33251636806000_1_alg».proof.Proof.RefForms
import proofs.«151591_j33251636806000_1_alg».proof.Proof.LibHopJoin
import proofs.«151591_j33251636806000_1_alg».proof.Proof.LibBnRow
import proofs.«151591_j33251636806000_1_alg».proof.Proof.LibRowLayout

noncomputable section

open scoped BigOperators

namespace Cert.KernelIdeal.Bridge

open Cert.KernelIdeal Cert.KernelIdeal.Gen Cert.KernelIdeal.Hand Cert.KernelIdeal.Closed Cert.KernelIdeal.HostVals
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The first kernel's output is the reference's first layer before the normalisation, entry by entry: the joined
    128-lane sum against the stacked weights is the four 32-lane sums against the four matrices, added in order. -/
theorem layer1_eq (n : Fin 100000) (k : Fin 32) :
    (V6 m ρ c main_v69 : S100000x32.Idx → EReal) (ix2 n k)
      = Cert.ReferenceIdeal.ReadP.val_main_v83 (F := Ideal) (a0 m c) (a1 m c) (a2 m c) (a4 m c) (a5 m c) (ix2 n k) := by
  rw [v69_eq m ρ c, final0 (V4 m ρ) c]
  show (∑ j : Fin 128, aH (V4 m ρ) c (ix2 n j) * aW (V4 m ρ) c (ix2 j k)) + aB (V4 m ρ) c (ix2 (0 : Fin 1) k) = _
  rw [show aH (V4 m ρ) c = _ from v66_eq m ρ c, show aW (V4 m ρ) c = _ from v67_eq m ρ c,
    show aB (V4 m ρ) c = _ from v68_eq m ρ c, Cert.ReferenceIdeal.Forms.layer1_apply]
  exact Cert.HopJoin.joined_apply (a0 m c) (hopK m c (a0 m c)) (hopK m c (hopK m c (a0 m c)))
    (hopK m c (hopK m c (hopK m c (a0 m c)))) (a4 m c) (a5 m c)
    concatenates_S100000x32_S100000x32_S100000x32_S100000x32_S100000x128_d1 shapeCasts_S4x32x32_S128x32 shapeCasts_S32_S1x32 n k

/-- The second kernel's output is the reference's first layer after the normalisation and the threshold. -/
theorem mid_eq : o1 m ρ c = Cert.ReferenceIdeal.Forms.mid (a0 m c) (a1 m c) (a2 m c) (a4 m c) (a5 m c) (a8 m c) (a9 m c) := by
  funext i
  obtain ⟨n, q, rfl⟩ : ∃ (n : Fin 100000) (q : Fin 32), i = ix2 n q := ⟨i 0, i 1, eq_ix2 i⟩
  rw [Cert.ReferenceIdeal.Forms.mid_apply]
  show (dat1 (V6 m ρ) c).arrAt 3 cfg1.N (ix2 n q) = _
  rw [final1 (V6 m ρ) c]
  show Cert.BnRow.leaky _ _ (Cert.BnRow.bnRow _ _ (fun k : Fin 32 => (V6 m ρ c main_v69 : S100000x32.Idx → EReal) (ix2 n k))
      ((V6 m ρ c main_v70 : S100000x1.Idx → EReal) (ix2 n (0 : Fin 1))) ((V6 m ρ c main_v71 : S100000x1.Idx → EReal) (ix2 n (0 : Fin 1))) q) = _
  rw [v70_eq m ρ c, v71_eq m ρ c, Cert.RowLayout.castCol_apply (a8 m c) shapeCasts_S100000_S100000x1 n,
    Cert.RowLayout.castCol_apply (a9 m c) shapeCasts_S100000_S100000x1 n]
  have hrow : (fun k : Fin 32 => (V6 m ρ c main_v69 : S100000x32.Idx → EReal) (ix2 n k))
      = fun k : Fin 32 => Cert.ReferenceIdeal.ReadP.val_main_v83 (F := Ideal) (a0 m c) (a1 m c) (a2 m c) (a4 m c) (a5 m c) (ix2 n k) :=
    funext fun k => layer1_eq m ρ c n k
  rw [hrow]

/-- THE KERNEL'S RESULT IS THE REFERENCE'S: the third kernel's output array is the reference's result stage of the same
    argument arrays. -/
theorem kernel_value :
    (W10 m ρ c (Proc.devRef .tc main_v116) : S100000x32.Idx → EReal)
      = Cert.ReferenceIdeal.ReadP.val_main_v172 (F := Ideal) (a0 m c) (a1 m c) (a2 m c) (a3 m c) (a4 m c) (a5 m c) (a6 m c) (a7 m c)
          (a8 m c) (a9 m c) := by
  rw [v116_eq m ρ c, final2 (V9 m ρ) c]
  funext i
  obtain ⟨n, q, rfl⟩ : ∃ (n : Fin 100000) (q : Fin 32), i = ix2 n q := ⟨i 0, i 1, eq_ix2 i⟩
  show ((∑ j : Fin 128, aH2 (V9 m ρ) c (ix2 n j) * aW2 (V9 m ρ) c (ix2 j q)) + aB2 (V9 m ρ) c (ix2 (0 : Fin 1) q))
      * aM2 (V9 m ρ) c (ix2 n (0 : Fin 1)) = _
  rw [show aH2 (V9 m ρ) c = _ from v112_eq m ρ c, show aW2 (V9 m ρ) c = _ from v113_eq m ρ c,
    show aB2 (V9 m ρ) c = _ from v114_eq m ρ c, show aM2 (V9 m ρ) c = _ from v115_eq m ρ c,
    Cert.RowLayout.castCol_apply (a3 m c) shapeCasts_S100000_S100000x1 n,
    Cert.ReferenceIdeal.Forms.result_apply, Cert.ReferenceIdeal.Forms.layer2_apply, mid_eq m ρ c]
  refine congrArg (· * _) ?_
  exact Cert.HopJoin.joined_apply _ _ _ _ (a6 m c) (a7 m c)
    concatenates_S100000x32_S100000x32_S100000x32_S100000x32_S100000x128_d1 shapeCasts_S4x32x32_S128x32 shapeCasts_S32_S1x32 n q

end Cert.KernelIdeal.Bridge

end
-- ==== Proof.lean ====
/-
  A two-layer graph network — per layer: each node's features and three successive propagations of them along the
  weighted, degree-normalised edges, combined by four weight matrices and a bias; between the layers a per-node
  normalisation over the 32 lanes with a per-node scale and shift and a leaky threshold; at the end a per-node mask.

  The kernel program propagates on the host, joins the four feature arrays along the lanes and multiplies ONCE by the
  weight stack viewed as a 128 x 32 matrix, in blocks of 5000 nodes on the matrix unit (three launched kernels: combine,
  normalise, combine-and-mask); the reference slices the stack into its four matrices, multiplies four times and adds.
  On the exact extended reals the roundings on the way into the matrix unit are the identity, and the one 128-lane sum is
  the four 32-lane sums added in order (associativity and commutativity of the sum only — no finiteness is used). The
  propagation steps are the same host operations in both programs and are carried as one function, never opened.

  The three frames: each kernel program's run is the composition of its host stretches and its three launched kernels
  (every block loaded whole, one store over the whole output block, the twenty blocks tiling the rows); the reference's
  run is its operation list's. The ideal pass rewrote nothing, so `preserves` is trivial.
-/
import proofs.«151591_j33251636806000_1_alg».proof.Defs
import proofs.«151591_j33251636806000_1_alg».proof.Proof.Gen.Kernel
import proofs.«151591_j33251636806000_1_alg».proof.Proof.Gen.KernelIdeal
import proofs.«151591_j33251636806000_1_alg».proof.Proof.Gen.ReferenceIdeal
import proofs.«151591_j33251636806000_1_alg».proof.Proof.Gen.Pre_finite_inputs
import proofs.«151591_j33251636806000_1_alg».proof.Proof.FrameK.MainRun
import proofs.«151591_j33251636806000_1_alg».proof.Proof.FrameKI.MainRun
import proofs.«151591_j33251636806000_1_alg».proof.Proof.RefRunP
import proofs.«151591_j33251636806000_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

open Cert.KernelIdeal Cert.KernelIdeal.Gen Cert.KernelIdeal.Hand Cert.KernelIdeal.HostVals in
/-- Both programs end with the reference's result stage of the (agreeing) argument arrays: the kernel program's third
    output array is that stage (`Bridge.kernel_value`), the reference's run states it. -/
theorem algebraic : Cert.algebraic_KernelIdeal_ReferenceIdeal := by
  intro m ρ m' ρ' _ hagree
  refine ⟨fun c => Cert.ReferenceIdeal.ReadP.val_main_v172 (F := Ideal) (a0 m c) (a1 m c) (a2 m c) (a3 m c) (a4 m c) (a5 m c) (a6 m c) (a7 m c) (a8 m c) (a9 m c), ?_, ?_⟩
  · exact Cert.KernelIdeal.Hand.run_of (F := Ideal) m ρ fun s h c =>
      ⟨(h c _ (mem_uc main_v116 (by decide))).trans (Cert.KernelIdeal.Bridge.kernel_value m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9⟩ := hagree c
    unfold Cert.ReferenceIdeal.ValueP.res_main_v172
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
